-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S384x128 .f32) (main_arg14 : FVec F S128 .f32) (main_arg15 : FVec F S128x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S384x128 .f32 := Host.absf main_arg13
  let main_cst_20 : FVec F S_ .f32 := constant S_ .f32 0x7F800000#32
  let main_v55 : FVec F S384x128 .f32 := broadcastInDim S384x128 ![] bcast_S_S384x128 main_cst_20
  let main_v56 : IVec S384x128 1 := cmpf .olt main_v54 main_v55
  let main_c_21 : IVec S_ 1 := constantI S_ 1 1#1
  let main_v57 : IVec S_ 1 := (fun x v => Host.reduce IntOp.andi x v reducesTo_S384x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S384x128 .f32) (main_arg14 : FVec F S128 .f32) (main_arg15 : FVec F S128x128 .f32) (main_arg16 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S384x128 .f32) (main_arg14 : FVec F S128 .f32) (main_arg15 : FVec F S128x128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S384x128 .f32) (main_arg14 : FVec F S128 .f32) (main_arg15 : FVec F S128x128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S384x128 : Shape := ⟨2, ![384, 128]⟩
abbrev S1x600000 : Shape := ⟨2, ![1, 600000]⟩
abbrev S600000 : Shape := ⟨1, ![600000]⟩
abbrev S1x128 : Shape := ⟨2, ![1, 128]⟩
abbrev S2000x128 : Shape := ⟨2, ![2000, 128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S2000x1 : Shape := ⟨2, ![2000, 1]⟩
abbrev S512x128 : Shape := ⟨2, ![512, 128]⟩
abbrev S512 : Shape := ⟨1, ![512]⟩
abbrev S512x1 : Shape := ⟨2, ![512, 1]⟩
abbrev S512x384 : Shape := ⟨2, ![512, 384]⟩

abbrev nBuf : Space → Nat
  | .hbm => 110
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S384x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S1x128, .f32⟩
  | .hbm, ⟨22, _⟩ => ⟨S50000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S50000x128, .f32⟩
  | .hbm, ⟨34, _⟩ => ⟨S600000x1, .i32⟩
  | .hbm, ⟨35, _⟩ => ⟨S50000x128, .f32⟩
  | .hbm, ⟨36, _⟩ => ⟨S_, .f32⟩
  | .hbm, ⟨37, _⟩ => ⟨S600000, .f32⟩
  | .hbm, ⟨38, _⟩ => ⟨S_, .f32⟩
  | .hbm, ⟨39, _⟩ => ⟨S50000, .f32⟩
  | .hbm, ⟨40, _⟩ => ⟨S600000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S1x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S50000x128, .f32⟩
  | .hbm, ⟨62, _⟩ => ⟨S600000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S600000, .i32⟩
  | .hbm, ⟨69, _⟩ => ⟨S600000, .i1⟩
  | .hbm, ⟨70, _⟩ => ⟨S_, .i32⟩
  | .hbm, ⟨71, _⟩ => ⟨S600000, .i32⟩
  | .hbm, ⟨72, _⟩ => ⟨S600000, .i32⟩
  | .hbm, ⟨73, _⟩ => ⟨S600000, .i32⟩
  | .hbm, ⟨74, _⟩ => ⟨S600000x1, .i32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S_, .f32⟩
  | .hbm, ⟨83, _⟩ => ⟨S50000, .f32⟩
  | .hbm, ⟨84, _⟩ => ⟨S_, .f32⟩
  | .hbm, ⟨85, _⟩ => ⟨S512x128, .f32⟩
  | .hbm, ⟨86, _⟩ => ⟨S50000x1, .i32⟩
  | .hbm, ⟨87, _⟩ => ⟨S512x128, .f32⟩
  | .hbm, ⟨88, _⟩ => ⟨S_, .f32⟩
  | .hbm, ⟨89, _⟩ => ⟨S512x128, .f32⟩
  | .hbm, ⟨90, _⟩ => ⟨S50000x1, .i32⟩
  | .hbm, ⟨91, _⟩ => ⟨S512x128, .f32⟩
  | .hbm, ⟨92, _⟩ => ⟨S_, .f32⟩
  | .hbm, ⟨93, _⟩ => ⟨S512x128, .f32⟩
  | .hbm, ⟨94, _⟩ => ⟨S50000x1, .i32⟩
  | .hbm, ⟨95, _⟩ => ⟨S512x128, .f32⟩
  | .hbm, ⟨96, _⟩ => ⟨S_, .f32⟩
  | .hbm, ⟨97, _⟩ => ⟨S512, .f32⟩
  | .hbm, ⟨98, _⟩ => ⟨S50000x1, .i32⟩
  | .hbm, ⟨99, _⟩ => ⟨S512, .f32⟩
  | .hbm, ⟨100, _⟩ => ⟨S_, .f32⟩
  | .hbm, ⟨101, _⟩ => ⟨S512, .f32⟩
  | .hbm, ⟨102, _⟩ => ⟨S512, .f32⟩
  | .hbm, ⟨103, _⟩ => ⟨S512x1, .f32⟩
  | .hbm, ⟨104, _⟩ => ⟨S512x384, .f32⟩
  | .hbm, ⟨105, _⟩ => ⟨S512x384, .f32⟩
  | .hbm, ⟨106, _⟩ => ⟨S512x384, .f32⟩
  | .hbm, ⟨107, _⟩ => ⟨S1x128, .f32⟩
  | .hbm, ⟨108, _⟩ => ⟨S1x128, .f32⟩
  | .hbm, ⟨109, _⟩ => ⟨S512x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S128x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S512x384, .f32⟩
  | .local _ .vmem, ⟨43, _⟩ => ⟨S384x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38_0 : Ref sig .tc := ⟨.hbm, 65, rfl⟩
abbrev main_v38_1 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_13 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_15 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem4_1 : DmaSem sig := 41
abbrev cc4_sem0_0 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x384 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S384x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  concatenates_S512x128_S512x128_S512x128_S512x384_d1 : Shape.Concatenates [S512x128, S512x128, S512x128] S512x384 1
  bcast_S512x1_S512x384_0_1 : S512x1.BroadcastsInDim S512x384 (![0, 1] : Fin 2 → Fin S512x384.rank)
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384x128_S384x128_0_0 : ∀ a, (![0, 0] : Fin 2 → Nat) a + S384x128.size a ≤ S384x128.size a
  h_S384x128 : 0 < S384x128.numel
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x384_S384x128_S512x128_1_0_0_1_n_n_wf : DotDims.WF S512x384 S384x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x384.size a ≤ S512x384.size a
  hwx4_0 : ∀ i : grid4.Coords, EltTy.bits .f32 = 32 ∨ (Rect.block (s := S512x384) S512x384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x128.size a ≤ S384x128.size a
  hwx4_1 : ∀ i : grid4.Coords, EltTy.bits .f32 = 32 ∨ (Rect.block (s := S384x128) S384x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x128.size a ≤ S512x128.size a
  hwx4_5 : ∀ i : grid4.Coords, EltTy.bits .f32 = 32 ∨ (Rect.block (s := S512x128) S512x128.size (cc4_transform_5 i) (hinb4_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26_0) S2000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v26_1) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v38_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v48) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v69) S512x384.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S384x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S512x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S384x128 : Shape := ⟨2, ![384, 128]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S50000x384 : Shape := ⟨2, ![50000, 384]⟩
abbrev S512x384 : Shape := ⟨2, ![512, 384]⟩
abbrev S512 : Shape := ⟨1, ![512]⟩
abbrev S512x1 : Shape := ⟨2, ![512, 1]⟩
abbrev S512x128 : Shape := ⟨2, ![512, 128]⟩

abbrev nBuf : Space → Nat
  | .hbm => 202
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S384x128, .f32⟩
  | 14 => ⟨S128, .f32⟩
  | 15 => ⟨S128x128, .f32⟩
  | 16 => ⟨S128, .f32⟩
  | 17 => ⟨S1x600000, .i32⟩
  | 18 => ⟨S600000, .i32⟩
  | 19 => ⟨S1x600000, .i32⟩
  | 20 => ⟨S600000, .i32⟩
  | 21 => ⟨S50000x128, .f32⟩
  | 22 => ⟨S1x128, .f32⟩
  | 23 => ⟨S50000x128, .f32⟩
  | 24 => ⟨S50000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S_, .f32⟩
  | 35 => ⟨S50000x128, .f32⟩
  | 36 => ⟨S600000x1, .i32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S_, .f32⟩
  | 52 => ⟨S600000, .f32⟩
  | 53 => ⟨S_, .f32⟩
  | 54 => ⟨S50000, .f32⟩
  | 55 => ⟨S600000x1, .i32⟩
  | 56 => ⟨S50000, .f32⟩
  | 57 => ⟨S_, .f32⟩
  | 58 => ⟨S50000, .f32⟩
  | 59 => ⟨S50000, .f32⟩
  | 60 => ⟨S50000, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000, .f32⟩
  | 79 => ⟨S600000, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S600000x1, .f32⟩
  | 90 => ⟨S600000x128, .f32⟩
  | 91 => ⟨S600000x128, .f32⟩
  | 92 => ⟨S_, .f32⟩
  | 93 => ⟨S50000x128, .f32⟩
  | 94 => ⟨S600000x1, .i32⟩
  | 95 => ⟨S50000x128, .f32⟩
  | 96 => ⟨S50000, .f32⟩
  | 97 => ⟨S50000x1, .f32⟩
  | 98 => ⟨S50000x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x128, .f32⟩
  | 108 => ⟨S_, .f32⟩
  | 109 => ⟨S600000, .f32⟩
  | 110 => ⟨S_, .f32⟩
  | 111 => ⟨S50000, .f32⟩
  | 112 => ⟨S600000x1, .i32⟩
  | 113 => ⟨S50000, .f32⟩
  | 114 => ⟨S_, .f32⟩
  | 115 => ⟨S50000, .f32⟩
  | 116 => ⟨S50000, .f32⟩
  | 117 => ⟨S50000, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000, .f32⟩
  | 127 => ⟨S_, .i32⟩
  | _ => ⟨S50000x128, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000, .f32⟩
  | 8 => ⟨S600000, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S600000x1, .f32⟩
  | 19 => ⟨S600000x128, .f32⟩
  | 20 => ⟨S600000x128, .f32⟩
  | 21 => ⟨S_, .f32⟩
  | 22 => ⟨S50000x128, .f32⟩
  | 23 => ⟨S600000x1, .i32⟩
  | 24 => ⟨S50000x128, .f32⟩
  | 25 => ⟨S50000, .f32⟩
  | 26 => ⟨S50000x1, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x384, .f32⟩
  | 37 => ⟨S_, .f32⟩
  | 38 => ⟨S512x384, .f32⟩
  | 39 => ⟨S50000x1, .i32⟩
  | 40 => ⟨S512x384, .f32⟩
  | 41 => ⟨S_, .f32⟩
  | 42 => ⟨S50000, .f32⟩
  | 43 => ⟨S_, .f32⟩
  | 44 => ⟨S512, .f32⟩
  | 45 => ⟨S50000x1, .i32⟩
  | 46 => ⟨S512, .f32⟩
  | 47 => ⟨S_, .f32⟩
  | 48 => ⟨S512, .f32⟩
  | 49 => ⟨S512, .f32⟩
  | 50 => ⟨S512x1, .f32⟩
  | 51 => ⟨S512x384, .f32⟩
  | 52 => ⟨S512x384, .f32⟩
  | 53 => ⟨S512x128, .f32⟩
  | 54 => ⟨S1x128, .f32⟩
  | 55 => ⟨S512x128, .f32⟩
  | 56 => ⟨S512x128, .f32⟩
  | 57 => ⟨S_, .f32⟩
  | 58 => ⟨S512x128, .f32⟩
  | 59 => ⟨S512x128, .f32⟩
  | 60 => ⟨S512x128, .f32⟩
  | 61 => ⟨S1x128, .f32⟩
  | 62 => ⟨S512x128, .f32⟩
  | 63 => ⟨S512x128, .f32⟩
  | 64 => ⟨S512x128, .f32⟩
  | 65 => ⟨S_, .f32⟩
  | 66 => ⟨S512, .f32⟩
  | 67 => ⟨S512x1, .f32⟩
  | 68 => ⟨S512x1, .f32⟩
  | 69 => ⟨S_, .f32⟩
  | 70 => ⟨S512x1, .f32⟩
  | 71 => ⟨S512x1, .f32⟩
  | 72 => ⟨S512x128, .f32⟩
  | 73 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_4 : Ref sig .tc := ⟨.hbm, 61, rfl⟩
abbrev main_v36 : Ref sig .tc := ⟨.hbm, 62, rfl⟩
abbrev main_v37 : Ref sig .tc := ⟨.hbm, 63, rfl⟩
abbrev main_c_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_6 : Ref sig .tc := ⟨.hbm, 70, rfl⟩
abbrev main_v43 : Ref sig .tc := ⟨.hbm, 71, rfl⟩
abbrev main_v44 : Ref sig .tc := ⟨.hbm, 72, rfl⟩
abbrev main_c_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_8 : Ref sig .tc := ⟨.hbm, 80, rfl⟩
abbrev main_v51 : Ref sig .tc := ⟨.hbm, 81, rfl⟩
abbrev main_v52 : Ref sig .tc := ⟨.hbm, 82, rfl⟩
abbrev main_c_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call1_cst : Ref sig .tc := ⟨.hbm, 104, rfl⟩
abbrev main_call1_v0 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_14 : Ref sig .tc := ⟨.hbm, 118, rfl⟩
abbrev main_v81 : Ref sig .tc := ⟨.hbm, 119, rfl⟩
abbrev main_v82 : Ref sig .tc := ⟨.hbm, 120, rfl⟩
abbrev main_c_15 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_16 : Ref sig .tc := ⟨.hbm, 127, rfl⟩
abbrev main_v88 : Ref sig .tc := ⟨.hbm, 128, rfl⟩
abbrev main_v89 : Ref sig .tc := ⟨.hbm, 129, rfl⟩
abbrev main_c_17 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_18 : Ref sig .tc := ⟨.hbm, 137, rfl⟩
abbrev main_v96 : Ref sig .tc := ⟨.hbm, 138, rfl⟩
abbrev main_v97 : Ref sig .tc := ⟨.hbm, 139, rfl⟩
abbrev main_c_19 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_20 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_call2_cst : Ref sig .tc := ⟨.hbm, 161, rfl⟩
abbrev main_call2_v0 : Ref sig .tc := ⟨.hbm, 162, rfl⟩
abbrev main_v117 : Ref sig .tc := ⟨.hbm, 163, rfl⟩
abbrev main_v118 : Ref sig .tc := ⟨.hbm, 164, rfl⟩
abbrev main_cst_21 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_22 : Ref sig .tc := ⟨.hbm, 169, rfl⟩
abbrev main_v122 : Ref sig .tc := ⟨.hbm, 170, rfl⟩
abbrev main_cst_23 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_24 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_call3_cst : Ref sig .tc := ⟨.hbm, 185, rfl⟩
abbrev main_call3_v0 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_call4_v0 : Ref sig .tc := ⟨.hbm, 192, rfl⟩
abbrev main_call4_cst : Ref sig .tc := ⟨.hbm, 193, rfl⟩
abbrev main_call4_v1 : Ref sig .tc := ⟨.hbm, 194, rfl⟩
abbrev main_call4_v2 : Ref sig .tc := ⟨.hbm, 195, rfl⟩
abbrev main_v140 : Ref sig .tc := ⟨.hbm, 196, rfl⟩
abbrev main_cst_25 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S600000x1_S600000x128_0_1 : S600000x1.BroadcastsInDim S600000x128 (![0, 1] : Fin 2 → Fin S600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  bcast_S_S512x384 : S_.BroadcastsInDim S512x384 (![] : Fin 0 → Fin S512x384.rank)
  bcast_S_S512 : S_.BroadcastsInDim S512 (![] : Fin 0 → Fin S512.rank)
  bcast_S512_S512x1_0 : S512.BroadcastsInDim S512x1 (![0] : Fin 1 → Fin S512x1.rank)
  bcast_S512x1_S512x384_0_1 : S512x1.BroadcastsInDim S512x384 (![0, 1] : Fin 2 → Fin S512x384.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  reducesTo_S512x128_S512_d1 : S512x128.ReducesTo [1] S512
  h_S_ : 0 < S_.numel
  bcast_S_S512x1 : S_.BroadcastsInDim S512x1 (![] : Fin 0 → Fin S512x1.rank)
  bcast_S512x1_S512x128_0_1 : S512x1.BroadcastsInDim S512x128 (![0, 1] : Fin 2 → Fin S512x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  scatter_S512x384_S50000x1_S50000x384_1_0_0_1_wf : ScatterDims.WF S512x384 S50000x1 S50000x384 [1] [0] [0] 1
  scatter_S512_S50000x1_S50000_n_0_0_1_wf : ScatterDims.WF S512 S50000x1 S50000 [] [0] [0] 1
  dot_S512x384_S384x128_S512x128_1_0_0_1_n_n_wf : DotDims.WF S512x384 S384x128 S512x128 [1] [0] [0] [1] [] []
  dot_S512x128_S128x128_S512x128_1_0_0_1_n_n_wf : DotDims.WF S512x128 S128x128 S512x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S512x384_S50000x1_S50000x384_1_0_0_1 : ScatterDims S512x384 S50000x1 S50000x384 where
  updateWindowDims := [1]
  insertedWindowDims := [0]
  scatterDimsToOperandDims := [0]
  indexVectorDim := 1
  wf := scatter_S512x384_S50000x1_S50000x384_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x384_S384x128_S512x128_1_0_0_1_n_n : DotDims S512x384 S384x128 S512x128 where
  lhsContracting := [1]
  rhsContracting := [0]
  lhsNonContracting := [0]
  rhsNonContracting := [1]
  lhsBatch := []
  rhsBatch := []
  wf := dot_S512x384_S384x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.K.RegDefs.lean ====
/-
  The five kernel regions of the program, each read at the buffer contents `V` it is entered from.

  A region runs its kernel body once per grid point on staging buffers: before the body each input window's buffer holds
  that window's block of its array at the point; the body loads every input buffer whole, computes, and overwrites each
  output buffer whole with one value (a "payload", a pure function of the loaded blocks).  This module fixes, per region:
  the block of a window at a point (`iblkK`), what the body leaves in each output buffer as a function of the input
  blocks (`outK_w`: the one whole-buffer store), and the per-point record `datK` (arrays as entered, inputs left in
  place, outputs at `outK_w` of the input blocks, nothing owed, full shares).

  Regions 0–3 tile 50000 rows into 25 blocks of 2000 rows; the 128×128 weights and 1×128 bias rows are one block each.
  Region 4 is a single point over whole arrays.
-/
import proofs.«146766_j74998718923374_2_alg».proof.Proof.Gen.Kernel.Launch
import proofs.«146766_j74998718923374_2_alg».proof.Proof.Gen.Kernel.Skeleton
import proofs.«146766_j74998718923374_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents a region is entered from: every region's definitions are stated at this parameter
variable (V : (c : Dev nD) → (b : Ref sig .tc) → Buf (Elt F) ((c : Thread nD τ).loc b))

/-! ## Whole-buffer rectangles, one per block shape -/

abbrev rRows : Rect S2000x128 := Rect.unit (s := S2000x128) ![0, 0] S2000x128.size inb_S2000x128_S2000x128_0_0
abbrev rSq : Rect S128x128 := Rect.unit (s := S128x128) ![0, 0] S128x128.size inb_S128x128_S128x128_0_0
abbrev rBias : Rect S1x128 := Rect.unit (s := S1x128) ![0, 0] S1x128.size inb_S1x128_S1x128_0_0
abbrev rCol : Rect S2000x1 := Rect.unit (s := S2000x1) ![0, 0] S2000x1.size inb_S2000x1_S2000x1_0_0
abbrev rPool : Rect S512x384 := Rect.unit (s := S512x384) ![0, 0] S512x384.size inb_S512x384_S512x384_0_0
abbrev rTall : Rect S384x128 := Rect.unit (s := S384x128) ![0, 0] S384x128.size inb_S384x128_S384x128_0_0
abbrev rHead : Rect S512x128 := Rect.unit (s := S512x128) ![0, 0] S512x128.size inb_S512x128_S512x128_0_0

/-! ## Region 0: the input projection (windows: 0 rows of x, 1 weight, 2 bias row; 3 the projected rows) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output buffer after the body: its one whole-buffer store. -/
def out0_3 (x0 : Vec F S2000x128 .f32) (x1 : Vec F S128x128 .f32) (x2 : Vec F S1x128 .f32) : Vec F S2000x128 .f32 :=
  View.canon [⟨rRows, k0_pay1 (View.ld x0 rRows) (View.ld x1 rSq) (View.ld x2 rBias)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the two-layer perceptron on h + agg, and the first graph-convolution projection scaled by the
    inverse square-root degree (windows: 0 h rows, 1 agg rows, 2 degree column, 3 W1, 4 b1, 5 W2, 6 b2, 7 Wc;
    8 the perceptron's rows, 9 the scaled projection's rows) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_8 (x0 x1 : Vec F S2000x128 .f32) (x3 : Vec F S128x128 .f32) (x4 : Vec F S1x128 .f32)
    (x5 : Vec F S128x128 .f32) (x6 : Vec F S1x128 .f32) : Vec F S2000x128 .f32 :=
  View.canon [⟨rRows, k1_pay1 (View.ld x0 rRows) (View.ld x1 rRows) (View.ld x3 rSq) (View.ld x4 rBias) (View.ld x5 rSq) (View.ld x6 rBias)⟩]

def out1_9 (x0 x1 : Vec F S2000x128 .f32) (x2 : Vec F S2000x1 .f32) (x3 : Vec F S128x128 .f32) (x4 : Vec F S1x128 .f32)
    (x5 : Vec F S128x128 .f32) (x6 : Vec F S1x128 .f32) (x7 : Vec F S128x128 .f32) : Vec F S2000x128 .f32 :=
  View.canon [⟨rRows, k1_pay2 (View.ld x0 rRows) (View.ld x1 rRows) (View.ld x3 rSq) (View.ld x4 rBias) (View.ld x5 rSq) (View.ld x6 rBias) (View.ld x7 rSq) (View.ld x2 rCol)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 3 t) (iblk1 V c 4 t) (iblk1 V c 5 t) (iblk1 V c 6 t) := by
  dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by
  dsimp only [dat1]

/-! ## Region 2: the first graph convolution finished (degree scaling, self loop, bias, rectifier) and the second
    projection scaled (windows: 0 aggregated rows, 1 scaled projection rows, 2 degree column, 3 bias row, 4 Wc;
    5 the layer's rows, 6 the next scaled projection's rows) -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 x1 : Vec F S2000x128 .f32) (x2 : Vec F S2000x1 .f32) (x3 : Vec F S1x128 .f32) : Vec F S2000x128 .f32 :=
  View.canon [⟨rRows, k2_pay1 (View.ld x2 rCol) (View.ld x0 rRows) (View.ld x1 rRows) (View.ld x3 rBias)⟩]

def out2_6 (x0 x1 : Vec F S2000x128 .f32) (x2 : Vec F S2000x1 .f32) (x3 : Vec F S1x128 .f32) (x4 : Vec F S128x128 .f32) : Vec F S2000x128 .f32 :=
  View.canon [⟨rRows, k2_pay2 (View.ld x2 rCol) (View.ld x0 rRows) (View.ld x1 rRows) (View.ld x3 rBias) (View.ld x4 rSq) (View.ld x2 rCol)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) := by dsimp only [dat2]

/-! ## Region 3: the second graph convolution finished (windows: 0 aggregated rows, 1 scaled projection rows,
    2 degree column, 3 bias row; 4 the layer's rows) -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_4 (x0 x1 : Vec F S2000x128 .f32) (x2 : Vec F S2000x1 .f32) (x3 : Vec F S1x128 .f32) : Vec F S2000x128 .f32 :=
  View.canon [⟨rRows, k3_pay1 (View.ld x2 rCol) (View.ld x0 rRows) (View.ld x1 rRows) (View.ld x3 rBias)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-! ## Region 4: the projection head on the pooled features, one point over whole arrays (windows: 0 pooled
    features, 1 W1, 2 b1, 3 W2, 4 b2; 5 the normalised rows) -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_5 (x0 : Vec F S512x384 .f32) (x1 : Vec F S384x128 .f32) (x2 : Vec F S1x128 .f32) (x3 : Vec F S128x128 .f32)
    (x4 : Vec F S1x128 .f32) : Vec F S512x128 .f32 :=
  View.canon [⟨rHead, k4_pay1 (View.ld x0 rPool) (View.ld x1 rTall) (View.ld x2 rBias) (View.ld x3 rSq) (View.ld x4 rBias)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

end Cert.Kernel.Hand

end
-- ==== Proof.K.Fold.lean ====
/-
  The contents of every TensorCore buffer at each boundary between two items of the program, as a fold from the launch
  memory: a stretch of host operations applies its operations in order; a kernel region leaves each of its windows'
  arrays at what its write-backs leave (an input array as entered, an output array with every point's block folded in)
  and every other buffer as entered.  `W0` is the launch memory, `W(2K+1)` what region K is entered from, `W(2K+2)`
  what it leaves, `W10` the contents at the return.
-/
import proofs.«146766_j74998718923374_2_alg».proof.Proof.K.RegDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)

/-- After the host stretch before region 0: what region 0 is entered from. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- At region 0's exit each of its arrays holds what the pipeline leaves, and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch before region 1: what region 1 is entered from. -/
abbrev W3 : Dev nD → Valuation τ sig (Elt F) := fun c => StableHlo.after hostOps1 (W2 m c)
/-- The same, read at the TensorCore's references. -/
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- At region 1's exit each of its arrays holds what the pipeline leaves, and every other buffer what it held at entry. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch before region 2: what region 2 is entered from. -/
abbrev W5 : Dev nD → Valuation τ sig (Elt F) := fun c => StableHlo.after hostOps2 (W4 m c)
/-- The same, read at the TensorCore's references. -/
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- At region 2's exit each of its arrays holds what the pipeline leaves, and every other buffer what it held at entry. -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch before region 3: what region 3 is entered from. -/
abbrev W7 : Dev nD → Valuation τ sig (Elt F) := fun c => StableHlo.after hostOps3 (W6 m c)
/-- The same, read at the TensorCore's references. -/
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
/-- At region 3's exit each of its arrays holds what the pipeline leaves, and every other buffer what it held at entry. -/
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After the host stretch before region 4: what region 4 is entered from. -/
abbrev W9 : Dev nD → Valuation τ sig (Elt F) := fun c => StableHlo.after hostOps4 (W8 m c)
/-- The same, read at the TensorCore's references. -/
abbrev V9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
/-- At region 4's exit each of its arrays holds what the pipeline leaves, and every other buffer what it held at entry. -/
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

end Cert.Kernel.Hand

end
-- ==== Proof.K.Keep.lean ====
/-
  What each item of the program leaves unchanged, on the fold of the buffer contents (`W0` … `W10`): a stretch of host
  operations changes only the references its operations write; a kernel region changes only its output windows' arrays
  (an input window's array is read, never written back; a buffer that is no window's array is not touched).  Chained,
  a buffer that no later item writes keeps its contents to the end: so every argument array at the return, and at the
  boundary before the last host stretch, holds its launch contents.
-/
import proofs.«146766_j74998718923374_2_alg».proof.Proof.K.Fold
import proofs.«146766_j74998718923374_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## What each item leaves unchanged -/

/-- The host stretch before region 0 leaves every reference it does not write as it was. -/
theorem W1_keep (c : Dev nD) (r : Ref sig .tc) (h : r ∉ hostOps0_W) :
    W1 m c (Proc.devRef .tc r) = W0 m c (Proc.devRef .tc r) :=
  StableHlo.after_of_writes_sub hostOps0 _ hostOps0_writes h
/-- Region 0 (the input projection) leaves every buffer but its output arrays as entered: an input window's array is what the
    record starts from, untouched by any write-back; any other buffer bypasses the region. -/
theorem W2_keep (c : Dev nD) (r : Ref sig .tc) (h : r ∉ ([main_v5] : List (Ref sig .tc))) :
    W2 m c (Proc.devRef .tc r) = W1 m c (Proc.devRef .tc r) := by
  by_cases hw : ∃ w, Pipeline.arrRef spec0 w = r
  · obtain ⟨w, rfl⟩ := hw
    have hin : (cfg0.win w).isOut = false := by
      revert w; decide
    exact (W2_arr m c w).trans (((dat0 (V1 m) c).arrAt_in w hin _).trans (A_eq0 (V1 m) c w))
  · exact W2_of_ne m c r fun w e => hw ⟨w, e⟩

/-- The host stretch before region 1 leaves every reference it does not write as it was. -/
theorem W3_keep (c : Dev nD) (r : Ref sig .tc) (h : r ∉ hostOps1_W) :
    W3 m c (Proc.devRef .tc r) = W2 m c (Proc.devRef .tc r) :=
  StableHlo.after_of_writes_sub hostOps1 _ hostOps1_writes h
/-- Region 1 (the perceptron and the first scaled projection) leaves every buffer but its output arrays as entered: an input window's array is what the
    record starts from, untouched by any write-back; any other buffer bypasses the region. -/
theorem W4_keep (c : Dev nD) (r : Ref sig .tc) (h : r ∉ ([main_v26_0, main_v26_1] : List (Ref sig .tc))) :
    W4 m c (Proc.devRef .tc r) = W3 m c (Proc.devRef .tc r) := by
  by_cases hw : ∃ w, Pipeline.arrRef spec1 w = r
  · obtain ⟨w, rfl⟩ := hw
    have hin : (cfg1.win w).isOut = false := by
      revert w; decide
    exact (W4_arr m c w).trans (((dat1 (V3 m) c).arrAt_in w hin _).trans (A_eq1 (V3 m) c w))
  · exact W4_of_ne m c r fun w e => hw ⟨w, e⟩

/-- The host stretch before region 2 leaves every reference it does not write as it was. -/
theorem W5_keep (c : Dev nD) (r : Ref sig .tc) (h : r ∉ hostOps2_W) :
    W5 m c (Proc.devRef .tc r) = W4 m c (Proc.devRef .tc r) :=
  StableHlo.after_of_writes_sub hostOps2 _ hostOps2_writes h
/-- Region 2 (the first graph convolution finished and the second scaled projection) leaves every buffer but its output arrays as entered: an input window's array is what the
    record starts from, untouched by any write-back; any other buffer bypasses the region. -/
theorem W6_keep (c : Dev nD) (r : Ref sig .tc) (h : r ∉ ([main_v38_0, main_v38_1] : List (Ref sig .tc))) :
    W6 m c (Proc.devRef .tc r) = W5 m c (Proc.devRef .tc r) := by
  by_cases hw : ∃ w, Pipeline.arrRef spec2 w = r
  · obtain ⟨w, rfl⟩ := hw
    have hin : (cfg2.win w).isOut = false := by
      revert w; decide
    exact (W6_arr m c w).trans (((dat2 (V5 m) c).arrAt_in w hin _).trans (A_eq2 (V5 m) c w))
  · exact W6_of_ne m c r fun w e => hw ⟨w, e⟩

/-- The host stretch before region 3 leaves every reference it does not write as it was. -/
theorem W7_keep (c : Dev nD) (r : Ref sig .tc) (h : r ∉ hostOps3_W) :
    W7 m c (Proc.devRef .tc r) = W6 m c (Proc.devRef .tc r) :=
  StableHlo.after_of_writes_sub hostOps3 _ hostOps3_writes h
/-- Region 3 (the second graph convolution finished) leaves every buffer but its output arrays as entered: an input window's array is what the
    record starts from, untouched by any write-back; any other buffer bypasses the region. -/
theorem W8_keep (c : Dev nD) (r : Ref sig .tc) (h : r ∉ ([main_v50] : List (Ref sig .tc))) :
    W8 m c (Proc.devRef .tc r) = W7 m c (Proc.devRef .tc r) := by
  by_cases hw : ∃ w, Pipeline.arrRef spec3 w = r
  · obtain ⟨w, rfl⟩ := hw
    have hin : (cfg3.win w).isOut = false := by
      revert w; decide
    exact (W8_arr m c w).trans (((dat3 (V7 m) c).arrAt_in w hin _).trans (A_eq3 (V7 m) c w))
  · exact W8_of_ne m c r fun w e => hw ⟨w, e⟩

/-- The host stretch before region 4 leaves every reference it does not write as it was. -/
theorem W9_keep (c : Dev nD) (r : Ref sig .tc) (h : r ∉ hostOps4_W) :
    W9 m c (Proc.devRef .tc r) = W8 m c (Proc.devRef .tc r) :=
  StableHlo.after_of_writes_sub hostOps4 _ hostOps4_writes h
/-- Region 4 (the projection head) leaves every buffer but its output arrays as entered: an input window's array is what the
    record starts from, untouched by any write-back; any other buffer bypasses the region. -/
theorem W10_keep (c : Dev nD) (r : Ref sig .tc) (h : r ∉ ([main_v72] : List (Ref sig .tc))) :
    W10 m c (Proc.devRef .tc r) = W9 m c (Proc.devRef .tc r) := by
  by_cases hw : ∃ w, Pipeline.arrRef spec4 w = r
  · obtain ⟨w, rfl⟩ := hw
    have hin : (cfg4.win w).isOut = false := by
      revert w; decide
    exact (W10_arr m c w).trans (((dat4 (V9 m) c).arrAt_in w hin _).trans (A_eq4 (V9 m) c w))
  · exact W10_of_ne m c r fun w e => hw ⟨w, e⟩

/-! ## The arguments end as launched: no host stretch writes one, and no region has one as an output array -/

theorem W10_main_arg0 (c : Dev nD) : W10 m c (Proc.devRef .tc main_arg0) = m ((c : Thread nD τ).loc main_arg0) :=
  (W10_keep m c main_arg0 (by decide)).trans <| (W9_keep m c main_arg0 (by decide)).trans <| (W8_keep m c main_arg0 (by decide)).trans <| (W7_keep m c main_arg0 (by decide)).trans <| (W6_keep m c main_arg0 (by decide)).trans <| (W5_keep m c main_arg0 (by decide)).trans <| (W4_keep m c main_arg0 (by decide)).trans <| (W3_keep m c main_arg0 (by decide)).trans <| (W2_keep m c main_arg0 (by decide)).trans <| (W1_keep m c main_arg0 (by decide)).trans <| rfl
theorem W10_main_arg1 (c : Dev nD) : W10 m c (Proc.devRef .tc main_arg1) = m ((c : Thread nD τ).loc main_arg1) :=
  (W10_keep m c main_arg1 (by decide)).trans <| (W9_keep m c main_arg1 (by decide)).trans <| (W8_keep m c main_arg1 (by decide)).trans <| (W7_keep m c main_arg1 (by decide)).trans <| (W6_keep m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide)).trans <| rfl
theorem W10_main_arg2 (c : Dev nD) : W10 m c (Proc.devRef .tc main_arg2) = m ((c : Thread nD τ).loc main_arg2) :=
  (W10_keep m c main_arg2 (by decide)).trans <| (W9_keep m c main_arg2 (by decide)).trans <| (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)).trans <| rfl
theorem W10_main_arg3 (c : Dev nD) : W10 m c (Proc.devRef .tc main_arg3) = m ((c : Thread nD τ).loc main_arg3) :=
  (W10_keep m c main_arg3 (by decide)).trans <| (W9_keep m c main_arg3 (by decide)).trans <| (W8_keep m c main_arg3 (by decide)).trans <| (W7_keep m c main_arg3 (by decide)).trans <| (W6_keep m c main_arg3 (by decide)).trans <| (W5_keep m c main_arg3 (by decide)).trans <| (W4_keep m c main_arg3 (by decide)).trans <| (W3_keep m c main_arg3 (by decide)).trans <| (W2_keep m c main_arg3 (by decide)).trans <| (W1_keep m c main_arg3 (by decide)).trans <| rfl
theorem W10_main_arg4 (c : Dev nD) : W10 m c (Proc.devRef .tc main_arg4) = m ((c : Thread nD τ).loc main_arg4) :=
  (W10_keep m c main_arg4 (by decide)).trans <| (W9_keep m c main_arg4 (by decide)).trans <| (W8_keep m c main_arg4 (by decide)).trans <| (W7_keep m c main_arg4 (by decide)).trans <| (W6_keep m c main_arg4 (by decide)).trans <| (W5_keep m c main_arg4 (by decide)).trans <| (W4_keep m c main_arg4 (by decide)).trans <| (W3_keep m c main_arg4 (by decide)).trans <| (W2_keep m c main_arg4 (by decide)).trans <| (W1_keep m c main_arg4 (by decide)).trans <| rfl
theorem W10_main_arg5 (c : Dev nD) : W10 m c (Proc.devRef .tc main_arg5) = m ((c : Thread nD τ).loc main_arg5) :=
  (W10_keep m c main_arg5 (by decide)).trans <| (W9_keep m c main_arg5 (by decide)).trans <| (W8_keep m c main_arg5 (by decide)).trans <| (W7_keep m c main_arg5 (by decide)).trans <| (W6_keep m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide)).trans <| rfl
theorem W10_main_arg6 (c : Dev nD) : W10 m c (Proc.devRef .tc main_arg6) = m ((c : Thread nD τ).loc main_arg6) :=
  (W10_keep m c main_arg6 (by decide)).trans <| (W9_keep m c main_arg6 (by decide)).trans <| (W8_keep m c main_arg6 (by decide)).trans <| (W7_keep m c main_arg6 (by decide)).trans <| (W6_keep m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide)).trans <| rfl
theorem W10_main_arg7 (c : Dev nD) : W10 m c (Proc.devRef .tc main_arg7) = m ((c : Thread nD τ).loc main_arg7) :=
  (W10_keep m c main_arg7 (by decide)).trans <| (W9_keep m c main_arg7 (by decide)).trans <| (W8_keep m c main_arg7 (by decide)).trans <| (W7_keep m c main_arg7 (by decide)).trans <| (W6_keep m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide)).trans <| rfl
theorem W10_main_arg8 (c : Dev nD) : W10 m c (Proc.devRef .tc main_arg8) = m ((c : Thread nD τ).loc main_arg8) :=
  (W10_keep m c main_arg8 (by decide)).trans <| (W9_keep m c main_arg8 (by decide)).trans <| (W8_keep m c main_arg8 (by decide)).trans <| (W7_keep m c main_arg8 (by decide)).trans <| (W6_keep m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide)).trans <| rfl
theorem W10_main_arg9 (c : Dev nD) : W10 m c (Proc.devRef .tc main_arg9) = m ((c : Thread nD τ).loc main_arg9) :=
  (W10_keep m c main_arg9 (by decide)).trans <| (W9_keep m c main_arg9 (by decide)).trans <| (W8_keep m c main_arg9 (by decide)).trans <| (W7_keep m c main_arg9 (by decide)).trans <| (W6_keep m c main_arg9 (by decide)).trans <| (W5_keep m c main_arg9 (by decide)).trans <| (W4_keep m c main_arg9 (by decide)).trans <| (W3_keep m c main_arg9 (by decide)).trans <| (W2_keep m c main_arg9 (by decide)).trans <| (W1_keep m c main_arg9 (by decide)).trans <| rfl
theorem W10_main_arg10 (c : Dev nD) : W10 m c (Proc.devRef .tc main_arg10) = m ((c : Thread nD τ).loc main_arg10) :=
  (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)).trans <| rfl
theorem W10_main_arg11 (c : Dev nD) : W10 m c (Proc.devRef .tc main_arg11) = m ((c : Thread nD τ).loc main_arg11) :=
  (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)).trans <| rfl
theorem W10_main_arg12 (c : Dev nD) : W10 m c (Proc.devRef .tc main_arg12) = m ((c : Thread nD τ).loc main_arg12) :=
  (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)).trans <| rfl
theorem W10_main_arg13 (c : Dev nD) : W10 m c (Proc.devRef .tc main_arg13) = m ((c : Thread nD τ).loc main_arg13) :=
  (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)).trans <| rfl
theorem W10_main_arg14 (c : Dev nD) : W10 m c (Proc.devRef .tc main_arg14) = m ((c : Thread nD τ).loc main_arg14) :=
  (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)).trans <| rfl
theorem W10_main_arg15 (c : Dev nD) : W10 m c (Proc.devRef .tc main_arg15) = m ((c : Thread nD τ).loc main_arg15) :=
  (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)).trans <| rfl
theorem W10_main_arg16 (c : Dev nD) : W10 m c (Proc.devRef .tc main_arg16) = m ((c : Thread nD τ).loc main_arg16) :=
  (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)).trans <| rfl

/-! ## The arguments at the boundary before the last host stretch -/

theorem W8_main_arg2 (c : Dev nD) : W8 m c (Proc.devRef .tc main_arg2) = m ((c : Thread nD τ).loc main_arg2) :=
  (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)).trans <| rfl
theorem W8_main_arg13 (c : Dev nD) : W8 m c (Proc.devRef .tc main_arg13) = m ((c : Thread nD τ).loc main_arg13) :=
  (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)).trans <| rfl
theorem W8_main_arg14 (c : Dev nD) : W8 m c (Proc.devRef .tc main_arg14) = m ((c : Thread nD τ).loc main_arg14) :=
  (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)).trans <| rfl
theorem W8_main_arg15 (c : Dev nD) : W8 m c (Proc.devRef .tc main_arg15) = m ((c : Thread nD τ).loc main_arg15) :=
  (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)).trans <| rfl
theorem W8_main_arg16 (c : Dev nD) : W8 m c (Proc.devRef .tc main_arg16) = m ((c : Thread nD τ).loc main_arg16) :=
  (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)).trans <| rfl

end Cert.Kernel.Hand

end
-- ==== Proof.K.Body0.lean ====
/-
  Region 0: the kernel body meets its per-point obligation.  At each grid point the body is called on the windows'
  current staging buffers; every input buffer holds its window's block (fetched there, or still in place from an earlier
  point), the body runs to its end without a fault, leaves the inputs as they were and each output buffer at the stated
  function of the input blocks.
-/
import proofs.«146766_j74998718923374_2_alg».proof.Proof.K.RegDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

/-- Input window 0's current staging buffer holds its block at every point, whether or not the pipeline fetched it
    there (an unfetched window's block index has not moved since the last fetch), for any proof data whose array is
    the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (an unfetched window's block index has not moved since the last fetch), for any proof data whose array is
    the entry contents' and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (an unfetched window's block index has not moved since the last fetch), for any proof data whose array is
    the entry contents' and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store per output buffer covers it -/

/-- The whole-buffer store into window 3's buffer tiles it (checked by evaluation), so it covers it. -/
theorem cover0_3 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging buffers — each input's at read contents `x`, each output's at anything — runs
    without a fault to a state holding the inputs' as they were and each output's at its one store's value: the
    printed function is its skeleton of loads and stores over the payloads, which the symbolic executor runs; the
    load of an output buffer before its store reads whatever was there and the value is dropped. -/
theorem sound_kernel0 (c : Dev nD) (E : Set ℕ) (i : grid0.Coords) (arg0 : Memref sig .tc .vmem S2000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S128x128 .f32) (x2 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ (∃ d, owns (c : Thread nD τ) arg3 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data's input buffers -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and every window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1: the kernel body meets its per-point obligation.  At each grid point the body is called on the windows'
  current staging buffers; every input buffer holds its window's block (fetched there, or still in place from an earlier
  point), the body runs to its end without a fault, leaves the inputs as they were and each output buffer at the stated
  function of the input blocks.
-/
import proofs.«146766_j74998718923374_2_alg».proof.Proof.K.RegDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, whether the block was fetched at that
    point or is still in place from an earlier one (its block index has not moved since), for any per-point record whose
    array is the entry contents (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the block was fetched at that
    point or is still in place from an earlier one (its block index has not moved since), for any per-point record whose
    array is the entry contents (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the block was fetched at that
    point or is still in place from an earlier one (its block index has not moved since), for any per-point record whose
    array is the entry contents (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the block was fetched at that
    point or is still in place from an earlier one (its block index has not moved since), for any per-point record whose
    array is the entry contents (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the block was fetched at that
    point or is still in place from an earlier one (its block index has not moved since), for any per-point record whose
    array is the entry contents (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the block was fetched at that
    point or is still in place from an earlier one (its block index has not moved since), for any per-point record whose
    array is the entry contents (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the block was fetched at that
    point or is still in place from an earlier one (its block index has not moved since), for any per-point record whose
    array is the entry contents (`hA`) and whose body leaves the block in place (`hafter`). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the block was fetched at that
    point or is still in place from an earlier one (its block index has not moved since), for any per-point record whose
    array is the entry contents (`hA`) and whose body leaves the block in place (`hafter`). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The one whole-buffer store of each output covers its buffer -/

/-- Output window 8's store is over the whole buffer, so it covers it. -/
theorem cover1_8 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-- Output window 9's store is over the whole buffer, so it covers it. -/
theorem cover1_9 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging buffers, the inputs' holding `x_w` and the outputs' anything, runs to the
    continuation with the inputs' as they were and each output's at `out1_w` of the inputs: the body is a sequence of
    whole-buffer loads and one whole-buffer store per output (it also loads each output buffer once before storing to
    it; the loaded value is unused). -/
theorem sound_kernel1 (c : Dev nD) (E : Set ℕ) (i : grid1.Coords)
    (arg0 : Memref sig .tc .vmem S2000x128 .f32) (harg0 : arg0.IsWhole)
    (arg1 : Memref sig .tc .vmem S2000x128 .f32) (harg1 : arg1.IsWhole)
    (arg2 : Memref sig .tc .vmem S2000x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S128x128 .f32) (harg7 : arg7.IsWhole)
    (arg8 : Memref sig .tc .vmem S2000x128 .f32) (harg8 : arg8.IsWhole)
    (arg9 : Memref sig .tc .vmem S2000x128 .f32) (harg9 : arg9.IsWhole)
    (x0 : Vec F S2000x128 .f32) (x1 : Vec F S2000x128 .f32) (x2 : Vec F S2000x1 .f32) (x3 : Vec F S128x128 .f32) (x4 : Vec F S1x128 .f32) (x5 : Vec F S128x128 .f32) (x6 : Vec F S1x128 .f32) (x7 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x3 x4 x5 x6) ∗ owns (c : Thread nD τ) arg9 fullShare (out1_9 x0 x1 x2 x3 x4 x5 x6 x7)) -∗ K ⟨⟩))
      ⊢ wp frame (wpE (defs₀ (F := F)) Variants.none c none) E (cc1__gin_kernel i arg0 harg0 arg1 harg1 arg2 harg2 arg3 harg3 arg4 harg4 arg5 harg5 arg6 harg6 arg7 harg7 arg8 harg8 arg9 harg9) K := by
  simp only [cc1__gin_kernel_eq_skeleton]; unfold cc1__gin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The per-point record's input buffers -/

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2: the kernel body meets its per-point obligation.  At each grid point the body is called on the windows'
  current staging buffers; every input buffer holds its window's block (fetched there, or still in place from an earlier
  point), the body runs to its end without a fault, leaves the inputs as they were and each output buffer at the stated
  function of the input blocks.
-/
import proofs.«146766_j74998718923374_2_alg».proof.Proof.K.RegDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, whether the block was fetched at that
    point or is still in place from an earlier one (its block index has not moved since), for any per-point record whose
    array is the entry contents (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the block was fetched at that
    point or is still in place from an earlier one (its block index has not moved since), for any per-point record whose
    array is the entry contents (`hA`) and whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the block was fetched at that
    point or is still in place from an earlier one (its block index has not moved since), for any per-point record whose
    array is the entry contents (`hA`) and whose body leaves the block in place (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the block was fetched at that
    point or is still in place from an earlier one (its block index has not moved since), for any per-point record whose
    array is the entry contents (`hA`) and whose body leaves the block in place (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the block was fetched at that
    point or is still in place from an earlier one (its block index has not moved since), for any per-point record whose
    array is the entry contents (`hA`) and whose body leaves the block in place (`hafter`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The one whole-buffer store of each output covers its buffer -/

/-- Output window 5's store is over the whole buffer, so it covers it. -/
theorem cover2_5 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-- Output window 6's store is over the whole buffer, so it covers it. -/
theorem cover2_6 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging buffers, the inputs' holding `x_w` and the outputs' anything, runs to the
    continuation with the inputs' as they were and each output's at `out2_w` of the inputs: the body is a sequence of
    whole-buffer loads and one whole-buffer store per output (it also loads each output buffer once before storing to
    it; the loaded value is unused). -/
theorem sound_kernel2 (c : Dev nD) (E : Set ℕ) (i : grid2.Coords)
    (arg0 : Memref sig .tc .vmem S2000x128 .f32) (harg0 : arg0.IsWhole)
    (arg1 : Memref sig .tc .vmem S2000x128 .f32) (harg1 : arg1.IsWhole)
    (arg2 : Memref sig .tc .vmem S2000x1 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S2000x128 .f32) (harg5 : arg5.IsWhole)
    (arg6 : Memref sig .tc .vmem S2000x128 .f32) (harg6 : arg6.IsWhole)
    (x0 : Vec F S2000x128 .f32) (x1 : Vec F S2000x128 .f32) (x2 : Vec F S2000x1 .f32) (x3 : Vec F S1x128 .f32) (x4 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_5 x0 x1 x2 x3) ∗ owns (c : Thread nD τ) arg6 fullShare (out2_6 x0 x1 x2 x3 x4)) -∗ K ⟨⟩))
      ⊢ wp frame (wpE (defs₀ (F := F)) Variants.none c none) E (cc2__gcn1_kernel i arg0 harg0 arg1 harg1 arg2 harg2 arg3 harg3 arg4 harg4 arg5 harg5 arg6 harg6) K := by
  simp only [cc2__gcn1_kernel_eq_skeleton]; unfold cc2__gcn1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The per-point record's input buffers -/

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/-
  Region 3: the kernel body meets its per-point obligation.  At each grid point the body is called on the windows'
  current staging buffers; every input buffer holds its window's block (fetched there, or still in place from an earlier
  point), the body runs to its end without a fault, leaves the inputs as they were and the output buffer at the stated
  function of the input blocks.
-/
import proofs.«146766_j74998718923374_2_alg».proof.Proof.K.RegDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

/-- Input window 0's current staging buffer holds its block at every point, whether or not the pipeline fetched it
    there (an unfetched window's block index has not moved since the last fetch), for any proof data whose array is
    the entry contents' and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not the pipeline fetched it
    there (an unfetched window's block index has not moved since the last fetch), for any proof data whose array is
    the entry contents' and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not the pipeline fetched it
    there (an unfetched window's block index has not moved since the last fetch), for any proof data whose array is
    the entry contents' and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not the pipeline fetched it
    there (an unfetched window's block index has not moved since the last fetch), for any proof data whose array is
    the entry contents' and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's one store per output buffer covers it -/

/-- The whole-buffer store into window 4's buffer tiles it (checked by evaluation), so it covers it. -/
theorem cover3_4 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging buffers — each input's at read contents `x`, each output's at anything — runs
    without a fault to a state holding the inputs' as they were and each output's at its one store's value: the
    printed function is its skeleton of loads and stores over the payloads, which the symbolic executor runs; the
    load of an output buffer before its store reads whatever was there and the value is dropped. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S2000x128 .f32) (x2 : Vec F S2000x1 .f32) (x3 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ (∃ d, owns (c : Thread nD τ) arg4 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare (out3_4 x0 x1 x2 x3)) -∗ K ⟨⟩))
      ⊢ wp frame (wpE (defs₀ (F := F)) Variants.none c none) E (cc3__gcn2_finish_kernel i arg0 harg0 arg1 harg1 arg2 harg2 arg3 harg3 arg4 harg4) K := by
  simp only [cc3__gcn2_finish_kernel_eq_skeleton]; unfold cc3__gcn2_finish_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data's input buffers -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`: the invariant, the core's dues, and every window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for region 3, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
/-
  Region 4: the kernel body meets its obligation at the region's single point.  The body is called on the windows'
  staging buffers; every input buffer holds its window's block — the whole array —, the body runs to its end without a
  fault, leaves the inputs as they were and the output buffer at the stated function of the input blocks.
-/
import proofs.«146766_j74998718923374_2_alg».proof.Proof.K.RegDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

/-- Input window 0's current staging buffer holds its block at every point, whether or not the pipeline fetched it
    there (an unfetched window's block index has not moved since the last fetch), for any proof data whose array is
    the entry contents' and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether or not the pipeline fetched it
    there (an unfetched window's block index has not moved since the last fetch), for any proof data whose array is
    the entry contents' and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether or not the pipeline fetched it
    there (an unfetched window's block index has not moved since the last fetch), for any proof data whose array is
    the entry contents' and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether or not the pipeline fetched it
    there (an unfetched window's block index has not moved since the last fetch), for any proof data whose array is
    the entry contents' and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether or not the pipeline fetched it
    there (an unfetched window's block index has not moved since the last fetch), for any proof data whose array is
    the entry contents' and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store per output buffer covers it -/

/-- The whole-buffer store into window 5's buffer tiles it (checked by evaluation), so it covers it. -/
theorem cover4_5 (p0 : Vec F S512x128 .f32) (y : S512x128.Idx) :
    ∃ pc ∈ ([⟨rHead, p0⟩] : List (View.Piece (Elt F) S512x128 .f32)), y ∈ pc.1.set :=
  View.cover_of_tiled [⟨rHead, p0⟩] S512x128.size (by rfl) y

/-! ## The body's triple -/

set_option maxHeartbeats 1000000 in
/-- The kernel body on whole staging buffers — each input's at read contents `x`, each output's at anything — runs
    without a fault to a state holding the inputs' as they were and each output's at its one store's value: the
    printed function is its skeleton of loads and stores over the payloads, which the symbolic executor runs; the
    load of an output buffer before its store reads whatever was there and the value is dropped. -/
theorem sound_kernel4 (c : Dev nD) (E : Set ℕ) (i : grid4.Coords) (arg0 : Memref sig .tc .vmem S512x384 .f32) (harg0 : arg0.IsWhole) (arg1 : Memref sig .tc .vmem S384x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S512x128 .f32) (harg5 : arg5.IsWhole)
    (x0 : Vec F S512x384 .f32) (x1 : Vec F S384x128 .f32) (x2 : Vec F S1x128 .f32) (x3 : Vec F S128x128 .f32) (x4 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ (∃ d, owns (c : Thread nD τ) arg5 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare (out4_5 x0 x1 x2 x3 x4)) -∗ K ⟨⟩))
      ⊢ wp frame (wpE (defs₀ (F := F)) Variants.none c none) E (cc4__head_kernel i arg0 harg0 arg1 harg1 arg2 harg2 arg3 harg3 arg4 harg4 arg5 harg5) K := by
  simp only [cc4__head_kernel_eq_skeleton]; unfold cc4__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The proof data's input buffers -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`: the invariant, the core's dues, and every window's current staging
    buffer at what the pipeline left there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 4, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The program's run from the launch to the return, as ten items in order: a stretch of host operations, then a kernel
  region, five times over.  Between two items a core holds every unscoped buffer whole at the contents the fold
  names (`W0` … `W10`), beside its generator register at some state and the record that it owes no
  other core anything.  A host stretch moves the buffers from `W(2K)` to `W(2K+1)`; region K splits its windows'
  arrays out of the buffers, runs its pipeline over them (each point's body meeting its obligation), and puts them back
  at `W(2K+2)`.  Composed, every weakly fair execution terminates with the unscoped buffers at `W10` (`run_all`); no
  item writes an argument array, so each argument reads back through the fold to its launch contents (`frame`).
-/
import proofs.«146766_j74998718923374_2_alg».proof.Proof.K.Keep
import proofs.«146766_j74998718923374_2_alg».proof.Proof.K.Body0
import proofs.«146766_j74998718923374_2_alg».proof.Proof.K.Body1
import proofs.«146766_j74998718923374_2_alg».proof.Proof.K.Body2
import proofs.«146766_j74998718923374_2_alg».proof.Proof.K.Body3
import proofs.«146766_j74998718923374_2_alg».proof.Proof.K.Body4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- The prefetched tables' admissible contents: no kernel region has a table. -/
abbrev adm : (p : Fin 5) → (pcfgs (F := F) p).Adm := fun p => (cfgs p).toPCfg_adm
/-- Every region's per-point record, each at the contents its region is entered from — a literal `match`, so that the
    region's configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record of what it owes, at nothing. -/
abbrev R (c : Dev nD) : sProp 𝕄 := iprop((∃ r, prngReg c r) ∗ ∃ W, owes (c : Thread nD τ) (0 : CellTallies nD τ sig Unit) W)
/-- A host stretch as an item: its operations over the unscoped references from the contents `W`, `R` riding along;
    it ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of what is owed: every unscoped buffer at the contents at the return,
    the generator register at some state. -/
abbrev Tₙ (c : Dev nD) : sProp 𝕄 := iprop(StableHlo.held (c : Thread nD τ) (Pipeline.ucRefs τ sig) (W10 m c) ∗ ∃ r, prngReg c r)

/-! ## The regions as items -/

-- applying a library lemma stated over the pinned configuration unifies with the printed one only when unification may
-- unfold plain definitions in a metavariable's type
set_option backward.isDefEq.respectTransparency.types false in
/-- REGION 0 (the input projection) over the thread state: entered from every unscoped buffer at `W1`, left at `W2`.
    Its windows' arrays are split out of the unscoped buffers and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 1 (the perceptron and the first scaled projection) over the thread state: entered from every unscoped buffer at `W3`, left at `W4`.
    Its windows' arrays are split out of the unscoped buffers and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 2 (the first graph convolution finished and the second scaled projection) over the thread state: entered from every unscoped buffer at `W5`, left at `W6`.
    Its windows' arrays are split out of the unscoped buffers and put back at the exit contents; the generator register
    goes into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 3 (the second graph convolution finished) over the thread state: entered from every unscoped buffer at `W7`, left at `W8`.
    Its windows' arrays are split out of the unscoped buffers and put back at the exit contents; the generator register
    goes into the region's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 4 (the projection head) over the thread state: entered from every unscoped buffer at `W9`, left at `W10` (the contents at the return).
    Its windows' arrays are split out of the unscoped buffers and put back at the exit contents; the generator register
    goes into the region's invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's ten items in order: a host stretch from its boundary's contents, then a kernel region, five times. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]
/-- The program IS the run of its items: it is the chain of its host stretches and region calls, and so is the items' run. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters and any generator registers, every weakly fair
    execution of the program on the TensorCores terminates, nothing faulting, and every final memory holds each
    unscoped buffer at the fold's last contents `W10`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME: every weakly fair execution terminates, and every final memory holds each argument array as launched —
    the run's last contents read at each argument, which no item writes. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c),
      (h c _ (mem_uc main_arg8 (by decide))).trans (W10_main_arg8 m c),
      (h c _ (mem_uc main_arg9 (by decide))).trans (W10_main_arg9 m c),
      (h c _ (mem_uc main_arg10 (by decide))).trans (W10_main_arg10 m c),
      (h c _ (mem_uc main_arg11 (by decide))).trans (W10_main_arg11 m c),
      (h c _ (mem_uc main_arg12 (by decide))).trans (W10_main_arg12 m c),
      (h c _ (mem_uc main_arg13 (by decide))).trans (W10_main_arg13 m c),
      (h c _ (mem_uc main_arg14 (by decide))).trans (W10_main_arg14 m c),
      (h c _ (mem_uc main_arg15 (by decide))).trans (W10_main_arg15 m c),
      (h c _ (mem_uc main_arg16 (by decide))).trans (W10_main_arg16 m c)⟩) (run_all m ρ)

end Cert.Kernel.Hand

end
-- ==== Proof.KI.RegDefs.lean ====
/-
  The five kernel regions of the program, each read at the buffer contents `V` it is entered from.

  A region runs its kernel body once per grid point on staging buffers: before the body each input window's buffer holds
  that window's block of its array at the point; the body loads every input buffer whole, computes, and overwrites each
  output buffer whole with one value (a "payload", a pure function of the loaded blocks).  This module fixes, per region:
  the block of a window at a point (`iblkK`), what the body leaves in each output buffer as a function of the input
  blocks (`outK_w`: the one whole-buffer store), and the per-point record `datK` (arrays as entered, inputs left in
  place, outputs at `outK_w` of the input blocks, nothing owed, full shares).

  Regions 0–3 tile 50000 rows into 25 blocks of 2000 rows; the 128×128 weights and 1×128 bias rows are one block each.
  Region 4 is a single point over whole arrays.
-/
import proofs.«146766_j74998718923374_2_alg».proof.Proof.Gen.KernelIdeal.Launch
import proofs.«146766_j74998718923374_2_alg».proof.Proof.Gen.KernelIdeal.Skeleton
import proofs.«146766_j74998718923374_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the buffer contents a region is entered from: every region's definitions are stated at this parameter
variable (V : (c : Dev nD) → (b : Ref sig .tc) → Buf (Elt F) ((c : Thread nD τ).loc b))

/-! ## Whole-buffer rectangles, one per block shape -/

abbrev rRows : Rect S2000x128 := Rect.unit (s := S2000x128) ![0, 0] S2000x128.size inb_S2000x128_S2000x128_0_0
abbrev rSq : Rect S128x128 := Rect.unit (s := S128x128) ![0, 0] S128x128.size inb_S128x128_S128x128_0_0
abbrev rBias : Rect S1x128 := Rect.unit (s := S1x128) ![0, 0] S1x128.size inb_S1x128_S1x128_0_0
abbrev rCol : Rect S2000x1 := Rect.unit (s := S2000x1) ![0, 0] S2000x1.size inb_S2000x1_S2000x1_0_0
abbrev rPool : Rect S512x384 := Rect.unit (s := S512x384) ![0, 0] S512x384.size inb_S512x384_S512x384_0_0
abbrev rTall : Rect S384x128 := Rect.unit (s := S384x128) ![0, 0] S384x128.size inb_S384x128_S384x128_0_0
abbrev rHead : Rect S512x128 := Rect.unit (s := S512x128) ![0, 0] S512x128.size inb_S512x128_S512x128_0_0

/-! ## Region 0: the input projection (windows: 0 rows of x, 1 weight, 2 bias row; 3 the projected rows) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output buffer after the body: its one whole-buffer store. -/
def out0_3 (x0 : Vec F S2000x128 .f32) (x1 : Vec F S128x128 .f32) (x2 : Vec F S1x128 .f32) : Vec F S2000x128 .f32 :=
  View.canon [⟨rRows, k0_pay1 (View.ld x0 rRows) (View.ld x1 rSq) (View.ld x2 rBias)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1: the two-layer perceptron on h + agg, and the first graph-convolution projection scaled by the
    inverse square-root degree (windows: 0 h rows, 1 agg rows, 2 degree column, 3 W1, 4 b1, 5 W2, 6 b2, 7 Wc;
    8 the perceptron's rows, 9 the scaled projection's rows) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_8 (x0 x1 : Vec F S2000x128 .f32) (x3 : Vec F S128x128 .f32) (x4 : Vec F S1x128 .f32)
    (x5 : Vec F S128x128 .f32) (x6 : Vec F S1x128 .f32) : Vec F S2000x128 .f32 :=
  View.canon [⟨rRows, k1_pay1 (View.ld x0 rRows) (View.ld x1 rRows) (View.ld x3 rSq) (View.ld x4 rBias) (View.ld x5 rSq) (View.ld x6 rBias)⟩]

def out1_9 (x0 x1 : Vec F S2000x128 .f32) (x2 : Vec F S2000x1 .f32) (x3 : Vec F S128x128 .f32) (x4 : Vec F S1x128 .f32)
    (x5 : Vec F S128x128 .f32) (x6 : Vec F S1x128 .f32) (x7 : Vec F S128x128 .f32) : Vec F S2000x128 .f32 :=
  View.canon [⟨rRows, k1_pay2 (View.ld x0 rRows) (View.ld x1 rRows) (View.ld x3 rSq) (View.ld x4 rBias) (View.ld x5 rSq) (View.ld x6 rBias) (View.ld x7 rSq) (View.ld x2 rCol)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 3 t) (iblk1 V c 4 t) (iblk1 V c 5 t) (iblk1 V c 6 t) := by
  dsimp only [dat1]
theorem after1_9 (c : Dev nD) (t : Fin cfg1.N) :
    (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by
  dsimp only [dat1]

/-! ## Region 2: the first graph convolution finished (degree scaling, self loop, bias, rectifier) and the second
    projection scaled (windows: 0 aggregated rows, 1 scaled projection rows, 2 degree column, 3 bias row, 4 Wc;
    5 the layer's rows, 6 the next scaled projection's rows) -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 x1 : Vec F S2000x128 .f32) (x2 : Vec F S2000x1 .f32) (x3 : Vec F S1x128 .f32) : Vec F S2000x128 .f32 :=
  View.canon [⟨rRows, k2_pay1 (View.ld x2 rCol) (View.ld x0 rRows) (View.ld x1 rRows) (View.ld x3 rBias)⟩]

def out2_6 (x0 x1 : Vec F S2000x128 .f32) (x2 : Vec F S2000x1 .f32) (x3 : Vec F S1x128 .f32) (x4 : Vec F S128x128 .f32) : Vec F S2000x128 .f32 :=
  View.canon [⟨rRows, k2_pay2 (View.ld x2 rCol) (View.ld x0 rRows) (View.ld x1 rRows) (View.ld x3 rBias) (View.ld x4 rSq) (View.ld x2 rCol)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t)
    | ⟨6, _⟩ => out2_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) := by dsimp only [dat2]

/-! ## Region 3: the second graph convolution finished (windows: 0 aggregated rows, 1 scaled projection rows,
    2 degree column, 3 bias row; 4 the layer's rows) -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_4 (x0 x1 : Vec F S2000x128 .f32) (x2 : Vec F S2000x1 .f32) (x3 : Vec F S1x128 .f32) : Vec F S2000x128 .f32 :=
  View.canon [⟨rRows, k3_pay1 (View.ld x2 rCol) (View.ld x0 rRows) (View.ld x1 rRows) (View.ld x3 rBias)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-! ## Region 4: the projection head on the pooled features, one point over whole arrays (windows: 0 pooled
    features, 1 W1, 2 b1, 3 W2, 4 b2; 5 the normalised rows) -/

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_5 (x0 : Vec F S512x384 .f32) (x1 : Vec F S384x128 .f32) (x2 : Vec F S1x128 .f32) (x3 : Vec F S128x128 .f32)
    (x4 : Vec F S1x128 .f32) : Vec F S512x128 .f32 :=
  View.canon [⟨rHead, k4_pay1 (View.ld x0 rPool) (View.ld x1 rTall) (View.ld x2 rBias) (View.ld x3 rSq) (View.ld x4 rBias)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

end Cert.KernelIdeal.Hand

end
-- ==== Proof.KI.Fold.lean ====
/-
  The contents of every TensorCore buffer at each boundary between two items of the program, as a fold from the launch
  memory: a stretch of host operations applies its operations in order; a kernel region leaves each of its windows'
  arrays at what its write-backs leave (an input array as entered, an output array with every point's block folded in)
  and every other buffer as entered.  `W0` is the launch memory, `W(2K+1)` what region K is entered from, `W(2K+2)`
  what it leaves, `W10` the contents at the return.
-/
import proofs.«146766_j74998718923374_2_alg».proof.Proof.KI.RegDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)

/-- After the host stretch before region 0: what region 0 is entered from. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- At region 0's exit each of its arrays holds what the pipeline leaves, and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch before region 1: what region 1 is entered from. -/
abbrev W3 : Dev nD → Valuation τ sig (Elt F) := fun c => StableHlo.after hostOps1 (W2 m c)
/-- The same, read at the TensorCore's references. -/
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- At region 1's exit each of its arrays holds what the pipeline leaves, and every other buffer what it held at entry. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch before region 2: what region 2 is entered from. -/
abbrev W5 : Dev nD → Valuation τ sig (Elt F) := fun c => StableHlo.after hostOps2 (W4 m c)
/-- The same, read at the TensorCore's references. -/
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
/-- At region 2's exit each of its arrays holds what the pipeline leaves, and every other buffer what it held at entry. -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch before region 3: what region 3 is entered from. -/
abbrev W7 : Dev nD → Valuation τ sig (Elt F) := fun c => StableHlo.after hostOps3 (W6 m c)
/-- The same, read at the TensorCore's references. -/
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
/-- At region 3's exit each of its arrays holds what the pipeline leaves, and every other buffer what it held at entry. -/
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After the host stretch before region 4: what region 4 is entered from. -/
abbrev W9 : Dev nD → Valuation τ sig (Elt F) := fun c => StableHlo.after hostOps4 (W8 m c)
/-- The same, read at the TensorCore's references. -/
abbrev V9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
/-- At region 4's exit each of its arrays holds what the pipeline leaves, and every other buffer what it held at entry. -/
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

end Cert.KernelIdeal.Hand

end
-- ==== Proof.KI.Keep.lean ====
/-
  What each item of the program leaves unchanged, on the fold of the buffer contents (`W0` … `W10`): a stretch of host
  operations changes only the references its operations write; a kernel region changes only its output windows' arrays
  (an input window's array is read, never written back; a buffer that is no window's array is not touched).  Chained,
  a buffer that no later item writes keeps its contents to the end: so every argument array at the return, and at the
  boundary before the last host stretch, holds its launch contents.
-/
import proofs.«146766_j74998718923374_2_alg».proof.Proof.KI.Fold
import proofs.«146766_j74998718923374_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## What each item leaves unchanged -/

/-- The host stretch before region 0 leaves every reference it does not write as it was. -/
theorem W1_keep (c : Dev nD) (r : Ref sig .tc) (h : r ∉ hostOps0_W) :
    W1 m c (Proc.devRef .tc r) = W0 m c (Proc.devRef .tc r) :=
  StableHlo.after_of_writes_sub hostOps0 _ hostOps0_writes h
/-- Region 0 (the input projection) leaves every buffer but its output arrays as entered: an input window's array is what the
    record starts from, untouched by any write-back; any other buffer bypasses the region. -/
theorem W2_keep (c : Dev nD) (r : Ref sig .tc) (h : r ∉ ([main_v5] : List (Ref sig .tc))) :
    W2 m c (Proc.devRef .tc r) = W1 m c (Proc.devRef .tc r) := by
  by_cases hw : ∃ w, Pipeline.arrRef spec0 w = r
  · obtain ⟨w, rfl⟩ := hw
    have hin : (cfg0.win w).isOut = false := by
      revert w; decide
    exact (W2_arr m c w).trans (((dat0 (V1 m) c).arrAt_in w hin _).trans (A_eq0 (V1 m) c w))
  · exact W2_of_ne m c r fun w e => hw ⟨w, e⟩

/-- The host stretch before region 1 leaves every reference it does not write as it was. -/
theorem W3_keep (c : Dev nD) (r : Ref sig .tc) (h : r ∉ hostOps1_W) :
    W3 m c (Proc.devRef .tc r) = W2 m c (Proc.devRef .tc r) :=
  StableHlo.after_of_writes_sub hostOps1 _ hostOps1_writes h
/-- Region 1 (the perceptron and the first scaled projection) leaves every buffer but its output arrays as entered: an input window's array is what the
    record starts from, untouched by any write-back; any other buffer bypasses the region. -/
theorem W4_keep (c : Dev nD) (r : Ref sig .tc) (h : r ∉ ([main_v26_0, main_v26_1] : List (Ref sig .tc))) :
    W4 m c (Proc.devRef .tc r) = W3 m c (Proc.devRef .tc r) := by
  by_cases hw : ∃ w, Pipeline.arrRef spec1 w = r
  · obtain ⟨w, rfl⟩ := hw
    have hin : (cfg1.win w).isOut = false := by
      revert w; decide
    exact (W4_arr m c w).trans (((dat1 (V3 m) c).arrAt_in w hin _).trans (A_eq1 (V3 m) c w))
  · exact W4_of_ne m c r fun w e => hw ⟨w, e⟩

/-- The host stretch before region 2 leaves every reference it does not write as it was. -/
theorem W5_keep (c : Dev nD) (r : Ref sig .tc) (h : r ∉ hostOps2_W) :
    W5 m c (Proc.devRef .tc r) = W4 m c (Proc.devRef .tc r) :=
  StableHlo.after_of_writes_sub hostOps2 _ hostOps2_writes h
/-- Region 2 (the first graph convolution finished and the second scaled projection) leaves every buffer but its output arrays as entered: an input window's array is what the
    record starts from, untouched by any write-back; any other buffer bypasses the region. -/
theorem W6_keep (c : Dev nD) (r : Ref sig .tc) (h : r ∉ ([main_v38_0, main_v38_1] : List (Ref sig .tc))) :
    W6 m c (Proc.devRef .tc r) = W5 m c (Proc.devRef .tc r) := by
  by_cases hw : ∃ w, Pipeline.arrRef spec2 w = r
  · obtain ⟨w, rfl⟩ := hw
    have hin : (cfg2.win w).isOut = false := by
      revert w; decide
    exact (W6_arr m c w).trans (((dat2 (V5 m) c).arrAt_in w hin _).trans (A_eq2 (V5 m) c w))
  · exact W6_of_ne m c r fun w e => hw ⟨w, e⟩

/-- The host stretch before region 3 leaves every reference it does not write as it was. -/
theorem W7_keep (c : Dev nD) (r : Ref sig .tc) (h : r ∉ hostOps3_W) :
    W7 m c (Proc.devRef .tc r) = W6 m c (Proc.devRef .tc r) :=
  StableHlo.after_of_writes_sub hostOps3 _ hostOps3_writes h
/-- Region 3 (the second graph convolution finished) leaves every buffer but its output arrays as entered: an input window's array is what the
    record starts from, untouched by any write-back; any other buffer bypasses the region. -/
theorem W8_keep (c : Dev nD) (r : Ref sig .tc) (h : r ∉ ([main_v50] : List (Ref sig .tc))) :
    W8 m c (Proc.devRef .tc r) = W7 m c (Proc.devRef .tc r) := by
  by_cases hw : ∃ w, Pipeline.arrRef spec3 w = r
  · obtain ⟨w, rfl⟩ := hw
    have hin : (cfg3.win w).isOut = false := by
      revert w; decide
    exact (W8_arr m c w).trans (((dat3 (V7 m) c).arrAt_in w hin _).trans (A_eq3 (V7 m) c w))
  · exact W8_of_ne m c r fun w e => hw ⟨w, e⟩

/-- The host stretch before region 4 leaves every reference it does not write as it was. -/
theorem W9_keep (c : Dev nD) (r : Ref sig .tc) (h : r ∉ hostOps4_W) :
    W9 m c (Proc.devRef .tc r) = W8 m c (Proc.devRef .tc r) :=
  StableHlo.after_of_writes_sub hostOps4 _ hostOps4_writes h
/-- Region 4 (the projection head) leaves every buffer but its output arrays as entered: an input window's array is what the
    record starts from, untouched by any write-back; any other buffer bypasses the region. -/
theorem W10_keep (c : Dev nD) (r : Ref sig .tc) (h : r ∉ ([main_v72] : List (Ref sig .tc))) :
    W10 m c (Proc.devRef .tc r) = W9 m c (Proc.devRef .tc r) := by
  by_cases hw : ∃ w, Pipeline.arrRef spec4 w = r
  · obtain ⟨w, rfl⟩ := hw
    have hin : (cfg4.win w).isOut = false := by
      revert w; decide
    exact (W10_arr m c w).trans (((dat4 (V9 m) c).arrAt_in w hin _).trans (A_eq4 (V9 m) c w))
  · exact W10_of_ne m c r fun w e => hw ⟨w, e⟩

/-! ## The arguments end as launched: no host stretch writes one, and no region has one as an output array -/

theorem W10_main_arg0 (c : Dev nD) : W10 m c (Proc.devRef .tc main_arg0) = m ((c : Thread nD τ).loc main_arg0) :=
  (W10_keep m c main_arg0 (by decide)).trans <| (W9_keep m c main_arg0 (by decide)).trans <| (W8_keep m c main_arg0 (by decide)).trans <| (W7_keep m c main_arg0 (by decide)).trans <| (W6_keep m c main_arg0 (by decide)).trans <| (W5_keep m c main_arg0 (by decide)).trans <| (W4_keep m c main_arg0 (by decide)).trans <| (W3_keep m c main_arg0 (by decide)).trans <| (W2_keep m c main_arg0 (by decide)).trans <| (W1_keep m c main_arg0 (by decide)).trans <| rfl
theorem W10_main_arg1 (c : Dev nD) : W10 m c (Proc.devRef .tc main_arg1) = m ((c : Thread nD τ).loc main_arg1) :=
  (W10_keep m c main_arg1 (by decide)).trans <| (W9_keep m c main_arg1 (by decide)).trans <| (W8_keep m c main_arg1 (by decide)).trans <| (W7_keep m c main_arg1 (by decide)).trans <| (W6_keep m c main_arg1 (by decide)).trans <| (W5_keep m c main_arg1 (by decide)).trans <| (W4_keep m c main_arg1 (by decide)).trans <| (W3_keep m c main_arg1 (by decide)).trans <| (W2_keep m c main_arg1 (by decide)).trans <| (W1_keep m c main_arg1 (by decide)).trans <| rfl
theorem W10_main_arg2 (c : Dev nD) : W10 m c (Proc.devRef .tc main_arg2) = m ((c : Thread nD τ).loc main_arg2) :=
  (W10_keep m c main_arg2 (by decide)).trans <| (W9_keep m c main_arg2 (by decide)).trans <| (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)).trans <| rfl
theorem W10_main_arg3 (c : Dev nD) : W10 m c (Proc.devRef .tc main_arg3) = m ((c : Thread nD τ).loc main_arg3) :=
  (W10_keep m c main_arg3 (by decide)).trans <| (W9_keep m c main_arg3 (by decide)).trans <| (W8_keep m c main_arg3 (by decide)).trans <| (W7_keep m c main_arg3 (by decide)).trans <| (W6_keep m c main_arg3 (by decide)).trans <| (W5_keep m c main_arg3 (by decide)).trans <| (W4_keep m c main_arg3 (by decide)).trans <| (W3_keep m c main_arg3 (by decide)).trans <| (W2_keep m c main_arg3 (by decide)).trans <| (W1_keep m c main_arg3 (by decide)).trans <| rfl
theorem W10_main_arg4 (c : Dev nD) : W10 m c (Proc.devRef .tc main_arg4) = m ((c : Thread nD τ).loc main_arg4) :=
  (W10_keep m c main_arg4 (by decide)).trans <| (W9_keep m c main_arg4 (by decide)).trans <| (W8_keep m c main_arg4 (by decide)).trans <| (W7_keep m c main_arg4 (by decide)).trans <| (W6_keep m c main_arg4 (by decide)).trans <| (W5_keep m c main_arg4 (by decide)).trans <| (W4_keep m c main_arg4 (by decide)).trans <| (W3_keep m c main_arg4 (by decide)).trans <| (W2_keep m c main_arg4 (by decide)).trans <| (W1_keep m c main_arg4 (by decide)).trans <| rfl
theorem W10_main_arg5 (c : Dev nD) : W10 m c (Proc.devRef .tc main_arg5) = m ((c : Thread nD τ).loc main_arg5) :=
  (W10_keep m c main_arg5 (by decide)).trans <| (W9_keep m c main_arg5 (by decide)).trans <| (W8_keep m c main_arg5 (by decide)).trans <| (W7_keep m c main_arg5 (by decide)).trans <| (W6_keep m c main_arg5 (by decide)).trans <| (W5_keep m c main_arg5 (by decide)).trans <| (W4_keep m c main_arg5 (by decide)).trans <| (W3_keep m c main_arg5 (by decide)).trans <| (W2_keep m c main_arg5 (by decide)).trans <| (W1_keep m c main_arg5 (by decide)).trans <| rfl
theorem W10_main_arg6 (c : Dev nD) : W10 m c (Proc.devRef .tc main_arg6) = m ((c : Thread nD τ).loc main_arg6) :=
  (W10_keep m c main_arg6 (by decide)).trans <| (W9_keep m c main_arg6 (by decide)).trans <| (W8_keep m c main_arg6 (by decide)).trans <| (W7_keep m c main_arg6 (by decide)).trans <| (W6_keep m c main_arg6 (by decide)).trans <| (W5_keep m c main_arg6 (by decide)).trans <| (W4_keep m c main_arg6 (by decide)).trans <| (W3_keep m c main_arg6 (by decide)).trans <| (W2_keep m c main_arg6 (by decide)).trans <| (W1_keep m c main_arg6 (by decide)).trans <| rfl
theorem W10_main_arg7 (c : Dev nD) : W10 m c (Proc.devRef .tc main_arg7) = m ((c : Thread nD τ).loc main_arg7) :=
  (W10_keep m c main_arg7 (by decide)).trans <| (W9_keep m c main_arg7 (by decide)).trans <| (W8_keep m c main_arg7 (by decide)).trans <| (W7_keep m c main_arg7 (by decide)).trans <| (W6_keep m c main_arg7 (by decide)).trans <| (W5_keep m c main_arg7 (by decide)).trans <| (W4_keep m c main_arg7 (by decide)).trans <| (W3_keep m c main_arg7 (by decide)).trans <| (W2_keep m c main_arg7 (by decide)).trans <| (W1_keep m c main_arg7 (by decide)).trans <| rfl
theorem W10_main_arg8 (c : Dev nD) : W10 m c (Proc.devRef .tc main_arg8) = m ((c : Thread nD τ).loc main_arg8) :=
  (W10_keep m c main_arg8 (by decide)).trans <| (W9_keep m c main_arg8 (by decide)).trans <| (W8_keep m c main_arg8 (by decide)).trans <| (W7_keep m c main_arg8 (by decide)).trans <| (W6_keep m c main_arg8 (by decide)).trans <| (W5_keep m c main_arg8 (by decide)).trans <| (W4_keep m c main_arg8 (by decide)).trans <| (W3_keep m c main_arg8 (by decide)).trans <| (W2_keep m c main_arg8 (by decide)).trans <| (W1_keep m c main_arg8 (by decide)).trans <| rfl
theorem W10_main_arg9 (c : Dev nD) : W10 m c (Proc.devRef .tc main_arg9) = m ((c : Thread nD τ).loc main_arg9) :=
  (W10_keep m c main_arg9 (by decide)).trans <| (W9_keep m c main_arg9 (by decide)).trans <| (W8_keep m c main_arg9 (by decide)).trans <| (W7_keep m c main_arg9 (by decide)).trans <| (W6_keep m c main_arg9 (by decide)).trans <| (W5_keep m c main_arg9 (by decide)).trans <| (W4_keep m c main_arg9 (by decide)).trans <| (W3_keep m c main_arg9 (by decide)).trans <| (W2_keep m c main_arg9 (by decide)).trans <| (W1_keep m c main_arg9 (by decide)).trans <| rfl
theorem W10_main_arg10 (c : Dev nD) : W10 m c (Proc.devRef .tc main_arg10) = m ((c : Thread nD τ).loc main_arg10) :=
  (W10_keep m c main_arg10 (by decide)).trans <| (W9_keep m c main_arg10 (by decide)).trans <| (W8_keep m c main_arg10 (by decide)).trans <| (W7_keep m c main_arg10 (by decide)).trans <| (W6_keep m c main_arg10 (by decide)).trans <| (W5_keep m c main_arg10 (by decide)).trans <| (W4_keep m c main_arg10 (by decide)).trans <| (W3_keep m c main_arg10 (by decide)).trans <| (W2_keep m c main_arg10 (by decide)).trans <| (W1_keep m c main_arg10 (by decide)).trans <| rfl
theorem W10_main_arg11 (c : Dev nD) : W10 m c (Proc.devRef .tc main_arg11) = m ((c : Thread nD τ).loc main_arg11) :=
  (W10_keep m c main_arg11 (by decide)).trans <| (W9_keep m c main_arg11 (by decide)).trans <| (W8_keep m c main_arg11 (by decide)).trans <| (W7_keep m c main_arg11 (by decide)).trans <| (W6_keep m c main_arg11 (by decide)).trans <| (W5_keep m c main_arg11 (by decide)).trans <| (W4_keep m c main_arg11 (by decide)).trans <| (W3_keep m c main_arg11 (by decide)).trans <| (W2_keep m c main_arg11 (by decide)).trans <| (W1_keep m c main_arg11 (by decide)).trans <| rfl
theorem W10_main_arg12 (c : Dev nD) : W10 m c (Proc.devRef .tc main_arg12) = m ((c : Thread nD τ).loc main_arg12) :=
  (W10_keep m c main_arg12 (by decide)).trans <| (W9_keep m c main_arg12 (by decide)).trans <| (W8_keep m c main_arg12 (by decide)).trans <| (W7_keep m c main_arg12 (by decide)).trans <| (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)).trans <| rfl
theorem W10_main_arg13 (c : Dev nD) : W10 m c (Proc.devRef .tc main_arg13) = m ((c : Thread nD τ).loc main_arg13) :=
  (W10_keep m c main_arg13 (by decide)).trans <| (W9_keep m c main_arg13 (by decide)).trans <| (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)).trans <| rfl
theorem W10_main_arg14 (c : Dev nD) : W10 m c (Proc.devRef .tc main_arg14) = m ((c : Thread nD τ).loc main_arg14) :=
  (W10_keep m c main_arg14 (by decide)).trans <| (W9_keep m c main_arg14 (by decide)).trans <| (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)).trans <| rfl
theorem W10_main_arg15 (c : Dev nD) : W10 m c (Proc.devRef .tc main_arg15) = m ((c : Thread nD τ).loc main_arg15) :=
  (W10_keep m c main_arg15 (by decide)).trans <| (W9_keep m c main_arg15 (by decide)).trans <| (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)).trans <| rfl
theorem W10_main_arg16 (c : Dev nD) : W10 m c (Proc.devRef .tc main_arg16) = m ((c : Thread nD τ).loc main_arg16) :=
  (W10_keep m c main_arg16 (by decide)).trans <| (W9_keep m c main_arg16 (by decide)).trans <| (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)).trans <| rfl

/-! ## The arguments at the boundary before the last host stretch -/

theorem W8_main_arg2 (c : Dev nD) : W8 m c (Proc.devRef .tc main_arg2) = m ((c : Thread nD τ).loc main_arg2) :=
  (W8_keep m c main_arg2 (by decide)).trans <| (W7_keep m c main_arg2 (by decide)).trans <| (W6_keep m c main_arg2 (by decide)).trans <| (W5_keep m c main_arg2 (by decide)).trans <| (W4_keep m c main_arg2 (by decide)).trans <| (W3_keep m c main_arg2 (by decide)).trans <| (W2_keep m c main_arg2 (by decide)).trans <| (W1_keep m c main_arg2 (by decide)).trans <| rfl
theorem W8_main_arg13 (c : Dev nD) : W8 m c (Proc.devRef .tc main_arg13) = m ((c : Thread nD τ).loc main_arg13) :=
  (W8_keep m c main_arg13 (by decide)).trans <| (W7_keep m c main_arg13 (by decide)).trans <| (W6_keep m c main_arg13 (by decide)).trans <| (W5_keep m c main_arg13 (by decide)).trans <| (W4_keep m c main_arg13 (by decide)).trans <| (W3_keep m c main_arg13 (by decide)).trans <| (W2_keep m c main_arg13 (by decide)).trans <| (W1_keep m c main_arg13 (by decide)).trans <| rfl
theorem W8_main_arg14 (c : Dev nD) : W8 m c (Proc.devRef .tc main_arg14) = m ((c : Thread nD τ).loc main_arg14) :=
  (W8_keep m c main_arg14 (by decide)).trans <| (W7_keep m c main_arg14 (by decide)).trans <| (W6_keep m c main_arg14 (by decide)).trans <| (W5_keep m c main_arg14 (by decide)).trans <| (W4_keep m c main_arg14 (by decide)).trans <| (W3_keep m c main_arg14 (by decide)).trans <| (W2_keep m c main_arg14 (by decide)).trans <| (W1_keep m c main_arg14 (by decide)).trans <| rfl
theorem W8_main_arg15 (c : Dev nD) : W8 m c (Proc.devRef .tc main_arg15) = m ((c : Thread nD τ).loc main_arg15) :=
  (W8_keep m c main_arg15 (by decide)).trans <| (W7_keep m c main_arg15 (by decide)).trans <| (W6_keep m c main_arg15 (by decide)).trans <| (W5_keep m c main_arg15 (by decide)).trans <| (W4_keep m c main_arg15 (by decide)).trans <| (W3_keep m c main_arg15 (by decide)).trans <| (W2_keep m c main_arg15 (by decide)).trans <| (W1_keep m c main_arg15 (by decide)).trans <| rfl
theorem W8_main_arg16 (c : Dev nD) : W8 m c (Proc.devRef .tc main_arg16) = m ((c : Thread nD τ).loc main_arg16) :=
  (W8_keep m c main_arg16 (by decide)).trans <| (W7_keep m c main_arg16 (by decide)).trans <| (W6_keep m c main_arg16 (by decide)).trans <| (W5_keep m c main_arg16 (by decide)).trans <| (W4_keep m c main_arg16 (by decide)).trans <| (W3_keep m c main_arg16 (by decide)).trans <| (W2_keep m c main_arg16 (by decide)).trans <| (W1_keep m c main_arg16 (by decide)).trans <| rfl

end Cert.KernelIdeal.Hand

end
-- ==== Proof.KI.Body0.lean ====
/-
  Region 0: the kernel body meets its per-point obligation.  At each grid point the body is called on the windows'
  current staging buffers; every input buffer holds its window's block (fetched there, or still in place from an earlier
  point), the body runs to its end without a fault, leaves the inputs as they were and each output buffer at the stated
  function of the input blocks.
-/
import proofs.«146766_j74998718923374_2_alg».proof.Proof.KI.RegDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

/-- Input window 0's current staging buffer holds its block at every point, whether or not the pipeline fetched it
    there (an unfetched window's block index has not moved since the last fetch), for any proof data whose array is
    the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it
    there (an unfetched window's block index has not moved since the last fetch), for any proof data whose array is
    the entry contents' and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it
    there (an unfetched window's block index has not moved since the last fetch), for any proof data whose array is
    the entry contents' and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store per output buffer covers it -/

/-- The whole-buffer store into window 3's buffer tiles it (checked by evaluation), so it covers it. -/
theorem cover0_3 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging buffers — each input's at read contents `x`, each output's at anything — runs
    without a fault to a state holding the inputs' as they were and each output's at its one store's value: the
    printed function is its skeleton of loads and stores over the payloads, which the symbolic executor runs; the
    load of an output buffer before its store reads whatever was there and the value is dropped. -/
theorem sound_kernel0 (c : Dev nD) (E : Set ℕ) (i : grid0.Coords) (arg0 : Memref sig .tc .vmem S2000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S128x128 .f32) (x2 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ (∃ d, owns (c : Thread nD τ) arg3 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare (out0_3 x0 x1 x2)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data's input buffers -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and every window's current staging
    buffer at what the pipeline left there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1: the kernel body meets its per-point obligation.  At each grid point the body is called on the windows'
  current staging buffers; every input buffer holds its window's block (fetched there, or still in place from an earlier
  point), the body runs to its end without a fault, leaves the inputs as they were and each output buffer at the stated
  function of the input blocks.
-/
import proofs.«146766_j74998718923374_2_alg».proof.Proof.KI.RegDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, whether the block was fetched at that
    point or is still in place from an earlier one (its block index has not moved since), for any per-point record whose
    array is the entry contents (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the block was fetched at that
    point or is still in place from an earlier one (its block index has not moved since), for any per-point record whose
    array is the entry contents (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the block was fetched at that
    point or is still in place from an earlier one (its block index has not moved since), for any per-point record whose
    array is the entry contents (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the block was fetched at that
    point or is still in place from an earlier one (its block index has not moved since), for any per-point record whose
    array is the entry contents (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the block was fetched at that
    point or is still in place from an earlier one (its block index has not moved since), for any per-point record whose
    array is the entry contents (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the block was fetched at that
    point or is still in place from an earlier one (its block index has not moved since), for any per-point record whose
    array is the entry contents (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the block was fetched at that
    point or is still in place from an earlier one (its block index has not moved since), for any per-point record whose
    array is the entry contents (`hA`) and whose body leaves the block in place (`hafter`). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether the block was fetched at that
    point or is still in place from an earlier one (its block index has not moved since), for any per-point record whose
    array is the entry contents (`hA`) and whose body leaves the block in place (`hafter`). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The one whole-buffer store of each output covers its buffer -/

/-- Output window 8's store is over the whole buffer, so it covers it. -/
theorem cover1_8 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-- Output window 9's store is over the whole buffer, so it covers it. -/
theorem cover1_9 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging buffers, the inputs' holding `x_w` and the outputs' anything, runs to the
    continuation with the inputs' as they were and each output's at `out1_w` of the inputs: the body is a sequence of
    whole-buffer loads and one whole-buffer store per output (it also loads each output buffer once before storing to
    it; the loaded value is unused). -/
theorem sound_kernel1 (c : Dev nD) (E : Set ℕ) (i : grid1.Coords)
    (arg0 : Memref sig .tc .vmem S2000x128 .f32) (harg0 : arg0.IsWhole)
    (arg1 : Memref sig .tc .vmem S2000x128 .f32) (harg1 : arg1.IsWhole)
    (arg2 : Memref sig .tc .vmem S2000x1 .f32) (harg2 : arg2.IsWhole)
    (arg3 : Memref sig .tc .vmem S128x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S128x128 .f32) (harg7 : arg7.IsWhole)
    (arg8 : Memref sig .tc .vmem S2000x128 .f32) (harg8 : arg8.IsWhole)
    (arg9 : Memref sig .tc .vmem S2000x128 .f32) (harg9 : arg9.IsWhole)
    (x0 : Vec F S2000x128 .f32) (x1 : Vec F S2000x128 .f32) (x2 : Vec F S2000x1 .f32) (x3 : Vec F S128x128 .f32) (x4 : Vec F S1x128 .f32) (x5 : Vec F S128x128 .f32) (x6 : Vec F S1x128 .f32) (x7 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x3 x4 x5 x6) ∗ owns (c : Thread nD τ) arg9 fullShare (out1_9 x0 x1 x2 x3 x4 x5 x6 x7)) -∗ K ⟨⟩))
      ⊢ wp frame (wpE (defs₀ (F := F)) Variants.none c none) E (cc1__gin_kernel i arg0 harg0 arg1 harg1 arg2 harg2 arg3 harg3 arg4 harg4 arg5 harg5 arg6 harg6 arg7 harg7 arg8 harg8 arg9 harg9) K := by
  simp only [cc1__gin_kernel_eq_skeleton]; unfold cc1__gin_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The per-point record's input buffers -/

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2: the kernel body meets its per-point obligation.  At each grid point the body is called on the windows'
  current staging buffers; every input buffer holds its window's block (fetched there, or still in place from an earlier
  point), the body runs to its end without a fault, leaves the inputs as they were and each output buffer at the stated
  function of the input blocks.
-/
import proofs.«146766_j74998718923374_2_alg».proof.Proof.KI.RegDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- Input window 0's current staging buffer holds its block at every point, whether the block was fetched at that
    point or is still in place from an earlier one (its block index has not moved since), for any per-point record whose
    array is the entry contents (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the block was fetched at that
    point or is still in place from an earlier one (its block index has not moved since), for any per-point record whose
    array is the entry contents (`hA`) and whose body leaves the block in place (`hafter`). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the block was fetched at that
    point or is still in place from an earlier one (its block index has not moved since), for any per-point record whose
    array is the entry contents (`hA`) and whose body leaves the block in place (`hafter`). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the block was fetched at that
    point or is still in place from an earlier one (its block index has not moved since), for any per-point record whose
    array is the entry contents (`hA`) and whose body leaves the block in place (`hafter`). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the block was fetched at that
    point or is still in place from an earlier one (its block index has not moved since), for any per-point record whose
    array is the entry contents (`hA`) and whose body leaves the block in place (`hafter`). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The one whole-buffer store of each output covers its buffer -/

/-- Output window 5's store is over the whole buffer, so it covers it. -/
theorem cover2_5 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-- Output window 6's store is over the whole buffer, so it covers it. -/
theorem cover2_6 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging buffers, the inputs' holding `x_w` and the outputs' anything, runs to the
    continuation with the inputs' as they were and each output's at `out2_w` of the inputs: the body is a sequence of
    whole-buffer loads and one whole-buffer store per output (it also loads each output buffer once before storing to
    it; the loaded value is unused). -/
theorem sound_kernel2 (c : Dev nD) (E : Set ℕ) (i : grid2.Coords)
    (arg0 : Memref sig .tc .vmem S2000x128 .f32) (harg0 : arg0.IsWhole)
    (arg1 : Memref sig .tc .vmem S2000x128 .f32) (harg1 : arg1.IsWhole)
    (arg2 : Memref sig .tc .vmem S2000x1 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S2000x128 .f32) (harg5 : arg5.IsWhole)
    (arg6 : Memref sig .tc .vmem S2000x128 .f32) (harg6 : arg6.IsWhole)
    (x0 : Vec F S2000x128 .f32) (x1 : Vec F S2000x128 .f32) (x2 : Vec F S2000x1 .f32) (x3 : Vec F S1x128 .f32) (x4 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out2_5 x0 x1 x2 x3) ∗ owns (c : Thread nD τ) arg6 fullShare (out2_6 x0 x1 x2 x3 x4)) -∗ K ⟨⟩))
      ⊢ wp frame (wpE (defs₀ (F := F)) Variants.none c none) E (cc2__gcn1_kernel i arg0 harg0 arg1 harg1 arg2 harg2 arg3 harg3 arg4 harg4 arg5 harg5 arg6 harg6) K := by
  simp only [cc2__gcn1_kernel_eq_skeleton]; unfold cc2__gcn1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _)
  iexists _; isplitr
  swap; · iexact H6
  ipureintro
  exact View.read_writes_eq_canon _ _ _ (cover2_6 _)

/-! ## The per-point record's input buffers -/

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/-
  Region 3: the kernel body meets its per-point obligation.  At each grid point the body is called on the windows'
  current staging buffers; every input buffer holds its window's block (fetched there, or still in place from an earlier
  point), the body runs to its end without a fault, leaves the inputs as they were and the output buffer at the stated
  function of the input blocks.
-/
import proofs.«146766_j74998718923374_2_alg».proof.Proof.KI.RegDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

/-- Input window 0's current staging buffer holds its block at every point, whether or not the pipeline fetched it
    there (an unfetched window's block index has not moved since the last fetch), for any proof data whose array is
    the entry contents' and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether or not the pipeline fetched it
    there (an unfetched window's block index has not moved since the last fetch), for any proof data whose array is
    the entry contents' and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether or not the pipeline fetched it
    there (an unfetched window's block index has not moved since the last fetch), for any proof data whose array is
    the entry contents' and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether or not the pipeline fetched it
    there (an unfetched window's block index has not moved since the last fetch), for any proof data whose array is
    the entry contents' and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's one store per output buffer covers it -/

/-- The whole-buffer store into window 4's buffer tiles it (checked by evaluation), so it covers it. -/
theorem cover3_4 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

/-! ## The body's triple -/

set_option maxHeartbeats 1000000 in
/-- The kernel body on whole staging buffers — each input's at read contents `x`, each output's at anything — runs
    without a fault to a state holding the inputs' as they were and each output's at its one store's value: the
    printed function is its skeleton of loads and stores over the payloads, which the symbolic executor runs; the
    load of an output buffer before its store reads whatever was there and the value is dropped. -/
theorem sound_kernel3 (c : Dev nD) (E : Set ℕ) (i : grid3.Coords) (arg0 : Memref sig .tc .vmem S2000x128 .f32) (harg0 : arg0.IsWhole) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S2000x128 .f32) (harg4 : arg4.IsWhole)
    (x0 : Vec F S2000x128 .f32) (x1 : Vec F S2000x128 .f32) (x2 : Vec F S2000x1 .f32) (x3 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ (∃ d, owns (c : Thread nD τ) arg4 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare (out3_4 x0 x1 x2 x3)) -∗ K ⟨⟩))
      ⊢ wp frame (wpE (defs₀ (F := F)) Variants.none c none) E (cc3__gcn2_finish_kernel i arg0 harg0 arg1 harg1 arg2 harg2 arg3 harg3 arg4 harg4) K := by
  simp only [cc3__gcn2_finish_kernel_eq_skeleton]; unfold cc3__gcn2_finish_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The proof data's input buffers -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`: the invariant, the core's dues, and every window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation for region 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
/-
  Region 4: the kernel body meets its obligation at the region's single point.  The body is called on the windows'
  staging buffers; every input buffer holds its window's block — the whole array —, the body runs to its end without a
  fault, leaves the inputs as they were and the output buffer at the stated function of the input blocks.
-/
import proofs.«146766_j74998718923374_2_alg».proof.Proof.KI.RegDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's staging buffer holds its block -/

/-- Input window 0's current staging buffer holds its block at every point, whether or not the pipeline fetched it
    there (an unfetched window's block index has not moved since the last fetch), for any proof data whose array is
    the entry contents' and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether or not the pipeline fetched it
    there (an unfetched window's block index has not moved since the last fetch), for any proof data whose array is
    the entry contents' and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether or not the pipeline fetched it
    there (an unfetched window's block index has not moved since the last fetch), for any proof data whose array is
    the entry contents' and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether or not the pipeline fetched it
    there (an unfetched window's block index has not moved since the last fetch), for any proof data whose array is
    the entry contents' and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether or not the pipeline fetched it
    there (an unfetched window's block index has not moved since the last fetch), for any proof data whose array is
    the entry contents' and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store per output buffer covers it -/

/-- The whole-buffer store into window 5's buffer tiles it (checked by evaluation), so it covers it. -/
theorem cover4_5 (p0 : Vec F S512x128 .f32) (y : S512x128.Idx) :
    ∃ pc ∈ ([⟨rHead, p0⟩] : List (View.Piece (Elt F) S512x128 .f32)), y ∈ pc.1.set :=
  View.cover_of_tiled [⟨rHead, p0⟩] S512x128.size (by rfl) y

/-! ## The body's triple -/

set_option maxHeartbeats 1000000 in
/-- The kernel body on whole staging buffers — each input's at read contents `x`, each output's at anything — runs
    without a fault to a state holding the inputs' as they were and each output's at its one store's value: the
    printed function is its skeleton of loads and stores over the payloads, which the symbolic executor runs; the
    load of an output buffer before its store reads whatever was there and the value is dropped. -/
theorem sound_kernel4 (c : Dev nD) (E : Set ℕ) (i : grid4.Coords) (arg0 : Memref sig .tc .vmem S512x384 .f32) (harg0 : arg0.IsWhole) (arg1 : Memref sig .tc .vmem S384x128 .f32) (harg1 : arg1.IsWhole) (arg2 : Memref sig .tc .vmem S1x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S512x128 .f32) (harg5 : arg5.IsWhole)
    (x0 : Vec F S512x384 .f32) (x1 : Vec F S384x128 .f32) (x2 : Vec F S1x128 .f32) (x3 : Vec F S128x128 .f32) (x4 : Vec F S1x128 .f32) (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ (∃ d, owns (c : Thread nD τ) arg5 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare (out4_5 x0 x1 x2 x3 x4)) -∗ K ⟨⟩))
      ⊢ wp frame (wpE (defs₀ (F := F)) Variants.none c none) E (cc4__head_kernel i arg0 harg0 arg1 harg1 arg2 harg2 arg3 harg3 arg4 harg4 arg5 harg5) K := by
  simp only [cc4__head_kernel_eq_skeleton]; unfold cc4__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The proof data's input buffers -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`: the invariant, the core's dues, and every window's current staging
    buffer at what the pipeline left there, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 4, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The program's run from the launch to the return, as ten items in order: a stretch of host operations, then a kernel
  region, five times over.  Between two items a core holds every unscoped buffer whole at the contents the fold
  names (`W0` … `W10`), beside its generator register at some state and the record that it owes no
  other core anything.  A host stretch moves the buffers from `W(2K)` to `W(2K+1)`; region K splits its windows'
  arrays out of the buffers, runs its pipeline over them (each point's body meeting its obligation), and puts them back
  at `W(2K+2)`.  Composed, every weakly fair execution terminates with the unscoped buffers at `W10` (`run_all`); no
  item writes an argument array, so each argument reads back through the fold to its launch contents (`frame`).
-/
import proofs.«146766_j74998718923374_2_alg».proof.Proof.KI.Keep
import proofs.«146766_j74998718923374_2_alg».proof.Proof.KI.Body0
import proofs.«146766_j74998718923374_2_alg».proof.Proof.KI.Body1
import proofs.«146766_j74998718923374_2_alg».proof.Proof.KI.Body2
import proofs.«146766_j74998718923374_2_alg».proof.Proof.KI.Body3
import proofs.«146766_j74998718923374_2_alg».proof.Proof.KI.Body4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- The prefetched tables' admissible contents: no kernel region has a table. -/
abbrev adm : (p : Fin 5) → (pcfgs (F := F) p).Adm := fun p => (cfgs p).toPCfg_adm
/-- Every region's per-point record, each at the contents its region is entered from — a literal `match`, so that the
    region's configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record of what it owes, at nothing. -/
abbrev R (c : Dev nD) : sProp 𝕄 := iprop((∃ r, prngReg c r) ∗ ∃ W, owes (c : Thread nD τ) (0 : CellTallies nD τ sig Unit) W)
/-- A host stretch as an item: its operations over the unscoped references from the contents `W`, `R` riding along;
    it ends with those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of what is owed: every unscoped buffer at the contents at the return,
    the generator register at some state. -/
abbrev Tₙ (c : Dev nD) : sProp 𝕄 := iprop(StableHlo.held (c : Thread nD τ) (Pipeline.ucRefs τ sig) (W10 m c) ∗ ∃ r, prngReg c r)

/-! ## The regions as items -/

-- applying a library lemma stated over the pinned configuration unifies with the printed one only when unification may
-- unfold plain definitions in a metavariable's type
set_option backward.isDefEq.respectTransparency.types false in
/-- REGION 0 (the input projection) over the thread state: entered from every unscoped buffer at `W1`, left at `W2`.
    Its windows' arrays are split out of the unscoped buffers and put back at the exit contents; the generator register
    goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 1 (the perceptron and the first scaled projection) over the thread state: entered from every unscoped buffer at `W3`, left at `W4`.
    Its windows' arrays are split out of the unscoped buffers and put back at the exit contents; the generator register
    goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 2 (the first graph convolution finished and the second scaled projection) over the thread state: entered from every unscoped buffer at `W5`, left at `W6`.
    Its windows' arrays are split out of the unscoped buffers and put back at the exit contents; the generator register
    goes into the region's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 3 (the second graph convolution finished) over the thread state: entered from every unscoped buffer at `W7`, left at `W8`.
    Its windows' arrays are split out of the unscoped buffers and put back at the exit contents; the generator register
    goes into the region's invariant and comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 4 (the projection head) over the thread state: entered from every unscoped buffer at `W9`, left at `W10` (the contents at the return).
    Its windows' arrays are split out of the unscoped buffers and put back at the exit contents; the generator register
    goes into the region's invariant and comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

/-- The program's ten items in order: a host stretch from its boundary's contents, then a kernel region, five times. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]
/-- The program IS the run of its items: it is the chain of its host stretches and region calls, and so is the items' run. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters and any generator registers, every weakly fair
    execution of the program on the TensorCores terminates, nothing faulting, and every final memory holds each
    unscoped buffer at the fold's last contents `W10`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME: every weakly fair execution terminates, and every final memory holds each argument array as launched —
    the run's last contents read at each argument, which no item writes. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (W10_main_arg0 m c),
      (h c _ (mem_uc main_arg1 (by decide))).trans (W10_main_arg1 m c),
      (h c _ (mem_uc main_arg2 (by decide))).trans (W10_main_arg2 m c),
      (h c _ (mem_uc main_arg3 (by decide))).trans (W10_main_arg3 m c),
      (h c _ (mem_uc main_arg4 (by decide))).trans (W10_main_arg4 m c),
      (h c _ (mem_uc main_arg5 (by decide))).trans (W10_main_arg5 m c),
      (h c _ (mem_uc main_arg6 (by decide))).trans (W10_main_arg6 m c),
      (h c _ (mem_uc main_arg7 (by decide))).trans (W10_main_arg7 m c),
      (h c _ (mem_uc main_arg8 (by decide))).trans (W10_main_arg8 m c),
      (h c _ (mem_uc main_arg9 (by decide))).trans (W10_main_arg9 m c),
      (h c _ (mem_uc main_arg10 (by decide))).trans (W10_main_arg10 m c),
      (h c _ (mem_uc main_arg11 (by decide))).trans (W10_main_arg11 m c),
      (h c _ (mem_uc main_arg12 (by decide))).trans (W10_main_arg12 m c),
      (h c _ (mem_uc main_arg13 (by decide))).trans (W10_main_arg13 m c),
      (h c _ (mem_uc main_arg14 (by decide))).trans (W10_main_arg14 m c),
      (h c _ (mem_uc main_arg15 (by decide))).trans (W10_main_arg15 m c),
      (h c _ (mem_uc main_arg16 (by decide))).trans (W10_main_arg16 m c)⟩) (run_all m ρ)

end Cert.KernelIdeal.Hand

end
-- ==== Proof.Frames.lean ====
/-
  The two kernel programs' frames.  The word-level program and its idealization are the same text read at two float
  instances; the run of @main — five stretches of host operations around five kernel regions, each region's body meeting
  its per-point obligation — is proved once, generically in the instance, and read here at each: every weakly fair
  execution terminates, nothing faults, and every argument array ends holding its launch contents.
-/
import proofs.«146766_j74998718923374_2_alg».proof.Defs
import proofs.«146766_j74998718923374_2_alg».proof.Proof.K.Run
import proofs.«146766_j74998718923374_2_alg».proof.Proof.KI.Run
import proofs.«146766_j74998718923374_2_alg».proof.Proof.Gen.Kernel
import proofs.«146766_j74998718923374_2_alg».proof.Proof.Gen.KernelIdeal
import proofs.«146766_j74998718923374_2_alg».proof.Proof.Gen.Pre_finite_inputs

noncomputable section

namespace Cert.Proof.Frames

open Idealize.ShloMosaic Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

end Cert.Proof.Frames

end
-- ==== Proof.RefFrame.lean ====
/-
  The reference program's frame.  The reference is a straight-line host program (no kernel launch): its run, read back
  as one list of host operations, terminates without a fault and leaves every argument array as it found it; the frame
  claim is that run with the result's value dropped.
-/
import proofs.«146766_j74998718923374_2_alg».proof.Defs
import proofs.«146766_j74998718923374_2_alg».proof.Proof.Gen.ReferenceIdeal
import proofs.«146766_j74998718923374_2_alg».proof.Proof.Gen.Pre_finite_inputs
import proofs.«146766_j74998718923374_2_alg».proof.Proof.Gen.ReferenceIdeal.Run
import proofs.«146766_j74998718923374_2_alg».proof.Proof.Gen.ReferenceIdeal.Read

noncomputable section

namespace Cert.Proof.RefFrame

open Idealize.ShloMosaic Idealize.ShloMosaic.TcCoe Idealize.SL.Sem

/-- Every weakly fair execution of the reference terminates, faults nowhere, and ends with its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  What the two programs compute, as closed forms over the extended reals.

  A graph of 50000 nodes and 600000 directed edges (source word, destination word per edge) carries 128 features per
  node; every node belongs to one of 512 graphs (a graph word per node).  The network is
    h   = x·W_in + b_in
    x₁  = (relu((h + Σ_{edges into i} h[source])·W₁ + b₁))·W₂ + b₂            (sum aggregation, then a perceptron)
    x₂  = relu(conv(x₁; Wc₁, bc₁)),  x₃ = relu(conv(x₂; Wc₂, bc₂))             (two degree-normalised convolutions)
    g   = (per-graph sums of [x₁ | x₂ | x₃]) / max(per-graph node count, 1)
    z   = relu(g·Wp₁ + bp₁)·Wp₂ + bp₂,   result = z / max(‖z‖₂, ε)  row by row.
  With d_i = (1 + number of edges into i)^(-1/2) and y = X·W, the convolution at node i is
    Σ_{edges e into i} y[source e]·(d[source e]·d[destination e]) + (d_i·d_i)·y_i + b          (the reference's form)
    d_i·(Σ_{edges e into i} (y[source e]·d[source e]) + y_i·d_i) + b                           (the kernel's form),
  and the pooled features are taken of the concatenation (reference) or concatenated after pooling (kernel).
  An edge e "goes into" node i when its destination word, read as a signed integer, is i; a row is fetched at a word
  by first adding 50000 to a negative word and then bringing the signed value into 0 … 49999.  The literals 1.0 and ε are
  the same words in both programs and stay parameters (`one`, `eps`).
-/
import Idealize.ShloMosaic.PureOps.Ideal
import Idealize.ShloMosaic.Lib.ValueIdx

noncomputable section

namespace Cert.Spec

open Idealize.ShloMosaic
open scoped BigOperators

abbrev Mat (a b : Nat) := Fin a → Fin b → EReal
abbrev Vect (a : Nat) := Fin a → EReal

/-- A negative index word counts from the end: 50000 is added to it. -/
def wrapIx (v : BitVec 32) : BitVec 32 := Scalar.select (IntOp.cmpi .slt v 0#32) (IntOp.addi v 50000#32) v
/-- The node a word addresses when a row is fetched: its signed value brought into 0 … 49999. -/
def rowOf (v : BitVec 32) : Fin 50000 := ⟨min v.toInt.toNat (50000 - 1), by omega⟩

/-- X·W, entry by entry. -/
def mm {R K M : Nat} (W : Mat K M) (X : Mat R K) : Mat R M := fun r o => ∑ k, X r k * W k o
/-- X·W + b, the bias added to every row. -/
def dense {R K M : Nat} (W : Mat K M) (b : Vect M) (X : Mat R K) : Mat R M := fun r o => mm W X r o + b o
/-- The rectifier, entry by entry. -/
def relu {R M : Nat} (X : Mat R M) : Mat R M := fun r o => max (X r o) 0

section Graph

variable (src dst : Fin 600000 → BitVec 32) (bat : Fin 50000 → BitVec 32) (one : EReal)

/-- The node whose row an edge fetches as its source, resp. the node its destination word fetches. -/
def srcRow (e : Fin 600000) : Fin 50000 := rowOf (wrapIx (src e))
def dstRow (e : Fin 600000) : Fin 50000 := rowOf (wrapIx (dst e))

/-- Per-edge rows summed into the node each edge goes into. -/
def segRows {M : Nat} (U : Fin 600000 → Fin M → EReal) : Mat 50000 M :=
  fun i j => ∑ e, if (dst e).toInt = (i.val : ℤ) then U e j else 0

/-- One plus the number of edges into a node, and its inverse square root. -/
def deg : Vect 50000 := fun i => (∑ e : Fin 600000, if (dst e).toInt = (i.val : ℤ) then one else 0) + one
def dinv : Vect 50000 := fun i => Ideal.rsqrt (deg dst one i)

/-- Sum aggregation followed by the two-layer perceptron. -/
def gin (W1 : Mat 128 128) (b1 : Vect 128) (W2 : Mat 128 128) (b2 : Vect 128) (h : Mat 50000 128) : Mat 50000 128 :=
  dense W2 b2 (relu (dense W1 b1 (fun i k => h i k + segRows dst (fun e j => h (srcRow src e) j) i k)))

/-- The projection scaled node by node by the inverse square-root degree. -/
def scaled (W : Mat 128 128) (X : Mat 50000 128) : Mat 50000 128 := fun i j => mm W X i j * dinv dst one i

/-- A convolution layer (with its rectifier) in the kernel's arrangement. -/
def convK (W : Mat 128 128) (b : Vect 128) (X : Mat 50000 128) : Mat 50000 128 :=
  fun i j => max (dinv dst one i * (segRows dst (fun e j => scaled dst one W X (srcRow src e) j) i j + scaled dst one W X i j) + b j) 0

/-- A convolution layer (with its rectifier) in the reference's arrangement. -/
def convR (W : Mat 128 128) (b : Vect 128) (X : Mat 50000 128) : Mat 50000 128 :=
  fun i j => max ((segRows dst (fun e j => mm W X (srcRow src e) j * (dinv dst one (srcRow src e) * dinv dst one (dstRow dst e))) i j
      + (dinv dst one i * dinv dst one i) * mm W X i j) + b j) 0

/-- Per-node rows summed into the graph each node belongs to, and the clamped node count of a graph. -/
def poolRows {M : Nat} (X : Mat 50000 M) : Mat 512 M := fun g j => ∑ n, if (bat n).toInt = (g.val : ℤ) then X n j else 0
def cnt : Vect 512 := fun g => max (∑ n : Fin 50000, if (bat n).toInt = (g.val : ℤ) then one else 0) one

end Graph

/-- Three 128-wide blocks side by side. -/
def cat3 {R : Nat} (A B C : Mat R 128) : Mat R 384 := fun r k =>
  if h1 : k.val < 128 then A r ⟨k.val, h1⟩
  else if h2 : k.val < 256 then B r ⟨k.val - 128, by omega⟩
  else C r ⟨k.val - 256, by omega⟩

/-- The projection head with the row-wise normalisation. -/
def head (Wp1 : Mat 384 128) (bp1 : Vect 128) (Wp2 : Mat 128 128) (bp2 : Vect 128) (eps : EReal) (g : Mat 512 384) : Mat 512 128 :=
  fun r o => Ideal.div (dense Wp2 bp2 (relu (dense Wp1 bp1 g)) r o)
    (max (Ideal.sqrt (∑ o', dense Wp2 bp2 (relu (dense Wp1 bp1 g)) r o' * dense Wp2 bp2 (relu (dense Wp1 bp1 g)) r o')) eps)

section Whole

variable (x : Mat 50000 128) (src dst : Fin 600000 → BitVec 32) (bat : Fin 50000 → BitVec 32)
  (Win : Mat 128 128) (bin : Vect 128) (Wg1 : Mat 128 128) (bg1 : Vect 128) (Wg2 : Mat 128 128) (bg2 : Vect 128)
  (Wc1 : Mat 128 128) (bc1 : Vect 128) (Wc2 : Mat 128 128) (bc2 : Vect 128)
  (Wp1 : Mat 384 128) (bp1 : Vect 128) (Wp2 : Mat 128 128) (bp2 : Vect 128) (one eps : EReal)

/-- The first layer's node features, common to both arrangements. -/
def x1 : Mat 50000 128 := gin src dst Wg1 bg1 Wg2 bg2 (dense Win bin x)

/-- The kernel's result: layers in the kernel's arrangement, pooled block by block, then the head. -/
def kernelResult : Mat 512 128 :=
  let a1 := x1 x src dst Win bin Wg1 bg1 Wg2 bg2
  let a2 := convK src dst one Wc1 bc1 a1
  let a3 := convK src dst one Wc2 bc2 a2
  head Wp1 bp1 Wp2 bp2 eps (fun g k => Ideal.div (cat3 (poolRows bat a1) (poolRows bat a2) (poolRows bat a3) g k) (cnt bat one g))

/-- The reference's result: layers in the reference's arrangement, concatenated and then pooled, then the head. -/
def referenceResult : Mat 512 128 :=
  let a1 := x1 x src dst Win bin Wg1 bg1 Wg2 bg2
  let a2 := convR src dst one Wc1 bc1 a1
  let a3 := convR src dst one Wc2 bc2 a2
  head Wp1 bp1 Wp2 bp2 eps (fun g k => Ideal.div (poolRows bat (cat3 a1 a2 a3) g k) (cnt bat one g))

end Whole

end Cert.Spec

end
-- ==== Proof.KI.Args.lean ====
/-
  The argument arrays of the idealized kernel program, read off the launch memory of one core as plain tables over the
  extended reals (float arguments) or index words (the edge list's two rows and the graph-membership vector).
-/
import proofs.«146766_j74998718923374_2_alg».proof.Proof.KI.Fold
import proofs.«146766_j74998718923374_2_alg».proof.Proof.Spec
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The node features. -/
def aX : Cert.Spec.Mat 50000 128 := fun i k => m ((c.tc : Thread nD τ).loc main_arg0) (ix2 i k)
/-- The edges' source words and destination words (rows 0 and 1 of the edge list). -/
def aSrc : Fin 600000 → BitVec 32 := fun e => m ((c.tc : Thread nD τ).loc main_arg1) (ix2 0 e)
def aDst : Fin 600000 → BitVec 32 := fun e => m ((c.tc : Thread nD τ).loc main_arg1) (ix2 1 e)
/-- The graph each node belongs to. -/
def aBat : Fin 50000 → BitVec 32 := fun n => m ((c.tc : Thread nD τ).loc main_arg2) (ix1 n)
def aWin : Cert.Spec.Mat 128 128 := fun k o => m ((c.tc : Thread nD τ).loc main_arg3) (ix2 k o)
def abin : Cert.Spec.Vect 128 := fun o => m ((c.tc : Thread nD τ).loc main_arg4) (ix1 o)
def aWg1 : Cert.Spec.Mat 128 128 := fun k o => m ((c.tc : Thread nD τ).loc main_arg5) (ix2 k o)
def abg1 : Cert.Spec.Vect 128 := fun o => m ((c.tc : Thread nD τ).loc main_arg6) (ix1 o)
def aWg2 : Cert.Spec.Mat 128 128 := fun k o => m ((c.tc : Thread nD τ).loc main_arg7) (ix2 k o)
def abg2 : Cert.Spec.Vect 128 := fun o => m ((c.tc : Thread nD τ).loc main_arg8) (ix1 o)
def aWc1 : Cert.Spec.Mat 128 128 := fun k o => m ((c.tc : Thread nD τ).loc main_arg9) (ix2 k o)
def abc1 : Cert.Spec.Vect 128 := fun o => m ((c.tc : Thread nD τ).loc main_arg10) (ix1 o)
def aWc2 : Cert.Spec.Mat 128 128 := fun k o => m ((c.tc : Thread nD τ).loc main_arg11) (ix2 k o)
def abc2 : Cert.Spec.Vect 128 := fun o => m ((c.tc : Thread nD τ).loc main_arg12) (ix1 o)
def aWp1 : Cert.Spec.Mat 384 128 := fun k o => m ((c.tc : Thread nD τ).loc main_arg13) (ix2 k o)
def abp1 : Cert.Spec.Vect 128 := fun o => m ((c.tc : Thread nD τ).loc main_arg14) (ix1 o)
def aWp2 : Cert.Spec.Mat 128 128 := fun k o => m ((c.tc : Thread nD τ).loc main_arg15) (ix2 k o)
def abp2 : Cert.Spec.Vect 128 := fun o => m ((c.tc : Thread nD τ).loc main_arg16) (ix1 o)

/-- The two float literals the programs share, as the words they are printed with (1.0 and the norm's floor ε). -/
abbrev oneW : EReal := Ideal.ofBits .f32 0x3F800000#32
abbrev epsW : EReal := Ideal.ofBits .f32 0x2B8CBCCC#32

/-- The three layers' node features in the kernel's arrangement, of this core's arguments. -/
def kX1 : Cert.Spec.Mat 50000 128 :=
  Cert.Spec.x1 (aX m c) (aSrc m c) (aDst m c) (aWin m c) (abin m c) (aWg1 m c) (abg1 m c) (aWg2 m c) (abg2 m c)
def kX2 : Cert.Spec.Mat 50000 128 := Cert.Spec.convK (aSrc m c) (aDst m c) oneW (aWc1 m c) (abc1 m c) (kX1 m c)
def kX3 : Cert.Spec.Mat 50000 128 := Cert.Spec.convK (aSrc m c) (aDst m c) oneW (aWc2 m c) (abc2 m c) (kX2 m c)

end Cert.KernelIdeal.Hand

end
-- ==== Proof.LibBroadcastIn.lean ====
/-
  A `broadcast_in_dim` of a small shape, read at an index.

  The five forms a gather/scatter program and a row-wise normalisation meet: a scalar spread over any shape reads
  the scalar everywhere; a vector made into a one-column matrix reads the vector at the row; a one-column matrix
  spread over the columns reads its column at the row; a vector made into a one-row matrix reads the vector at the
  column; and a one-row matrix spread over the rows reads its row at the column. All are general in the extents.
-/
import Idealize.ShloMosaic.Lib.Pipeline.Value
import Idealize.ShloMosaic.Lib.ValueIdx

noncomputable section

namespace Cert.LibBroadcastIn

open Idealize.ShloMosaic Idealize.ShloMosaic.ValueIdx

variable {α : Type}

/-- A scalar spread over any shape reads, everywhere, the scalar. -/
theorem scalar_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun a => a.elim0)

/-- `[a] → [a, 1]` along axis 0: entry (e, u) is the vector's entry e. -/
theorem col_apply {a : ℕ} (h : (⟨1, ![a]⟩ : Shape).BroadcastsInDim ⟨2, ![a, 1]⟩ (![0] : Fin 1 → Fin 2))
    (y : (⟨1, ![a]⟩ : Shape).Idx → α) (e : Fin a) (u : Fin 1) :
    broadcastInDim ⟨2, ![a, 1]⟩ ![0] h y (ix2 e u) = y (ix1 e) := by
  refine broadcastInDim_apply _ h y (ix2 e u) (ix1 e) fun ax => ?_
  match ax with
  | ⟨0, _⟩ =>
    show e.val = if a = 1 then 0 else e.val
    split
    · have := e.isLt; omega
    · rfl

/-- `[a, 1] → [a, b]`: entry (e, c) is the column's entry (e, 0). -/
theorem rows_apply {a b : ℕ} (h : (⟨2, ![a, 1]⟩ : Shape).BroadcastsInDim ⟨2, ![a, b]⟩ (![0, 1] : Fin 2 → Fin 2))
    (y : (⟨2, ![a, 1]⟩ : Shape).Idx → α) (e : Fin a) (c : Fin b) :
    broadcastInDim ⟨2, ![a, b]⟩ ![0, 1] h y (ix2 e c) = y (ix2 e (0 : Fin 1)) := by
  refine broadcastInDim_apply _ h y (ix2 e c) (ix2 e (0 : Fin 1)) fun ax => ?_
  match ax with
  | ⟨0, _⟩ =>
    show e.val = if a = 1 then 0 else e.val
    split
    · have := e.isLt; omega
    · rfl
  | ⟨1, _⟩ =>
    show (0 : ℕ) = if (1 : ℕ) = 1 then 0 else c.val
    rw [if_pos rfl]

/-- `[b] → [1, b]` along axis 1: entry (u, c) is the vector's entry c. -/
theorem row1_apply {b : ℕ} (h : (⟨1, ![b]⟩ : Shape).BroadcastsInDim ⟨2, ![1, b]⟩ (![1] : Fin 1 → Fin 2))
    (y : (⟨1, ![b]⟩ : Shape).Idx → α) (u : Fin 1) (c : Fin b) :
    broadcastInDim ⟨2, ![1, b]⟩ ![1] h y (ix2 u c) = y (ix1 c) := by
  refine broadcastInDim_apply _ h y (ix2 u c) (ix1 c) fun ax => ?_
  match ax with
  | ⟨0, _⟩ =>
    show c.val = if b = 1 then 0 else c.val
    split
    · have := c.isLt; omega
    · rfl

/-- `[1, b] → [a, b]`: entry (r, c) is the row's entry (0, c). -/
theorem tile_apply {a b : ℕ} (h : (⟨2, ![1, b]⟩ : Shape).BroadcastsInDim ⟨2, ![a, b]⟩ (![0, 1] : Fin 2 → Fin 2))
    (y : (⟨2, ![1, b]⟩ : Shape).Idx → α) (r : Fin a) (c : Fin b) :
    broadcastInDim ⟨2, ![a, b]⟩ ![0, 1] h y (ix2 r c) = y (ix2 (0 : Fin 1) c) := by
  refine broadcastInDim_apply _ h y (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end Cert.LibBroadcastIn

end
-- ==== Proof.LibIndexRows.lean ====
/-
  Rows taken and rows added at a column of row indices.

  A table with N rows is read at R places named by an R×1 column of signed integers: either whole
  rows of an N×D matrix, or single entries of a length-N vector. Both reads clamp the signed index
  into the range 0 … N−1 in the same way, so a row read and an entry read at the same column name
  the same row. In the other direction, R rows of an R×D array are added into an N×D array at the
  rows a column names: an update row lands, if at all, exactly on the row whose number is its index
  read as a signed integer, and keeps its column. Two small facts about 32-bit words close the file:
  adding N to the negative indices leaves a non-negative index as it is, and the clamp does nothing
  to an index already below N.
-/
import Idealize.ShloMosaic.Lib.ValueIdx

noncomputable section

namespace Cert.LibIndexRows

open Idealize.ShloMosaic Idealize.ShloMosaic.ValueIdx

variable {α : Type}

/-! ## Whole rows of a matrix, taken at a column of row indices -/

/-- The dimension numbers of "take row idx[e, 0] of an N×D matrix, for each e below R": the row axis is
    collapsed and is the one the index addresses, the column axis is carried over whole. -/
abbrev rowGatherDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Entry (e, j) of the rows taken is entry (r, j) of the matrix, where r is the signed value of idx[e, 0]
    brought into 0 … N−1: negative values go to 0, values of N or more to N−1. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (j : Fin D) :
    Host.gather (rowGatherDims N D R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D R wf).start (ix2 e j) idx 0 + (rowGatherDims N D R wf).batchCoord (ix2 e j) 0
      + (rowGatherDims N D R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D R wf).startIndexMap from List.mem_singleton.mpr rfl)]
    have hsi : (rowGatherDims N D R wf).siIdx (ix2 e j) ⟨List.idxOf (0 : Fin 2) (rowGatherDims N D R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D R wf).start (ix2 e j) idx 1 + (rowGatherDims N D R wf).batchCoord (ix2 e j) 1
      + (rowGatherDims N D R wf).offCoord (ix2 e j) 1 = j.val
    have h1 : (1 : Fin 2) ∉ (rowGatherDims N D R wf).startIndexMap :=
      fun h => absurd (List.mem_singleton.mp h) (show ¬ (1 : Fin 2) = 0 by decide)
    have hk : (1 : Fin 2) ∈ (rowGatherDims N D R wf).sKept :=
      (GatherDims.mem_sKept _ _).mpr ⟨fun h => absurd (List.mem_singleton.mp h) (show ¬ (1 : Fin 2) = 0 by decide), List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-! ## Single entries of a vector, taken at a column of indices -/

/-- The dimension numbers of "take entry idx[e, 0] of a length-N vector, for each e below R": the vector's one
    axis is collapsed and is the one the index addresses; nothing is carried over. -/
abbrev entryGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry e of the entries taken is entry r of the vector, where r is the signed value of idx[e, 0] brought
    into 0 … N−1 — the same r as for a row of a matrix with N rows read at the same column. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (entryGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (entryGatherDims N R wf).start (ix1 e) idx 0 + (entryGatherDims N R wf).batchCoord (ix1 e) 0
    + (entryGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGatherDims N R wf).startIndexMap from List.mem_singleton.mpr rfl)]
  have hsi : (entryGatherDims N R wf).siIdx (ix1 e) ⟨List.idxOf (0 : Fin 1) (entryGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Whole rows added into a matrix at a column of row indices -/

/-- The dimension numbers of "add row e of an R×D array into row idx[e, 0] of an N×D matrix": the update's
    column axis is its window and goes to the matrix's column axis, the matrix's row axis is the one the index
    addresses. -/
abbrev rowScatterDims (N D R : Nat)
    (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update entry (e, j') starts at the signed value of idx[e, 0] … -/
theorem rowScatter_start_row {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) :
    (rowScatterDims N D R wf).start (ix2 e j') idx 0 = (idx (ix2 e 0)).toInt := by
  unfold ScatterDims.start
  rw [dif_pos (show (0 : Fin 2) ∈ (rowScatterDims N D R wf).scatterDimsToOperandDims from List.mem_singleton.mpr rfl)]
  have hsi : (rowScatterDims N D R wf).siIdx (ix2 e j') ⟨List.idxOf (0 : Fin 2) (rowScatterDims N D R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and has no extent there (the row axis is not a window axis); … -/
theorem rowScatter_window_row {N D R : Nat} (wf : ScatterDims.WF ⟨2, ![N, D]⟩ ⟨2, ![R, 1]⟩ ⟨2, ![R, D]⟩ [1] [0] [0] 1)
    (e : Fin R) (j' : Fin D) : (rowScatterDims N D R wf).window (ix2 e j') 0 = 0 := by
  unfold ScatterDims.window
  rw [dif_neg]
  intro h
  have h' : (0 : Fin 2) ∉ [(0 : Fin 2)] := (List.mem_filter.mp h).2 |> fun h => by simpa using h
  exact h' (List.mem_singleton.mpr rfl)

/-- … on the column axis it starts at 0 (no index addresses that axis) … -/
theorem rowScatter_start_col {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) :
    (rowScatterDims N D R wf).start (ix2 e j') idx 1 = 0 := by
  unfold ScatterDims.start
  rw [dif_neg]
  exact fun h => absurd (List.mem_singleton.mp h) (show ¬ (1 : Fin 2) = 0 by decide)

/-- … and the window coordinate there is the update's own column j'. -/
theorem rowScatter_window_col {N D R : Nat} (wf : ScatterDims.WF ⟨2, ![N, D]⟩ ⟨2, ![R, 1]⟩ ⟨2, ![R, D]⟩ [1] [0] [0] 1)
    (e : Fin R) (j' : Fin D) : (rowScatterDims N D R wf).window (ix2 e j') 1 = j'.val := by
  unfold ScatterDims.window
  have hk : (1 : Fin 2) ∈ (rowScatterDims N D R wf).sKept := by
    refine List.mem_filter.mpr ⟨List.mem_finRange _, ?_⟩
    simpa using (show ¬ (1 : Fin 2) = 0 by decide)
  rw [dif_pos hk]
  rfl

/-- WHERE AN UPDATE ROW LANDS. If entry (e, j') of the updates lands on entry i of the matrix, then the row of i
    is the signed value of idx[e, 0] (which therefore lies in 0 … N−1) and the column of i is j'. -/
theorem rowScatter_resultIdx {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) (i : (⟨2, ![N, D]⟩ : Shape).Idx)
    (h : (rowScatterDims N D R wf).resultIdx? (ix2 e j') idx = some i) :
    (idx (ix2 e 0)).toInt = ((i 0).val : ℤ) ∧ (i 1).val = j'.val := by
  unfold ScatterDims.resultIdx? at h
  split at h
  · rename_i hin
    obtain rfl := Option.some.inj h
    have h0 := (hin 0).1
    rw [rowScatter_start_row, rowScatter_window_row] at h0
    refine ⟨?_, ?_⟩
    · show _ = (((rowScatterDims N D R wf).start (ix2 e j') idx 0 + ((rowScatterDims N D R wf).window (ix2 e j') 0 : ℕ) : ℤ).toNat : ℤ)
      rw [rowScatter_start_row, rowScatter_window_row]
      omega
    · show ((rowScatterDims N D R wf).start (ix2 e j') idx 1 + ((rowScatterDims N D R wf).window (ix2 e j') 1 : ℕ) : ℤ).toNat = j'.val
      rw [rowScatter_start_col, rowScatter_window_col]
      omega
  · exact absurd h (by simp)

/-- The row half alone: an update row lands only on the row its index names, read as a signed integer. -/
theorem rowScatter_resultIdx_row {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) (i : (⟨2, ![N, D]⟩ : Shape).Idx) :
    (rowScatterDims N D R wf).resultIdx? (ix2 e j') idx = some i → (idx (ix2 e 0)).toInt = ((i 0).val : ℤ) :=
  fun h => (rowScatter_resultIdx wf idx e j' i h).1

/-- The converse: when the signed value of idx[e, 0] is the number of a row r of the matrix, entry (e, j') of the
    updates does land, on entry (r, j'). -/
theorem rowScatter_resultIdx_of_row {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) (r : Fin N) (hr : (idx (ix2 e 0)).toInt = (r.val : ℤ)) :
    (rowScatterDims N D R wf).resultIdx? (ix2 e j') idx = some (ix2 r j') := by
  have hin : ∀ a, 0 ≤ (rowScatterDims N D R wf).start (ix2 e j') idx a + ((rowScatterDims N D R wf).window (ix2 e j') a : ℕ)
      ∧ (rowScatterDims N D R wf).start (ix2 e j') idx a + ((rowScatterDims N D R wf).window (ix2 e j') a : ℕ)
        < (((⟨2, ![N, D]⟩ : Shape).size a : ℕ) : ℤ) := by
    intro a
    match a with
    | ⟨0, _⟩ =>
      show 0 ≤ (rowScatterDims N D R wf).start (ix2 e j') idx 0 + ((rowScatterDims N D R wf).window (ix2 e j') 0 : ℕ)
        ∧ (rowScatterDims N D R wf).start (ix2 e j') idx 0 + ((rowScatterDims N D R wf).window (ix2 e j') 0 : ℕ) < ((N : ℕ) : ℤ)
      rw [rowScatter_start_row, rowScatter_window_row, hr]
      have := r.isLt
      omega
    | ⟨1, _⟩ =>
      show 0 ≤ (rowScatterDims N D R wf).start (ix2 e j') idx 1 + ((rowScatterDims N D R wf).window (ix2 e j') 1 : ℕ)
        ∧ (rowScatterDims N D R wf).start (ix2 e j') idx 1 + ((rowScatterDims N D R wf).window (ix2 e j') 1 : ℕ) < ((D : ℕ) : ℤ)
      rw [rowScatter_start_col, rowScatter_window_col]
      have := j'.isLt
      omega
  unfold ScatterDims.resultIdx?
  rw [dif_pos hin]
  congr 1
  funext a
  refine Fin.ext ?_
  match a with
  | ⟨0, _⟩ =>
    show ((rowScatterDims N D R wf).start (ix2 e j') idx 0 + ((rowScatterDims N D R wf).window (ix2 e j') 0 : ℕ) : ℤ).toNat = r.val
    rw [rowScatter_start_row, rowScatter_window_row, hr]
    omega
  | ⟨1, _⟩ =>
    show ((rowScatterDims N D R wf).start (ix2 e j') idx 1 + ((rowScatterDims N D R wf).window (ix2 e j') 1 : ℕ) : ℤ).toNat = j'.val
    rw [rowScatter_start_col, rowScatter_window_col]
    omega

/-! ## Single entries added into a vector at a column of indices -/

/-- The dimension numbers of "add entry e of a length-R array into entry idx[e, 0] of a length-N vector": no window,
    the vector's one axis is the one the index addresses. -/
abbrev entryScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- If entry e of the updates lands on entry i of the vector, then i is the signed value of idx[e, 0] (which
    therefore lies in 0 … N−1). -/
theorem entryScatter_resultIdx {N R w : Nat} (wf : ScatterDims.WF ⟨1, ![N]⟩ ⟨2, ![R, 1]⟩ ⟨1, ![R]⟩ [] [0] [0] 1)
    (idx : IVec ⟨2, ![R, 1]⟩ w) (e : Fin R) (i : (⟨1, ![N]⟩ : Shape).Idx)
    (h : (entryScatterDims N R wf).resultIdx? (ix1 e) idx = some i) :
    (idx (ix2 e 0)).toInt = ((i 0).val : ℤ) := by
  have hstart : (entryScatterDims N R wf).start (ix1 e) idx 0 = (idx (ix2 e 0)).toInt := by
    unfold ScatterDims.start
    rw [dif_pos (show (0 : Fin 1) ∈ (entryScatterDims N R wf).scatterDimsToOperandDims from List.mem_singleton.mpr rfl)]
    have hsi : (entryScatterDims N R wf).siIdx (ix1 e) ⟨List.idxOf (0 : Fin 1) (entryScatterDims N R wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (entryScatterDims N R wf).window (ix1 e) 0 = 0 := by
    unfold ScatterDims.window
    rw [dif_neg]
    intro hk
    have h' : (0 : Fin 1) ∉ [(0 : Fin 1)] := (List.mem_filter.mp hk).2 |> fun h => by simpa using h
    exact h' (List.mem_singleton.mpr rfl)
  unfold ScatterDims.resultIdx? at h
  split at h
  · rename_i hin
    obtain rfl := Option.some.inj h
    have h0 := (hin 0).1
    rw [hstart, hwin] at h0
    show _ = (((entryScatterDims N R wf).start (ix1 e) idx 0 + ((entryScatterDims N R wf).window (ix1 e) 0 : ℕ) : ℤ).toNat : ℤ)
    rw [hstart, hwin]
    omega
  · exact absurd h (by simp)

/-! ## Two facts about 32-bit indices -/

/-- Negative indices are wrapped by adding n to them; an index that is not negative is left as it is: the
    comparison "v < 0" (signed) is false, so the select keeps v. -/
theorem wrap_of_nonneg (v n : BitVec 32) (h : 0 ≤ v.toInt) :
    Scalar.select (IntOp.cmpi .slt v 0#32) (IntOp.addi v n) v = v := by
  have hs : v.slt 0#32 = false := by
    simp only [BitVec.slt, BitVec.toInt_zero]
    exact decide_eq_false (by omega)
  show Scalar.select (BitVec.ofBool (v.slt 0#32)) (IntOp.addi v n) v = v
  rw [hs]
  exact select_zero _ _

/-- The same with the sum written as the words' sum. -/
theorem wrap_of_nonneg' (v n : BitVec 32) (h : 0 ≤ v.toInt) :
    Scalar.select (IntOp.cmpi .slt v 0#32) (v + n) v = v := wrap_of_nonneg v n h

/-- The wrap on whole arrays, read at one place: where the array of zeros Z is 0 and the index I is not negative,
    "select (I < Z) (I + N) I" is I. -/
theorem wrap_apply_of_nonneg {s : Shape} (I Z N : IVec s 32) (i : s.Idx) (hZ : Z i = 0#32) (h : 0 ≤ (I i).toInt) :
    select (cmpi .slt I Z) (addi I N) I i = I i := by
  show Scalar.select (IntOp.cmpi .slt (I i) (Z i)) (IntOp.addi (I i) (N i)) (I i) = I i
  rw [hZ]
  exact wrap_of_nonneg _ _ h

/-- An index whose signed value is a natural number r below N is its own clamp into 0 … N−1. -/
theorem clamp_of_toInt_eq {v : BitVec 32} {r N : Nat} (hv : v.toInt = (r : ℤ)) (hr : r < N) :
    min v.toInt.toNat (N - 1) = r := by
  rw [hv, Int.toNat_natCast]
  omega

end Cert.LibIndexRows

end
-- ==== Proof.LibScatterSum.lean ====
/-
  An accumulating scatter at a column of row indices, read at one entry.

  Rows (or single entries) of an update array are added into a table at the rows that an R×1 column of signed
  integers names. Read at one entry of the table, the result is that entry plus a plain sum over the R update
  rows, in which row e contributes exactly when its index, read as a signed integer, is the number of the entry's
  row; an update whose index is negative or too large contributes to no entry at all. This turns the filtered sum
  of the accumulating scatter into a sum over `Fin R` with an `if`, the form in which sums over edges can be split,
  exchanged with other sums and compared.
-/
import proofs.«146766_j74998718923374_2_alg».proof.Proof.LibIndexRows
import Idealize.ShloMosaic.PureOps.Ideal

noncomputable section

namespace Cert.LibScatterSum

open Idealize.ShloMosaic Idealize.ShloMosaic.ValueIdx Cert.LibIndexRows
open scoped BigOperators

/-- A sum over the rank-1 index set is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun j => j 0, ix1, fun j => (eq_ix1 j).symm, fun _ => rfl⟩ _ _ fun j => congrArg f (eq_ix1 j)

/-! ## Whole rows added into a matrix -/

/-- Entry (i, c) of the matrix after the update rows were added: the entry itself plus, over all update rows e,
    entry (e, c) of the updates whenever the signed value of idx[e, 0] is i. -/
theorem rowScatterAdd_apply {N D R w : Nat} (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w) (upd : (⟨2, ![R, D]⟩ : Shape).Idx → EReal)
    (i : Fin N) (c : Fin D) :
    Ideal.hostScatterAdd (rowScatterDims N D R wf) x idx upd (ix2 i c)
      = x (ix2 i c) + ∑ e : Fin R, if (idx (ix2 e 0)).toInt = (i.val : ℤ) then upd (ix2 e c) else 0 := by
  unfold Ideal.hostScatterAdd
  congr 1
  rw [Finset.sum_filter, sum_idx2]
  refine Finset.sum_congr rfl fun e _ => ?_
  by_cases h : (idx (ix2 e 0)).toInt = (i.val : ℤ)
  · rw [if_pos h]
    refine (Finset.sum_eq_single c (fun b _ hb => ?_) (fun hc => absurd (Finset.mem_univ c) hc)).trans ?_
    · refine if_neg fun hres => hb ?_
      have h2 := (rowScatter_resultIdx wf idx e b (ix2 i c) hres).2
      exact Fin.ext h2.symm
    · exact if_pos (rowScatter_resultIdx_of_row wf idx e c i h)
  · rw [if_neg h]
    refine Finset.sum_eq_zero fun b _ => ?_
    exact if_neg fun hres => h (rowScatter_resultIdx wf idx e b (ix2 i c) hres).1

/-! ## Single entries added into a vector -/

/-- The window of update entry e starts at the signed value of idx[e, 0] … -/
theorem entry_start {N R w : Nat} (wf : ScatterDims.WF ⟨1, ![N]⟩ ⟨2, ![R, 1]⟩ ⟨1, ![R]⟩ [] [0] [0] 1)
    (idx : IVec ⟨2, ![R, 1]⟩ w) (e : Fin R) :
    (entryScatterDims N R wf).start (ix1 e) idx 0 = (idx (ix2 e 0)).toInt := by
  unfold ScatterDims.start
  rw [dif_pos (show (0 : Fin 1) ∈ (entryScatterDims N R wf).scatterDimsToOperandDims from List.mem_singleton.mpr rfl)]
  have hsi : (entryScatterDims N R wf).siIdx (ix1 e) ⟨List.idxOf (0 : Fin 1) (entryScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and has no extent: the vector's one axis is not a window axis. -/
theorem entry_window {N R : Nat} (wf : ScatterDims.WF ⟨1, ![N]⟩ ⟨2, ![R, 1]⟩ ⟨1, ![R]⟩ [] [0] [0] 1) (e : Fin R) :
    (entryScatterDims N R wf).window (ix1 e) 0 = 0 := by
  unfold ScatterDims.window
  rw [dif_neg]
  intro hk
  have h' : (0 : Fin 1) ∉ [(0 : Fin 1)] := (List.mem_filter.mp hk).2 |> fun h => by simpa using h
  exact h' (List.mem_singleton.mpr rfl)

/-- When the signed value of idx[e, 0] is the number of an entry r of the vector, update entry e does land, on r. -/
theorem entryScatter_resultIdx_of {N R w : Nat} (wf : ScatterDims.WF ⟨1, ![N]⟩ ⟨2, ![R, 1]⟩ ⟨1, ![R]⟩ [] [0] [0] 1)
    (idx : IVec ⟨2, ![R, 1]⟩ w) (e : Fin R) (r : Fin N) (hr : (idx (ix2 e 0)).toInt = (r.val : ℤ)) :
    (entryScatterDims N R wf).resultIdx? (ix1 e) idx = some (ix1 r) := by
  have hin : ∀ a, 0 ≤ (entryScatterDims N R wf).start (ix1 e) idx a + ((entryScatterDims N R wf).window (ix1 e) a : ℕ)
      ∧ (entryScatterDims N R wf).start (ix1 e) idx a + ((entryScatterDims N R wf).window (ix1 e) a : ℕ)
        < (((⟨1, ![N]⟩ : Shape).size a : ℕ) : ℤ) := by
    intro a
    match a with
    | ⟨0, _⟩ =>
      show 0 ≤ (entryScatterDims N R wf).start (ix1 e) idx 0 + ((entryScatterDims N R wf).window (ix1 e) 0 : ℕ)
        ∧ (entryScatterDims N R wf).start (ix1 e) idx 0 + ((entryScatterDims N R wf).window (ix1 e) 0 : ℕ) < ((N : ℕ) : ℤ)
      rw [entry_start, entry_window, hr]
      have := r.isLt
      omega
  unfold ScatterDims.resultIdx?
  rw [dif_pos hin]
  congr 1
  funext a
  refine Fin.ext ?_
  match a with
  | ⟨0, _⟩ =>
    show ((entryScatterDims N R wf).start (ix1 e) idx 0 + ((entryScatterDims N R wf).window (ix1 e) 0 : ℕ) : ℤ).toNat = r.val
    rw [entry_start, entry_window, hr]
    omega

/-- Entry i of the vector after the update entries were added: the entry itself plus, over all update entries e,
    update e whenever the signed value of idx[e, 0] is i. -/
theorem entryScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (i : Fin N) :
    Ideal.hostScatterAdd (entryScatterDims N R wf) x idx upd (ix1 i)
      = x (ix1 i) + ∑ e : Fin R, if (idx (ix2 e 0)).toInt = (i.val : ℤ) then upd (ix1 e) else 0 := by
  unfold Ideal.hostScatterAdd
  congr 1
  rw [Finset.sum_filter, sum_idx1]
  refine Finset.sum_congr rfl fun e _ => ?_
  by_cases h : (idx (ix2 e 0)).toInt = (i.val : ℤ)
  · rw [if_pos h, if_pos (entryScatter_resultIdx_of wf idx e i h)]
  · rw [if_neg h]
    exact if_neg fun hres => h (entryScatter_resultIdx wf idx e (ix1 i) hres)

end Cert.LibScatterSum

end
-- ==== Proof.KI.ChainLib.lean ====
/-
  Host operations of the graph network, read at one entry.

  Between two kernel regions the program prepares the next region's operands with array operations: the edge list's two
  rows cut out and flattened, bias vectors made into one-row tables, and — once per layer — the neighbour aggregation:
  a node table's rows gathered at the edges' source words (a negative word first moved up by the node count) and added
  into a table of zeros at the edges' destination words.  The inverse square-root degree column is built the same way
  from ones.  Each lemma here reads one such array term at an entry with explicit coordinates and states it as the
  specification's closed form (a sum over the edges into the entry's node).
-/
import proofs.«146766_j74998718923374_2_alg».proof.Proof.KI.Keep
import proofs.«146766_j74998718923374_2_alg».proof.Proof.Spec
import proofs.«146766_j74998718923374_2_alg».proof.Proof.LibBroadcastIn
import proofs.«146766_j74998718923374_2_alg».proof.Proof.LibIndexRows
import proofs.«146766_j74998718923374_2_alg».proof.Proof.LibScatterSum
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

/-! ## Layout operations of the host stretches, read at an index -/

/-- Row `r` of a two-row table, cut out and flattened: entry `e` is the table's entry `(r, e)`. -/
theorem flatRow_apply {α : Type} (x : S2x600000.Idx → α) (r : Fin 2) (hs : S2x600000.Slices ![r.val, 0] S1x600000)
    (hc : S1x600000.ShapeCasts S600000) (e : Fin 600000) :
    shapeCast S600000 (extractStridedSlice S1x600000 ![r.val, 0] x hs) hc (ix1 e) = x (ix2 r e) := by
  refine (shapeCast_apply _ hc (ix1 e) (ix2 (0 : Fin 1) e) ?_).trans ?_
  · rw [Shape.rowMajor_val_two, Shape.rowMajor_val_one]
    show (0 : ℕ) * 600000 + e.val = e.val
    omega
  · refine extractStridedSlice_apply _ x hs (ix2 (0 : Fin 1) e) (ix2 r e) fun a => ?_
    match a with
    | ⟨0, _⟩ => show r.val = r.val + 0; omega
    | ⟨1, _⟩ => show e.val = 0 + e.val; omega

/-- A vector made into a one-row table: entry `(0, o)` is the vector's entry `o`. -/
theorem asRow_apply {α : Type} (x : S128.Idx → α) (hc : S128.ShapeCasts S1x128) (o : Fin 128) :
    shapeCast S1x128 x hc (ix2 (0 : Fin 1) o) = x (ix1 o) := by
  refine shapeCast_apply _ hc (ix2 (0 : Fin 1) o) (ix1 o) ?_
  rw [Shape.rowMajor_val_two, Shape.rowMajor_val_one]
  show o.val = (0 : ℕ) * 128 + o.val
  omega

/-- A vector made into a one-column table: entry `(i, 0)` is the vector's entry `i`. -/
theorem asCol_apply {α : Type} (x : S50000.Idx → α) (hc : S50000.ShapeCasts S50000x1) (i : Fin 50000) :
    shapeCast S50000x1 x hc (ix2 i (0 : Fin 1)) = x (ix1 i) := by
  refine shapeCast_apply _ hc (ix2 i (0 : Fin 1)) (ix1 i) ?_
  rw [Shape.rowMajor_val_two, Shape.rowMajor_val_one]
  show i.val = i.val * 1 + (0 : ℕ)
  omega

/-! ## The edge aggregation, read at an entry

Every layer gathers a node table's rows at the edges' wrapped source words and adds them into a table of zeros at the
edges' destination words.  Read at an entry, that is the sum over the edges into the entry's node of the source node's
entry. -/

/-- Rows added into a node table at a column of words: the entry plus the update rows whose word is the entry's node. -/
theorem addRows_apply (x : S50000x128.Idx → EReal) (idx : S600000x1.Idx → BitVec 32) (upd : S600000x128.Idx → EReal)
    (i : Fin 50000) (k : Fin 128) :
    Host.scatterAdd (F := Ideal) (φ := .f32) scatter_S50000x128_S600000x1_S600000x128_1_0_0_1 x idx upd (ix2 i k)
      = x (ix2 i k) + ∑ e : Fin 600000, if (idx (ix2 e 0)).toInt = (i.val : ℤ) then upd (ix2 e k) else 0 :=
  Cert.LibScatterSum.rowScatterAdd_apply scatter_S50000x128_S600000x1_S600000x128_1_0_0_1_wf x idx upd i k

/-- Rows of a node table taken at a column of words: the row the word addresses. -/
theorem takeRows_apply (x : S50000x128.Idx → EReal) (idx : S600000x1.Idx → BitVec 32) (e : Fin 600000) (k : Fin 128) :
    Host.gather gather_S50000x128_S600000x1_S600000x128_1_0_n_n_0_1_1128 x idx (ix2 e k) = x (ix2 (Cert.Spec.rowOf (idx (ix2 e 0))) k) :=
  Cert.LibIndexRows.gather_rows_apply (by omega) gather_S50000x128_S600000x1_S600000x128_1_0_n_n_0_1_1128_wf x idx e k

/-- The wrapped words as a column: entry `(e, 0)` is the wrap of word `e`. -/
theorem wrapCol_apply (w : S600000.Idx → BitVec 32) (e : Fin 600000) :
    broadcastInDim S600000x1 ![0] bcast_S600000_S600000x1_0
        (select (cmpi .slt w (broadcastInDim S600000 ![] bcast_S_S600000 (constantI S_ 32 0#32)))
          (addi w (broadcastInDim S600000 ![] bcast_S_S600000 (constantI S_ 32 50000#32))) w) (ix2 e 0)
      = Cert.Spec.wrapIx (w (ix1 e)) := by
  rw [Cert.LibBroadcastIn.col_apply]
  rfl

/-- The words as a column: entry `(e, 0)` is word `e`. -/
theorem col_apply' (w : S600000.Idx → BitVec 32) (e : Fin 600000) :
    broadcastInDim S600000x1 ![0] bcast_S600000_S600000x1_0 w (ix2 e 0) = w (ix1 e) :=
  Cert.LibBroadcastIn.col_apply _ w e 0

/-- The table of zeros reads zero. -/
theorem zeros_apply (j : S50000x128.Idx) :
    broadcastInDim S50000x128 ![] bcast_S_S50000x128 (constant (F := Ideal) S_ .f32 0x00000000#32) j = 0 := by
  rw [Cert.LibBroadcastIn.scalar_apply, constant_apply, Ideal.ofBits_zero_f32]

/-- The host term of the edge aggregation: rows of `X` taken at the wrapped words of `srcw`, added into zeros at `dstw`. -/
def aggTerm (X : S50000x128.Idx → EReal) (srcw dstw : S600000.Idx → BitVec 32) : S50000x128.Idx → EReal :=
  Host.scatterAdd (F := Ideal) (φ := .f32) scatter_S50000x128_S600000x1_S600000x128_1_0_0_1
    (broadcastInDim S50000x128 ![] bcast_S_S50000x128 (constant (F := Ideal) S_ .f32 0x00000000#32))
    (broadcastInDim S600000x1 ![0] bcast_S600000_S600000x1_0 dstw)
    (Host.gather gather_S50000x128_S600000x1_S600000x128_1_0_n_n_0_1_1128 X
      (broadcastInDim S600000x1 ![0] bcast_S600000_S600000x1_0
        (select (cmpi .slt srcw (broadcastInDim S600000 ![] bcast_S_S600000 (constantI S_ 32 0#32)))
          (addi srcw (broadcastInDim S600000 ![] bcast_S_S600000 (constantI S_ 32 50000#32))) srcw)))

/-- The aggregation at an entry: the sum, over the edges into the entry's node, of the source node's entry. -/
theorem aggTerm_apply (X : S50000x128.Idx → EReal) (srcw dstw : S600000.Idx → BitVec 32) (i : Fin 50000) (k : Fin 128) :
    aggTerm X srcw dstw (ix2 i k)
      = Cert.Spec.segRows (fun e => dstw (ix1 e)) (fun e j => X (ix2 (Cert.Spec.srcRow (fun e => srcw (ix1 e)) e) j)) i k := by
  unfold aggTerm
  rw [addRows_apply, zeros_apply, zero_add]
  unfold Cert.Spec.segRows Cert.Spec.srcRow
  refine Finset.sum_congr rfl fun e _ => ?_
  rw [col_apply', takeRows_apply, wrapCol_apply]

/-! ## The degree column, read at an entry -/

/-- Entries added into a node vector at a column of words: the entry plus the updates whose word is the entry's node. -/
theorem addEntries_apply (x : S50000.Idx → EReal) (idx : S600000x1.Idx → BitVec 32) (upd : S600000.Idx → EReal) (i : Fin 50000) :
    Host.scatterAdd (F := Ideal) (φ := .f32) scatter_S50000_S600000x1_S600000_n_0_0_1 x idx upd (ix1 i)
      = x (ix1 i) + ∑ e : Fin 600000, if (idx (ix2 e 0)).toInt = (i.val : ℤ) then upd (ix1 e) else 0 :=
  Cert.LibScatterSum.entryScatterAdd_apply scatter_S50000_S600000x1_S600000_n_0_0_1_wf x idx upd i

/-- A sum of two node vectors at an entry, over the extended reals. -/
theorem addVec_apply (a b : S50000.Idx → EReal) (j : S50000.Idx) : addf (F := Ideal) (φ := .f32) a b j = (a j + b j : EReal) := rfl

/-- The host's inverse square root at an entry is the exact one of the entry. -/
theorem hostRsqrt_apply {s : Shape} (x : s.Idx → EReal) (j : s.Idx) :
    Host.rsqrt (F := Ideal) (φ := .f32) x j = Ideal.rsqrt (x j) := rfl

/-- One per edge, counted at the node the edge goes into. -/
theorem onesInto_sum (dstw : S600000.Idx → BitVec 32) (i : Fin 50000) :
    (∑ e : Fin 600000, if (broadcastInDim S600000x1 ![0] bcast_S600000_S600000x1_0 dstw (ix2 e 0)).toInt = (i.val : ℤ)
        then broadcastInDim S600000 ![] bcast_S_S600000 (constant (F := Ideal) S_ .f32 0x3F800000#32) (ix1 e) else (0 : EReal))
      = ∑ e : Fin 600000, if (dstw (ix1 e)).toInt = (i.val : ℤ) then Ideal.ofBits .f32 0x3F800000#32 else 0 :=
  Finset.sum_congr rfl fun e _ => by rw [col_apply', Cert.LibBroadcastIn.scalar_apply, constant_apply]

/-- The host term of the degree vector: ones added into zeros at the destination words, plus one. -/
def degTerm (dstw : S600000.Idx → BitVec 32) : S50000.Idx → EReal :=
  addf (F := Ideal) (φ := .f32)
    (Host.scatterAdd (F := Ideal) (φ := .f32) scatter_S50000_S600000x1_S600000_n_0_0_1
      (broadcastInDim S50000 ![] bcast_S_S50000 (constant (F := Ideal) S_ .f32 0x00000000#32))
      (broadcastInDim S600000x1 ![0] bcast_S600000_S600000x1_0 dstw)
      (broadcastInDim S600000 ![] bcast_S_S600000 (constant (F := Ideal) S_ .f32 0x3F800000#32)))
    (broadcastInDim S50000 ![] bcast_S_S50000 (constant (F := Ideal) S_ .f32 0x3F800000#32))

/-- The degree at a node: the number of edges into it, counted in ones, plus one. -/
theorem degTerm_apply (dstw : S600000.Idx → BitVec 32) (i : Fin 50000) :
    degTerm dstw (ix1 i) = Cert.Spec.deg (fun e => dstw (ix1 e)) (Ideal.ofBits .f32 0x3F800000#32) i := by
  unfold degTerm
  rw [addVec_apply, addEntries_apply, onesInto_sum, Cert.LibBroadcastIn.scalar_apply, Cert.LibBroadcastIn.scalar_apply,
    constant_apply, constant_apply, Ideal.ofBits_zero_f32, zero_add]
  unfold Cert.Spec.deg
  rfl

/-- The host term of the inverse square-root degree column. -/
def dinvTerm (dstw : S600000.Idx → BitVec 32) : S50000x1.Idx → EReal :=
  shapeCast S50000x1 (Host.rsqrt (F := Ideal) (φ := .f32) (degTerm dstw)) shapeCasts_S50000_S50000x1

/-- The inverse square-root degree of a node. -/
theorem dinvTerm_apply (dstw : S600000.Idx → BitVec 32) (i : Fin 50000) :
    dinvTerm dstw (ix2 i 0) = Cert.Spec.dinv (fun e => dstw (ix1 e)) (Ideal.ofBits .f32 0x3F800000#32) i := by
  unfold dinvTerm
  rw [asCol_apply, hostRsqrt_apply, degTerm_apply]
  rfl

/-! ## The same two reads, for operands known entry by entry -/

/-- The aggregation of a table that is `Y` entry by entry, at words that are `src`, `dst` entry by entry. -/
theorem aggTerm_eq (X : S50000x128.Idx → EReal) (srcw dstw : S600000.Idx → BitVec 32)
    (src dst : Fin 600000 → BitVec 32) (Y : Cert.Spec.Mat 50000 128)
    (hs : ∀ e, srcw (ix1 e) = src e) (hd : ∀ e, dstw (ix1 e) = dst e) (hX : ∀ r j, X (ix2 r j) = Y r j)
    (i : Fin 50000) (k : Fin 128) :
    aggTerm X srcw dstw (ix2 i k) = Cert.Spec.segRows dst (fun e j => Y (Cert.Spec.srcRow src e) j) i k := by
  rw [aggTerm_apply, show (fun e => srcw (ix1 e)) = src from funext hs, show (fun e => dstw (ix1 e)) = dst from funext hd]
  unfold Cert.Spec.segRows
  exact Finset.sum_congr rfl fun e _ => by
    show (if (dst e).toInt = (i.val : ℤ) then X (ix2 (Cert.Spec.srcRow src e) k) else 0) = if (dst e).toInt = (i.val : ℤ) then Y (Cert.Spec.srcRow src e) k else 0
    rw [hX]

/-- The inverse square-root degree column at destination words that are `dst` entry by entry. -/
theorem dinvTerm_eq (dstw : S600000.Idx → BitVec 32) (dst : Fin 600000 → BitVec 32) (hd : ∀ e, dstw (ix1 e) = dst e) (i : Fin 50000) :
    dinvTerm dstw (ix2 i 0) = Cert.Spec.dinv dst (Ideal.ofBits .f32 0x3F800000#32) i := by
  rw [dinvTerm_apply, show (fun e => dstw (ix1 e)) = dst from funext hd]

end Cert.KernelIdeal.Hand

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.KI.Value0.lean ====
/-
  Region 0: what the output array holds when the region ends, at the exact reals, as a whole-array function of the
  contents the region is entered from.

  The body's one store writes, at each entry of a 2000-row block, the block's row of x times the weights' column plus
  the bias row's entry.  Block `t` of the rows sits at rows 2000·t … 2000·t + 1999 of the array, the weights and the
  bias row are one block each, and the 25 blocks written back tile the 50000 rows; so the array ends at the dense layer
  of x, entry by entry.
-/
import proofs.«146766_j74998718923374_2_alg».proof.Proof.KI.RegDefs
import proofs.«146766_j74998718923374_2_alg».proof.Proof.Spec
import proofs.«146766_j74998718923374_2_alg».proof.Proof.LibPlainMatmul
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-! ## The body's payload at an entry -/

/-- The projection's payload at an entry: the block's row times the weights' column, plus the bias row's entry (the
    narrowing to bf16 is the identity at the exact reals; the product into the zero accumulator is the plain sum). -/
theorem pay0_apply (x0 : Vec Ideal S2000x128 .f32) (x1 : Vec Ideal S128x128 .f32) (x2 : Vec Ideal S1x128 .f32) (p : Fin 2000) (q : Fin 128) :
    (k0_pay1 x0 x1 x2 (ix2 p q) : EReal) = (∑ k : Fin 128, (x0 (ix2 p k) : EReal) * (x1 (ix2 k q) : EReal)) + (x2 (ix2 0 q) : EReal) := by
  unfold k0_pay1
  rw [addf_apply, broadcastTo_1b_ab_apply, shapeCast_self,
    Cert.LibPlainMatmul.matmul_zero_ix2 dot_S2000x128_S128x128_S2000x128_1_0_0_1_n_n none rfl rfl
      (fun _ _ => rfl) (fun _ _ => rfl) (fun _ _ => rfl) (fun _ _ => rfl)]
  rfl

/-- The payload at a block entry is the dense layer at an array entry, once the blocks' entries the payload reads are
    the arrays' entries at that entry's row and column. -/
theorem pay0_eq_dense (x0 : Vec Ideal S2000x128 .f32) (x1 : Vec Ideal S128x128 .f32) (x2 : Vec Ideal S1x128 .f32)
    (A0 : S50000x128.Idx → EReal) (A1 : S128x128.Idx → EReal) (A2 : S1x128.Idx → EReal)
    (p : Fin 2000) (q : Fin 128) (r : Fin 50000) (o : Fin 128)
    (h0 : ∀ k : Fin 128, (x0 (ix2 p k) : EReal) = A0 (ix2 r k))
    (h1 : ∀ k : Fin 128, (x1 (ix2 k q) : EReal) = A1 (ix2 k o))
    (h2 : (x2 (ix2 0 q) : EReal) = A2 (ix2 0 o)) :
    (k0_pay1 x0 x1 x2 (ix2 p q) : EReal)
      = Cert.Spec.dense (fun k o => A1 (ix2 k o)) (fun o => A2 (ix2 0 o)) (fun r k => A0 (ix2 r k)) r o := by
  rw [pay0_apply, h2]
  unfold Cert.Spec.dense Cert.Spec.mm
  exact congrArg (· + _) (Finset.sum_congr rfl fun k _ => by rw [h0 k, h1 k])

/-! ## From blocks to the array -/

/-- The projected array as one function of the region's entry contents: the dense layer of the rows of x. -/
def proj0 (c : Dev nD) : S50000x128.Idx → EReal := fun i =>
  Cert.Spec.dense (fun k o => (V c main_arg3 : S128x128.Idx → EReal) (ix2 k o)) (fun o => (V c main_v4 : S1x128.Idx → EReal) (ix2 0 o))
    (fun r k => (V c main_arg0 : S50000x128.Idx → EReal) (ix2 r k)) (i 0) (i 1)

/-- The printed index maps, decided over the grid: the row windows are at block `t` of the rows, the weights and the
    bias row at their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `proj0`. -/
theorem flushed0_eq (c : Dev nD) (t : Fin cfg0.N) :
    (dat0 V c).flushed 3 t = ((cfg0.win 3).blk t).view.read (Elt Ideal) (proj0 V c) := by
  show (cfg0.win 3).cut (grid0.coords t) ((dat0 V c).after 3 t) = _
  rw [after0_3]
  unfold out0_3
  rw [View.canon_unit_zero zeros2]
  simp only [View.ld_unit_zero (S := S2000x128) zeros2, View.ld_unit_zero (S := S128x128) zeros2, View.ld_unit_zero (S := S1x128) zeros2]
  obtain ⟨e0, e1, e2, e3, e4, e5, e6, e7⟩ := idx_facts0 t
  unfold proj0
  refine funext fun (y : S2000x128.Idx) => ?_
  obtain ⟨p, q, rfl⟩ : ∃ (p : Fin 2000) (q : Fin 128), y = ix2 p q := ⟨y 0, y 1, eq_ix2 (n0 := 2000) (n1 := 128) y⟩
  refine pay0_eq_dense _ _ _ (V c main_arg0) (V c main_arg3) (V c main_v4) p q
    (((cfg0.win 3).blk t).view.emb (ix2 p q) 0) (((cfg0.win 3).blk t).view.emb (ix2 p q) 1) (fun k => ?_) (fun k => ?_) ?_
  · show V c main_arg0 (((cfg0.win 0).blk t).view.emb (ix2 p k)) = V c main_arg0 _
    congr 1; funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  · show V c main_arg3 (((cfg0.win 1).blk t).view.emb (ix2 k q)) = V c main_arg3 _
    congr 1; funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c main_v4 (((cfg0.win 2).blk t).view.emb (ix2 0 q)) = V c main_v4 _
    congr 1; funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- Every row of the array is in some point's block: row `r` in point `r / 2000`'s. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The projected array when the region ends: the dense layer of x, entry by entry. -/
theorem final0 (c : Dev nD) (i : Fin 50000) (j : Fin 128) :
    (dat0 (F := Ideal) V c).arrAt 3 cfg0.N (ix2 i j)
      = Cert.Spec.dense (fun k o => V c main_arg3 (ix2 k o)) (fun o => V c main_v4 (ix2 0 o)) (fun r k => V c main_arg0 (ix2 r k)) i j :=
  congrFun ((dat0 V c).arrAt_eq_of_cover 3 (proj0 V c) (fun t _ => flushed0_eq V c t) (cover0)) (ix2 i j)

end Cert.KernelIdeal.Hand

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.Value1.lean ====
/-
  Region 1: what each output array holds when the region ends, at the exact reals, as a whole-array function of the
  contents the region is entered from.
-/
import proofs.«146766_j74998718923374_2_alg».proof.Proof.KI.RegDefs
import proofs.«146766_j74998718923374_2_alg».proof.Proof.Spec
import proofs.«146766_j74998718923374_2_alg».proof.Proof.LibPlainMatmul
import proofs.«146766_j74998718923374_2_alg».proof.Proof.LibColumn
import Idealize.ShloMosaic.Lib.Pipeline.Value
import Idealize.ShloMosaic.Lib.ValueLayout
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-- The region's operand arrays as tables: the projected features h, the aggregated neighbours, the inverse square-root
    degree column. -/
def tH (c : Dev nD) : Cert.Spec.Mat 50000 128 := fun r k => V c main_v5 (ix2 r k)
def tAgg (c : Dev nD) : Cert.Spec.Mat 50000 128 := fun r k => V c main_v15 (ix2 r k)
def tDinv (c : Dev nD) : Cert.Spec.Vect 50000 := fun r => V c main_v23 (ix2 r 0)

/-- The perceptron's rows, of the entry contents. -/
def x1Of (c : Dev nD) : Cert.Spec.Mat 50000 128 :=
  Cert.Spec.dense (fun k o => V c main_arg7 (ix2 k o)) (fun o => V c main_v25 (ix2 0 o))
    (Cert.Spec.relu (Cert.Spec.dense (fun k o => V c main_arg5 (ix2 k o)) (fun o => V c main_v24 (ix2 0 o))
      (fun r k => tH V c r k + tAgg V c r k)))

/-- The weights and bias rows as tables. -/
def tW1_r1 (c : Dev nD) : Cert.Spec.Mat 128 128 := fun k o => V c main_arg5 (ix2 k o)
def tB1_r1 (c : Dev nD) : Cert.Spec.Vect 128 := fun o => V c main_v24 (ix2 0 o)
def tW2_r1 (c : Dev nD) : Cert.Spec.Mat 128 128 := fun k o => V c main_arg7 (ix2 k o)
def tB2_r1 (c : Dev nD) : Cert.Spec.Vect 128 := fun o => V c main_v25 (ix2 0 o)
def tWc_r1 (c : Dev nD) : Cert.Spec.Mat 128 128 := fun k o => V c main_arg9 (ix2 k o)

/-! ## The body's arithmetic at an entry -/

/-- A 2000×128 block times a 128×128 matrix, accumulated into zero, at an entry: the sum over the inner index. -/
theorem matmul1_apply (X : FVec Ideal S2000x128 .bf16) (W : FVec Ideal S128x128 .bf16) (p : Fin 2000) (q : Fin 128) :
    matmul dot_S2000x128_S128x128_S2000x128_1_0_0_1_n_n none X W (constant (F := Ideal) S2000x128 .f32 0x00000000#32) (ix2 p q)
      = ∑ k : Fin 128, X (ix2 p k) * W (ix2 k q) :=
  Cert.LibPlainMatmul.matmul_zero_ix2 dot_S2000x128_S128x128_S2000x128_1_0_0_1_n_n none rfl rfl
    (fun i q => by
      unfold DotDims.lhsIdx
      rw [dif_neg (show ¬(0 : Fin S2000x128.rank) ∈ dot_S2000x128_S128x128_S2000x128_1_0_0_1_n_n.lhsBatch by decide),
        dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide),
        dif_pos (show (1 : Fin S128x128.rank) ∈ dot_S2000x128_S128x128_S2000x128_1_0_0_1_n_n.rhsNonContracting by decide)]
      rfl)
    X W p q

/-- The perceptron's block at an entry: the summed rows through the first layer, the rectifier, the second layer. -/
theorem pay1_1_apply (h g : Vec Ideal S2000x128 .f32) (W1 : Vec Ideal S128x128 .f32) (b1 : Vec Ideal S1x128 .f32)
    (W2 : Vec Ideal S128x128 .f32) (b2 : Vec Ideal S1x128 .f32) (p : Fin 2000) (q : Fin 128) :
    k1_pay1 (F := Ideal) h g W1 b1 W2 b2 (ix2 p q)
      = (∑ k : Fin 128, max ((∑ k' : Fin 128, (h (ix2 p k') + g (ix2 p k')) * W1 (ix2 k' k)) + b1 (ix2 0 k)) 0 * W2 (ix2 k q))
        + b2 (ix2 0 q) := by
  unfold k1_pay1
  simp only [shapeCast_self, addf_apply, broadcastTo_1b_ab_apply]
  rw [matmul1_apply]
  simp only [truncf_apply, maximumf_apply, addf_apply, broadcast_apply, broadcastTo_1b_ab_apply, matmul1_apply,
    Ideal.ofBits_def, Ideal.ofBits_zero_f32]

/-- The scaled projection's block at an entry: the perceptron's row times the weights, scaled by the degree column. -/
theorem pay1_2_apply (h g : Vec Ideal S2000x128 .f32) (W1 : Vec Ideal S128x128 .f32) (b1 : Vec Ideal S1x128 .f32)
    (W2 : Vec Ideal S128x128 .f32) (b2 : Vec Ideal S1x128 .f32) (Wc : Vec Ideal S128x128 .f32) (d : Vec Ideal S2000x1 .f32)
    (p : Fin 2000) (q : Fin 128) :
    k1_pay2 (F := Ideal) h g W1 b1 W2 b2 Wc d (ix2 p q)
      = (∑ k : Fin 128, k1_pay1 (F := Ideal) h g W1 b1 W2 b2 (ix2 p k) * Wc (ix2 k q)) * d (ix2 p 0) := by
  unfold k1_pay2
  simp only [shapeCast_self, mulf_apply, Cert.LibColumn.broadcastTo_a1_ab_apply]
  rw [matmul1_apply]
  simp only [truncf_apply]

/-! ## The blocks as rows of the arrays -/

theorem zeroOff1 : (![0, 0] : Fin 2 → Nat) = fun _ => 0 := funext fun a => by fin_cases a <;> rfl

/-- The windows' block indices over the grid: the row windows move with the point, the weights and bias rows stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-- The array row that row `p` of point `t`'s block is. -/
def row1 (t : Fin cfg1.N) (p : Fin 2000) : Fin 50000 :=
  ⟨t.val * 2000 + p.val, by have h : t.val < 25 := lt_of_lt_of_eq t.isLt N_1
                            have := p.isLt; omega⟩

theorem blk1_0_apply (c : Dev nD) (t : Fin cfg1.N) (p : Fin 2000) (q : Fin 128) :
    (iblk1 V c 0 t : Vec Ideal S2000x128 .f32) (ix2 p q) = tH V c (row1 t p) q := by
  obtain ⟨e0, e1, -⟩ := idx_facts1 t
  unfold iblk1
  rw [View.read_apply]
  show V c main_v5 _ = V c main_v5 _
  refine congrArg (V c main_v5) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * q.val = q.val; rw [e1]; omega

theorem blk1_1_apply (c : Dev nD) (t : Fin cfg1.N) (p : Fin 2000) (q : Fin 128) :
    (iblk1 V c 1 t : Vec Ideal S2000x128 .f32) (ix2 p q) = tAgg V c (row1 t p) q := by
  obtain ⟨-, -, e0, e1, -⟩ := idx_facts1 t
  unfold iblk1
  rw [View.read_apply]
  show V c main_v15 _ = V c main_v15 _
  refine congrArg (V c main_v15) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * q.val = q.val; rw [e1]; omega

theorem blk1_2_apply (c : Dev nD) (t : Fin cfg1.N) (p : Fin 2000) :
    (iblk1 V c 2 t : Vec Ideal S2000x1 .f32) (ix2 p 0) = tDinv V c (row1 t p) := by
  obtain ⟨-, -, -, -, e0, e1, -⟩ := idx_facts1 t
  unfold iblk1
  rw [View.read_apply]
  show V c main_v23 _ = V c main_v23 _
  refine congrArg (V c main_v23) (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 1 + 1 * 0 = 0; rw [e1]

theorem blk1_3_apply (c : Dev nD) (t : Fin cfg1.N) (k q : Fin 128) :
    (iblk1 V c 3 t : Vec Ideal S128x128 .f32) (ix2 k q) = tW1_r1 V c k q := by
  obtain ⟨-, -, -, -, -, -, e0, e1, -⟩ := idx_facts1 t
  unfold iblk1
  rw [View.read_apply]
  show V c main_arg5 _ = V c main_arg5 _
  refine congrArg (V c main_arg5) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

theorem blk1_4_apply (c : Dev nD) (t : Fin cfg1.N) (q : Fin 128) :
    (iblk1 V c 4 t : Vec Ideal S1x128 .f32) (ix2 0 q) = tB1_r1 V c q := by
  obtain ⟨-, -, -, -, -, -, -, -, e0, e1, -⟩ := idx_facts1 t
  unfold iblk1
  rw [View.read_apply]
  show V c main_v24 _ = V c main_v24 _
  refine congrArg (V c main_v24) (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

theorem blk1_5_apply (c : Dev nD) (t : Fin cfg1.N) (k q : Fin 128) :
    (iblk1 V c 5 t : Vec Ideal S128x128 .f32) (ix2 k q) = tW2_r1 V c k q := by
  obtain ⟨-, -, -, -, -, -, -, -, -, -, e0, e1, -⟩ := idx_facts1 t
  unfold iblk1
  rw [View.read_apply]
  show V c main_arg7 _ = V c main_arg7 _
  refine congrArg (V c main_arg7) (funext fun a => Fin.ext ?_)
  match a with
  | ⟨0, _⟩ => show win1_5.index t (0 : Fin 2) * 128 + 1 * k.val = k.val; rw [e0]; omega
  | ⟨1, _⟩ => show win1_5.index t (1 : Fin 2) * 128 + 1 * q.val = q.val; rw [e1]; omega

theorem blk1_6_apply (c : Dev nD) (t : Fin cfg1.N) (q : Fin 128) :
    (iblk1 V c 6 t : Vec Ideal S1x128 .f32) (ix2 0 q) = tB2_r1 V c q := by
  obtain ⟨-, -, -, -, -, -, -, -, -, -, -, -, e0, e1, -⟩ := idx_facts1 t
  unfold iblk1
  rw [View.read_apply]
  show V c main_v25 _ = V c main_v25 _
  refine congrArg (V c main_v25) (funext fun a => Fin.ext ?_)
  match a with
  | ⟨0, _⟩ => show win1_6.index t (0 : Fin 2) * 1 + 1 * 0 = 0; rw [e0]
  | ⟨1, _⟩ => show win1_6.index t (1 : Fin 2) * 128 + 1 * q.val = q.val; rw [e1]; omega

theorem blk1_7_apply (c : Dev nD) (t : Fin cfg1.N) (k q : Fin 128) :
    (iblk1 V c 7 t : Vec Ideal S128x128 .f32) (ix2 k q) = tWc_r1 V c k q := by
  obtain ⟨-, -, -, -, -, -, -, -, -, -, -, -, -, -, e0, e1, -⟩ := idx_facts1 t
  unfold iblk1
  rw [View.read_apply]
  show V c main_arg9 _ = V c main_arg9 _
  refine congrArg (V c main_arg9) (funext fun a => Fin.ext ?_)
  match a with
  | ⟨0, _⟩ => show win1_7.index t (0 : Fin 2) * 128 + 1 * k.val = k.val; rw [e0]; omega
  | ⟨1, _⟩ => show win1_7.index t (1 : Fin 2) * 128 + 1 * q.val = q.val; rw [e1]; omega

/-- The perceptron's block at an entry, of the arrays' rows. -/
theorem pay1_1_blk (c : Dev nD) (t : Fin cfg1.N) (p : Fin 2000) (q : Fin 128) :
    k1_pay1 (F := Ideal) (iblk1 V c 0 t) (iblk1 V c 1 t) (iblk1 V c 3 t) (iblk1 V c 4 t) (iblk1 V c 5 t) (iblk1 V c 6 t) (ix2 p q) = x1Of V c (row1 t p) q := by
  rw [pay1_1_apply (iblk1 V c 0 t) (iblk1 V c 1 t) (iblk1 V c 3 t) (iblk1 V c 4 t) (iblk1 V c 5 t) (iblk1 V c 6 t) p q, blk1_6_apply V c t q]
  refine congrArg (· + tB2_r1 V c q) (Finset.sum_congr rfl fun k _ => ?_)
  rw [blk1_4_apply V c t k, blk1_5_apply V c t k q]
  refine congrArg (fun s => max (s + tB1_r1 V c k) 0 * tW2_r1 V c k q) (Finset.sum_congr rfl fun k' _ => ?_)
  rw [blk1_0_apply V c t p k', blk1_1_apply V c t p k', blk1_3_apply V c t k' k]
  rfl

/-! ## The perceptron's array -/

/-- The perceptron's array, entry by entry. -/
def rows1_8 (c : Dev nD) : S50000x128.Idx → EReal := fun x => x1Of V c (x 0) (x 1)

/-- What point `t` writes back to the perceptron's array is block `t` of `rows1_8`. -/
theorem flushed1_8_eq (c : Dev nD) (t : Fin cfg1.N) :
    (dat1 (F := Ideal) V c).flushed 8 t = ((cfg1.win 8).blk t).view.read (Elt Ideal) (rows1_8 V c) := by
  show (cfg1.win 8).cut (grid1.coords t) ((dat1 (F := Ideal) V c).after 8 t) = _
  rw [after1_8]
  unfold out1_8
  rw [View.canon_unit_zero zeroOff1]
  simp only [View.ld_unit_zero (S := S2000x128) zeroOff1, View.ld_unit_zero (S := S2000x1) zeroOff1,
    View.ld_unit_zero (S := S1x128) zeroOff1, View.ld_unit_zero (S := S128x128) zeroOff1]
  obtain ⟨-, -, -, -, -, -, -, -, -, -, -, -, -, -, -, -, e0, e1, -⟩ := idx_facts1 t
  funext y
  obtain ⟨p, q, rfl⟩ : ∃ (p : Fin 2000) (q : Fin 128), y = ix2 p q := ⟨y 0, y 1, eq_ix2 y⟩
  have hemb : ((cfg1.win 8).blk t).view.emb (ix2 p q) = (ix2 (row1 t p) q : S50000x128.Idx) := funext fun a => Fin.ext (by
    match a with
    | ⟨0, _⟩ => show win1_8.index t (0 : Fin 2) * 2000 + 1 * p.val = t.val * 2000 + p.val; rw [e0]; omega
    | ⟨1, _⟩ => show win1_8.index t (1 : Fin 2) * 128 + 1 * q.val = q.val; rw [e1]; omega)
  show k1_pay1 (F := Ideal) (iblk1 V c 0 t) (iblk1 V c 1 t) (iblk1 V c 3 t) (iblk1 V c 4 t) (iblk1 V c 5 t) (iblk1 V c 6 t) (ix2 p q)
    = rows1_8 V c (((cfg1.win 8).blk t).view.emb (ix2 p q))
  rw [hemb, pay1_1_blk V c t p q]
  rfl

/-- An index of output 8's array is in point `t`'s block iff each coordinate is in the block's range on its axis. -/
theorem mem_blk1_8 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v26_0).slice (win1_8.rect t)).set ↔ _
  rw [View.set_slice_whole, Rect.mem_set_unit]
  exact Iff.rfl

/-- Every row is in the block of the point its number divided by 2000 names. -/
theorem covered1_8 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have ht : (i 0).val / 2000 < cfg1.N := by rw [show cfg1.N = 25 from N_1]; omega
  obtain ⟨-, -, -, -, -, -, -, -, -, -, -, -, -, -, -, -, e0, e1, -⟩ := idx_facts1 ⟨(i 0).val / 2000, ht⟩
  refine ⟨⟨(i 0).val / 2000, ht⟩, flush1_8 _, ?_⟩
  rw [mem_blk1_8]
  intro a
  match a with
  | ⟨0, _⟩ =>
    show win1_8.index ⟨(i 0).val / 2000, ht⟩ (0 : Fin 2) * 2000 ≤ (i 0).val ∧ (i 0).val < win1_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, ht⟩ (1 : Fin 2) * 128 ≤ (i 1).val ∧ (i 1).val < win1_8.index ⟨(i 0).val / 2000, ht⟩ (1 : Fin 2) * 128 + 128
    rw [e1]; omega

/-! ## The scaled projection's array -/

/-- The scaled projection's array, entry by entry. -/
def rows1_9 (c : Dev nD) : S50000x128.Idx → EReal := fun x =>
  Cert.Spec.mm (tWc_r1 V c) (x1Of V c) (x 0) (x 1) * tDinv V c (x 0)

/-- What point `t` writes back to the projection's array is block `t` of `rows1_9`. -/
theorem flushed1_9_eq (c : Dev nD) (t : Fin cfg1.N) :
    (dat1 (F := Ideal) V c).flushed 9 t = ((cfg1.win 9).blk t).view.read (Elt Ideal) (rows1_9 V c) := by
  show (cfg1.win 9).cut (grid1.coords t) ((dat1 (F := Ideal) V c).after 9 t) = _
  rw [after1_9]
  unfold out1_9
  rw [View.canon_unit_zero zeroOff1]
  simp only [View.ld_unit_zero (S := S2000x128) zeroOff1, View.ld_unit_zero (S := S2000x1) zeroOff1,
    View.ld_unit_zero (S := S1x128) zeroOff1, View.ld_unit_zero (S := S128x128) zeroOff1]
  obtain ⟨-, -, -, -, -, -, -, -, -, -, -, -, -, -, -, -, -, -, e0, e1⟩ := idx_facts1 t
  funext y
  obtain ⟨p, q, rfl⟩ : ∃ (p : Fin 2000) (q : Fin 128), y = ix2 p q := ⟨y 0, y 1, eq_ix2 y⟩
  have hemb : ((cfg1.win 9).blk t).view.emb (ix2 p q) = (ix2 (row1 t p) q : S50000x128.Idx) := funext fun a => Fin.ext (by
    match a with
    | ⟨0, _⟩ => show win1_9.index t (0 : Fin 2) * 2000 + 1 * p.val = t.val * 2000 + p.val; rw [e0]; omega
    | ⟨1, _⟩ => show win1_9.index t (1 : Fin 2) * 128 + 1 * q.val = q.val; rw [e1]; omega)
  show k1_pay2 (F := Ideal) (iblk1 V c 0 t) (iblk1 V c 1 t) (iblk1 V c 3 t) (iblk1 V c 4 t) (iblk1 V c 5 t) (iblk1 V c 6 t) (iblk1 V c 7 t) (iblk1 V c 2 t) (ix2 p q)
    = rows1_9 V c (((cfg1.win 9).blk t).view.emb (ix2 p q))
  rw [hemb, pay1_2_apply (iblk1 V c 0 t) (iblk1 V c 1 t) (iblk1 V c 3 t) (iblk1 V c 4 t) (iblk1 V c 5 t) (iblk1 V c 6 t) (iblk1 V c 7 t) (iblk1 V c 2 t) p q,
    blk1_2_apply V c t p]
  refine congrArg (· * tDinv V c (row1 t p)) (Finset.sum_congr rfl fun k _ => ?_)
  rw [pay1_1_blk V c t p k, blk1_7_apply V c t k q]

/-- An index of output 9's array is in point `t`'s block iff each coordinate is in the block's range on its axis. -/
theorem mem_blk1_9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v26_1).slice (win1_9.rect t)).set ↔ _
  rw [View.set_slice_whole, Rect.mem_set_unit]
  exact Iff.rfl

/-- Every row is in the block of the point its number divided by 2000 names. -/
theorem covered1_9 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have ht : (i 0).val / 2000 < cfg1.N := by rw [show cfg1.N = 25 from N_1]; omega
  obtain ⟨-, -, -, -, -, -, -, -, -, -, -, -, -, -, -, -, -, -, e0, e1⟩ := idx_facts1 ⟨(i 0).val / 2000, ht⟩
  refine ⟨⟨(i 0).val / 2000, ht⟩, flush1_9 _, ?_⟩
  rw [mem_blk1_9]
  intro a
  match a with
  | ⟨0, _⟩ =>
    show win1_9.index ⟨(i 0).val / 2000, ht⟩ (0 : Fin 2) * 2000 ≤ (i 0).val ∧ (i 0).val < win1_9.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_9.index ⟨(i 0).val / 2000, ht⟩ (1 : Fin 2) * 128 ≤ (i 1).val ∧ (i 1).val < win1_9.index ⟨(i 0).val / 2000, ht⟩ (1 : Fin 2) * 128 + 128
    rw [e1]; omega

/-! ## The two arrays when the region ends -/

theorem final1_8 (c : Dev nD) (i : Fin 50000) (j : Fin 128) :
    (dat1 (F := Ideal) V c).arrAt 8 cfg1.N (ix2 i j) = x1Of V c i j := by
  rw [(dat1 (F := Ideal) V c).arrAt_eq_of_cover 8 (rows1_8 V c) (fun t _ => flushed1_8_eq V c t) covered1_8]
  rfl

theorem final1_9 (c : Dev nD) (i : Fin 50000) (j : Fin 128) :
    (dat1 (F := Ideal) V c).arrAt 9 cfg1.N (ix2 i j)
      = Cert.Spec.mm (fun k o => V c main_arg9 (ix2 k o)) (x1Of V c) i j * tDinv V c i := by
  rw [(dat1 (F := Ideal) V c).arrAt_eq_of_cover 9 (rows1_9 V c) (fun t _ => flushed1_9_eq V c t) covered1_9]
  rfl

end Cert.KernelIdeal.Hand

end
-- ==== Proof.KI.Chain1.lean ====
/-
  The kernel program's first layer, followed through the fold of the buffer contents (the later layers build on it).

  Each host stretch's result buffers are read as their operations' terms of the previous boundary's contents, entry by
  entry; each region's output arrays are the region's whole-array value of the contents it is entered from.  Stage by
  stage the buffers turn out to hold the specification's closed forms of this core's arguments: the projected features,
  the first layer's rows (sum aggregation and the perceptron), each convolution layer's scaled projection and rows.  The
  three layers' arrays, once written, are touched by no later item up to the boundary before the last host stretch.
-/
import proofs.«146766_j74998718923374_2_alg».proof.Proof.KI.ChainLib
import proofs.«146766_j74998718923374_2_alg».proof.Proof.KI.Args
import proofs.«146766_j74998718923374_2_alg».proof.Proof.KI.Value0
import proofs.«146766_j74998718923374_2_alg».proof.Proof.KI.Value1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

/-! ## Stretch 0: the edge list's two rows as flat vectors, the input bias as a row -/

theorem W1_v1 (e : Fin 600000) : W1 (F := Ideal) m c (Proc.devRef .tc main_v1) (ix1 e) = aSrc m c e := by
  have h : (W1 (F := Ideal) m c (Proc.devRef .tc main_v1) : S600000.Idx → BitVec 32)
      = shapeCast S600000 (extractStridedSlice S1x600000 ![0, 0] (W0 m c (Proc.devRef .tc main_arg1)) slices_S2x600000_S1x600000_0_0) shapeCasts_S1x600000_S600000 := by
    show StableHlo.after hostOps0 _ (Proc.devRef .tc main_v1) = _
    after_results; rfl
  exact (congrFun h (ix1 e)).trans (flatRow_apply _ 0 _ _ e)

theorem W1_v3 (e : Fin 600000) : W1 (F := Ideal) m c (Proc.devRef .tc main_v3) (ix1 e) = aDst m c e := by
  have h : (W1 (F := Ideal) m c (Proc.devRef .tc main_v3) : S600000.Idx → BitVec 32)
      = shapeCast S600000 (extractStridedSlice S1x600000 ![1, 0] (W0 m c (Proc.devRef .tc main_arg1)) slices_S2x600000_S1x600000_1_0) shapeCasts_S1x600000_S600000 := by
    show StableHlo.after hostOps0 _ (Proc.devRef .tc main_v3) = _
    after_results; rfl
  exact (congrFun h (ix1 e)).trans (flatRow_apply _ 1 _ _ e)

theorem W1_v4 (o : Fin 128) : W1 (F := Ideal) m c (Proc.devRef .tc main_v4) (ix2 0 o) = abin m c o := by
  have h : (W1 (F := Ideal) m c (Proc.devRef .tc main_v4) : S1x128.Idx → EReal)
      = shapeCast S1x128 (W0 m c (Proc.devRef .tc main_arg4)) shapeCasts_S128_S1x128 := by
    show StableHlo.after hostOps0 _ (Proc.devRef .tc main_v4) = _
    after_results; rfl
  exact (congrFun h (ix2 0 o)).trans (asRow_apply _ _ o)

/-! ## Region 0: the projected features -/

/-- The projected features of this core's arguments. -/
def hK : Cert.Spec.Mat 50000 128 := Cert.Spec.dense (aWin m c) (abin m c) (aX m c)

theorem W2_v5 (i : Fin 50000) (j : Fin 128) : W2 (F := Ideal) m c (Proc.devRef .tc main_v5) (ix2 i j) = hK m c i j := by
  have e1 : (fun (k o : Fin 128) => V1 (F := Ideal) m c main_arg3 (ix2 k o)) = aWin m c :=
    funext fun k => funext fun o => congrFun (W1_keep m c main_arg3 (by decide)) (ix2 k o)
  have e2 : (fun (o : Fin 128) => V1 (F := Ideal) m c main_v4 (ix2 0 o)) = abin m c := funext fun o => W1_v4 m c o
  have e3 : (fun (r : Fin 50000) (k : Fin 128) => V1 (F := Ideal) m c main_arg0 (ix2 r k)) = aX m c :=
    funext fun r => funext fun k => congrFun (W1_keep m c main_arg0 (by decide)) (ix2 r k)
  refine (congrFun (W2_arr m c 3) (ix2 i j)).trans ((final0 (V1 m) c i j).trans ?_)
  rw [e1, e2, e3]
  rfl

/-! ## The edge words and the degree column, carried along

No item after stretch 0 writes the flattened edge words; no item after stretch 1 writes the degree column. -/

theorem W2_v1 (e : Fin 600000) : W2 (F := Ideal) m c (Proc.devRef .tc main_v1) (ix1 e) = aSrc m c e :=
  (congrFun (W2_keep m c main_v1 (by decide)) (ix1 e)).trans (W1_v1 m c e)
theorem W2_v3 (e : Fin 600000) : W2 (F := Ideal) m c (Proc.devRef .tc main_v3) (ix1 e) = aDst m c e :=
  (congrFun (W2_keep m c main_v3 (by decide)) (ix1 e)).trans (W1_v3 m c e)

/-! ## Stretch 1: the neighbours' projected features summed, the degree column, the perceptron's bias rows -/

theorem W3_v5 (i : Fin 50000) (j : Fin 128) : W3 (F := Ideal) m c (Proc.devRef .tc main_v5) (ix2 i j) = hK m c i j :=
  (congrFun (W3_keep m c main_v5 (by decide)) (ix2 i j)).trans (W2_v5 m c i j)

theorem W3_v15 (i : Fin 50000) (k : Fin 128) :
    W3 (F := Ideal) m c (Proc.devRef .tc main_v15) (ix2 i k)
      = Cert.Spec.segRows (aDst m c) (fun e j => hK m c (Cert.Spec.srcRow (aSrc m c) e) j) i k := by
  have h : (W3 (F := Ideal) m c (Proc.devRef .tc main_v15) : S50000x128.Idx → EReal)
      = aggTerm (W2 m c (Proc.devRef .tc main_v5)) (W2 m c (Proc.devRef .tc main_v1)) (W2 m c (Proc.devRef .tc main_v3)) := by
    show StableHlo.after hostOps1 _ (Proc.devRef .tc main_v15) = _
    after_results; rfl
  exact (congrFun h (ix2 i k)).trans (aggTerm_eq _ _ _ _ _ _ (W2_v1 m c) (W2_v3 m c) (W2_v5 m c) i k)

theorem W3_v23 (i : Fin 50000) :
    W3 (F := Ideal) m c (Proc.devRef .tc main_v23) (ix2 i 0) = Cert.Spec.dinv (aDst m c) oneW i := by
  have h : (W3 (F := Ideal) m c (Proc.devRef .tc main_v23) : S50000x1.Idx → EReal) = dinvTerm (W2 m c (Proc.devRef .tc main_v3)) := by
    show StableHlo.after hostOps1 _ (Proc.devRef .tc main_v23) = _
    after_results; rfl
  exact (congrFun h (ix2 i 0)).trans (dinvTerm_eq _ _ (W2_v3 m c) i)

theorem W3_v24 (o : Fin 128) : W3 (F := Ideal) m c (Proc.devRef .tc main_v24) (ix2 0 o) = abg1 m c o := by
  have h : (W3 (F := Ideal) m c (Proc.devRef .tc main_v24) : S1x128.Idx → EReal)
      = shapeCast S1x128 (W2 m c (Proc.devRef .tc main_arg6)) shapeCasts_S128_S1x128 := by
    show StableHlo.after hostOps1 _ (Proc.devRef .tc main_v24) = _
    after_results; rfl
  refine (congrFun h (ix2 0 o)).trans ((asRow_apply _ _ o).trans ?_)
  exact (congrFun (W2_keep m c main_arg6 (by decide)) (ix1 o)).trans (congrFun (W1_keep m c main_arg6 (by decide)) (ix1 o))

theorem W3_v25 (o : Fin 128) : W3 (F := Ideal) m c (Proc.devRef .tc main_v25) (ix2 0 o) = abg2 m c o := by
  have h : (W3 (F := Ideal) m c (Proc.devRef .tc main_v25) : S1x128.Idx → EReal)
      = shapeCast S1x128 (W2 m c (Proc.devRef .tc main_arg8)) shapeCasts_S128_S1x128 := by
    show StableHlo.after hostOps1 _ (Proc.devRef .tc main_v25) = _
    after_results; rfl
  refine (congrFun h (ix2 0 o)).trans ((asRow_apply _ _ o).trans ?_)
  exact (congrFun (W2_keep m c main_arg8 (by decide)) (ix1 o)).trans (congrFun (W1_keep m c main_arg8 (by decide)) (ix1 o))

/-- A weight argument that no item writes, read at region 1's entry. -/
theorem W3_arg (r : Ref sig .tc) (h1 : r ∉ hostOps0_W) (h2 : r ∉ ([main_v5] : List (Ref sig .tc))) (h3 : r ∉ hostOps1_W) :
    W3 (F := Ideal) m c (Proc.devRef .tc r) = m ((c.tc : Thread nD τ).loc r) :=
  (W3_keep m c r h3).trans ((W2_keep m c r h2).trans (W1_keep m c r h1))

/-! ## Region 1: the first layer's rows and their scaled projection -/

theorem x1Of_eq : x1Of (V3 (F := Ideal) m) c = kX1 m c := by
  have eW2 : (fun (k o : Fin 128) => V3 (F := Ideal) m c main_arg7 (ix2 k o)) = aWg2 m c :=
    funext fun k => funext fun o => congrFun (W3_arg m c main_arg7 (by decide) (by decide) (by decide)) (ix2 k o)
  have eb2 : (fun (o : Fin 128) => V3 (F := Ideal) m c main_v25 (ix2 0 o)) = abg2 m c := funext fun o => W3_v25 m c o
  have eW1 : (fun (k o : Fin 128) => V3 (F := Ideal) m c main_arg5 (ix2 k o)) = aWg1 m c :=
    funext fun k => funext fun o => congrFun (W3_arg m c main_arg5 (by decide) (by decide) (by decide)) (ix2 k o)
  have eb1 : (fun (o : Fin 128) => V3 (F := Ideal) m c main_v24 (ix2 0 o)) = abg1 m c := funext fun o => W3_v24 m c o
  have eH : tH (V3 (F := Ideal) m) c = hK m c := funext fun r => funext fun k => W3_v5 m c r k
  have eAgg : tAgg (V3 (F := Ideal) m) c = Cert.Spec.segRows (aDst m c) (fun e j => hK m c (Cert.Spec.srcRow (aSrc m c) e) j) :=
    funext fun r => funext fun k => W3_v15 m c r k
  unfold x1Of
  rw [eW2, eb2, eW1, eb1, eH, eAgg]
  rfl

theorem W4_v26_0 (i : Fin 50000) (j : Fin 128) : W4 (F := Ideal) m c (Proc.devRef .tc main_v26_0) (ix2 i j) = kX1 m c i j := by
  refine (congrFun (W4_arr m c 8) (ix2 i j)).trans ((final1_8 (V3 m) c i j).trans ?_)
  rw [x1Of_eq]

theorem W4_v26_1 (i : Fin 50000) (j : Fin 128) :
    W4 (F := Ideal) m c (Proc.devRef .tc main_v26_1) (ix2 i j) = Cert.Spec.scaled (aDst m c) oneW (aWc1 m c) (kX1 m c) i j := by
  have eW : (fun (k o : Fin 128) => V3 (F := Ideal) m c main_arg9 (ix2 k o)) = aWc1 m c :=
    funext fun k => funext fun o => congrFun (W3_arg m c main_arg9 (by decide) (by decide) (by decide)) (ix2 k o)
  have eD : tDinv (V3 (F := Ideal) m) c i = Cert.Spec.dinv (aDst m c) oneW i := W3_v23 m c i
  refine (congrFun (W4_arr m c 9) (ix2 i j)).trans ((final1_9 (V3 m) c i j).trans ?_)
  rw [eW, x1Of_eq, eD]
  rfl

/-! ## What region 2's stretch reads of the earlier items, at region 1's exit -/

theorem W4_v1 (e : Fin 600000) : W4 (F := Ideal) m c (Proc.devRef .tc main_v1) (ix1 e) = aSrc m c e :=
  (congrFun (W4_keep m c main_v1 (by decide)) (ix1 e)).trans ((congrFun (W3_keep m c main_v1 (by decide)) (ix1 e)).trans (W2_v1 m c e))
theorem W4_v3 (e : Fin 600000) : W4 (F := Ideal) m c (Proc.devRef .tc main_v3) (ix1 e) = aDst m c e :=
  (congrFun (W4_keep m c main_v3 (by decide)) (ix1 e)).trans ((congrFun (W3_keep m c main_v3 (by decide)) (ix1 e)).trans (W2_v3 m c e))
theorem W4_v23 (i : Fin 50000) : W4 (F := Ideal) m c (Proc.devRef .tc main_v23) (ix2 i 0) = Cert.Spec.dinv (aDst m c) oneW i :=
  (congrFun (W4_keep m c main_v23 (by decide)) (ix2 i 0)).trans (W3_v23 m c i)

end Cert.KernelIdeal.Hand

end
-- ==== Proof.KI.Value2.lean ====
/-
  Region 2: what each output array holds when the region ends, at the exact reals, as a whole-array function of the
  contents the region is entered from.
-/
import proofs.«146766_j74998718923374_2_alg».proof.Proof.KI.RegDefs
import proofs.«146766_j74998718923374_2_alg».proof.Proof.Spec
import proofs.«146766_j74998718923374_2_alg».proof.Proof.LibPlainMatmul
import proofs.«146766_j74998718923374_2_alg».proof.Proof.LibColumn
import Idealize.ShloMosaic.Lib.Pipeline.Value
import Idealize.ShloMosaic.Lib.ValueLayout
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-- The region's operand arrays as tables: the aggregated rows, the scaled projection, the inverse square-root degree
    column, the bias row. -/
def tAggRaw1 (c : Dev nD) : Cert.Spec.Mat 50000 128 := fun r k => V c main_v36 (ix2 r k)
def tXws1 (c : Dev nD) : Cert.Spec.Mat 50000 128 := fun r k => V c main_v26_1 (ix2 r k)
def tDinv2 (c : Dev nD) : Cert.Spec.Vect 50000 := fun r => V c main_v23 (ix2 r 0)
def tBc1 (c : Dev nD) : Cert.Spec.Vect 128 := fun k => V c main_v37 (ix2 0 k)

/-- The first convolution layer's rows, of the entry contents. -/
def x2Of (c : Dev nD) : Cert.Spec.Mat 50000 128 := fun r k =>
  max (tDinv2 V c r * (tAggRaw1 V c r k + tXws1 V c r k) + tBc1 V c k) 0

/-! ## The body's arithmetic at an entry -/

/-- A 2000×128 block times a 128×128 matrix, accumulated into zero, at an entry: the sum over the inner index. -/
theorem matmul2_apply (X : FVec Ideal S2000x128 .bf16) (W : FVec Ideal S128x128 .bf16) (p : Fin 2000) (q : Fin 128) :
    matmul dot_S2000x128_S128x128_S2000x128_1_0_0_1_n_n none X W (constant (F := Ideal) S2000x128 .f32 0x00000000#32) (ix2 p q)
      = ∑ k : Fin 128, X (ix2 p k) * W (ix2 k q) :=
  Cert.LibPlainMatmul.matmul_zero_ix2 dot_S2000x128_S128x128_S2000x128_1_0_0_1_n_n none rfl rfl
    (fun i q => by
      unfold DotDims.lhsIdx
      rw [dif_neg (show ¬(0 : Fin S2000x128.rank) ∈ dot_S2000x128_S128x128_S2000x128_1_0_0_1_n_n.lhsBatch by decide),
        dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide),
        dif_pos (show (1 : Fin S128x128.rank) ∈ dot_S2000x128_S128x128_S2000x128_1_0_0_1_n_n.rhsNonContracting by decide)]
      rfl)
    X W p q

/-- The layer's block at an entry: the degree scaling of the summed rows, the bias, the rectifier. -/
theorem pay2_1_apply (d : Vec Ideal S2000x1 .f32) (a y : Vec Ideal S2000x128 .f32) (b : Vec Ideal S1x128 .f32)
    (p : Fin 2000) (q : Fin 128) :
    k2_pay1 (F := Ideal) d a y b (ix2 p q)
      = max (d (ix2 p 0) * (a (ix2 p q) + y (ix2 p q)) + b (ix2 0 q)) 0 := by
  unfold k2_pay1
  simp only [shapeCast_self, maximumf_apply, addf_apply, mulf_apply, broadcast_apply,
    Cert.LibColumn.broadcastTo_a1_ab_apply, broadcastTo_1b_ab_apply, Ideal.ofBits_def, Ideal.ofBits_zero_f32]

/-- The next scaled projection's block at an entry: the layer's row times the weights, scaled by the degree column. -/
theorem pay2_2_apply (d : Vec Ideal S2000x1 .f32) (a y : Vec Ideal S2000x128 .f32) (b : Vec Ideal S1x128 .f32)
    (W : Vec Ideal S128x128 .f32) (d' : Vec Ideal S2000x1 .f32) (p : Fin 2000) (q : Fin 128) :
    k2_pay2 (F := Ideal) d a y b W d' (ix2 p q)
      = (∑ k : Fin 128, max (d (ix2 p 0) * (a (ix2 p k) + y (ix2 p k)) + b (ix2 0 k)) 0 * W (ix2 k q)) * d' (ix2 p 0) := by
  unfold k2_pay2
  simp only [shapeCast_self, mulf_apply, Cert.LibColumn.broadcastTo_a1_ab_apply]
  rw [matmul2_apply]
  simp only [truncf_apply, pay2_1_apply]

/-! ## The blocks as rows of the arrays -/

theorem zeroOff2 : (![0, 0] : Fin 2 → Nat) = fun _ => 0 := funext fun a => by fin_cases a <;> rfl

/-- The windows' block indices over the grid: the row windows move with the point, the bias row and the weights stay. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The array row that row `p` of point `t`'s block is. -/
def row2 (t : Fin cfg2.N) (p : Fin 2000) : Fin 50000 :=
  ⟨t.val * 2000 + p.val, by have h : t.val < 25 := lt_of_lt_of_eq t.isLt N_2
                            have := p.isLt; omega⟩

/-- The weights as a table. -/
def tWc2 (c : Dev nD) : Cert.Spec.Mat 128 128 := fun k o => V c main_arg11 (ix2 k o)

theorem blk2_0_apply (c : Dev nD) (t : Fin cfg2.N) (p : Fin 2000) (q : Fin 128) :
    (iblk2 V c 0 t : Vec Ideal S2000x128 .f32) (ix2 p q) = tAggRaw1 V c (row2 t p) q := by
  obtain ⟨e0, e1, -⟩ := idx_facts2 t
  unfold iblk2
  rw [View.read_apply]
  show V c main_v36 _ = V c main_v36 _
  refine congrArg (V c main_v36) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * q.val = q.val; rw [e1]; omega

theorem blk2_1_apply (c : Dev nD) (t : Fin cfg2.N) (p : Fin 2000) (q : Fin 128) :
    (iblk2 V c 1 t : Vec Ideal S2000x128 .f32) (ix2 p q) = tXws1 V c (row2 t p) q := by
  obtain ⟨-, -, e0, e1, -⟩ := idx_facts2 t
  unfold iblk2
  rw [View.read_apply]
  show V c main_v26_1 _ = V c main_v26_1 _
  refine congrArg (V c main_v26_1) (funext fun a => Fin.ext ?_)
  match a with
  | ⟨0, _⟩ => show win2_1.index t (0 : Fin 2) * 2000 + 1 * p.val = t.val * 2000 + p.val; rw [e0]; omega
  | ⟨1, _⟩ => show win2_1.index t (1 : Fin 2) * 128 + 1 * q.val = q.val; rw [e1]; omega

theorem blk2_2_apply (c : Dev nD) (t : Fin cfg2.N) (p : Fin 2000) :
    (iblk2 V c 2 t : Vec Ideal S2000x1 .f32) (ix2 p 0) = tDinv2 V c (row2 t p) := by
  obtain ⟨-, -, -, -, e0, e1, -⟩ := idx_facts2 t
  unfold iblk2
  rw [View.read_apply]
  show V c main_v23 _ = V c main_v23 _
  refine congrArg (V c main_v23) (funext fun a => Fin.ext ?_)
  match a with
  | ⟨0, _⟩ => show win2_2.index t (0 : Fin 2) * 2000 + 1 * p.val = t.val * 2000 + p.val; rw [e0]; omega
  | ⟨1, _⟩ => show win2_2.index t (1 : Fin 2) * 1 + 1 * 0 = 0; rw [e1]

theorem blk2_3_apply (c : Dev nD) (t : Fin cfg2.N) (q : Fin 128) :
    (iblk2 V c 3 t : Vec Ideal S1x128 .f32) (ix2 0 q) = tBc1 V c q := by
  obtain ⟨-, -, -, -, -, -, e0, e1, -⟩ := idx_facts2 t
  unfold iblk2
  rw [View.read_apply]
  show V c main_v37 _ = V c main_v37 _
  refine congrArg (V c main_v37) (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

theorem blk2_4_apply (c : Dev nD) (t : Fin cfg2.N) (k q : Fin 128) :
    (iblk2 V c 4 t : Vec Ideal S128x128 .f32) (ix2 k q) = tWc2 V c k q := by
  obtain ⟨-, -, -, -, -, -, -, -, e0, e1, -⟩ := idx_facts2 t
  unfold iblk2
  rw [View.read_apply]
  show V c main_arg11 _ = V c main_arg11 _
  refine congrArg (V c main_arg11) (funext fun a => Fin.ext ?_)
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-! ## The layer's array -/

/-- The layer's array, entry by entry. -/
def rows2_5 (c : Dev nD) : S50000x128.Idx → EReal := fun x => x2Of V c (x 0) (x 1)

/-- What point `t` writes back to the layer's array is block `t` of `rows2_5`. -/
theorem flushed2_5_eq (c : Dev nD) (t : Fin cfg2.N) :
    (dat2 (F := Ideal) V c).flushed 5 t = ((cfg2.win 5).blk t).view.read (Elt Ideal) (rows2_5 V c) := by
  show (cfg2.win 5).cut (grid2.coords t) ((dat2 (F := Ideal) V c).after 5 t) = _
  rw [after2_5]
  unfold out2_5
  rw [View.canon_unit_zero zeroOff2]
  simp only [View.ld_unit_zero (S := S2000x128) zeroOff2, View.ld_unit_zero (S := S2000x1) zeroOff2,
    View.ld_unit_zero (S := S1x128) zeroOff2]
  obtain ⟨-, -, -, -, -, -, -, -, -, -, e0, e1, -⟩ := idx_facts2 t
  funext y
  obtain ⟨p, q, rfl⟩ : ∃ (p : Fin 2000) (q : Fin 128), y = ix2 p q := ⟨y 0, y 1, eq_ix2 y⟩
  have hemb : ((cfg2.win 5).blk t).view.emb (ix2 p q) = (ix2 (row2 t p) q : S50000x128.Idx) := funext fun a => Fin.ext (by
    match a with
    | ⟨0, _⟩ => show win2_5.index t (0 : Fin 2) * 2000 + 1 * p.val = t.val * 2000 + p.val; rw [e0]; omega
    | ⟨1, _⟩ => show win2_5.index t (1 : Fin 2) * 128 + 1 * q.val = q.val; rw [e1]; omega)
  show k2_pay1 (F := Ideal) (iblk2 V c 2 t) (iblk2 V c 0 t) (iblk2 V c 1 t) (iblk2 V c 3 t) (ix2 p q)
    = rows2_5 V c (((cfg2.win 5).blk t).view.emb (ix2 p q))
  rw [hemb, pay2_1_apply (iblk2 V c 2 t) (iblk2 V c 0 t) (iblk2 V c 1 t) (iblk2 V c 3 t) p q,
    blk2_0_apply V c t p q, blk2_1_apply V c t p q, blk2_2_apply V c t p, blk2_3_apply V c t q]
  rfl

/-- An index of the layer's array is in point `t`'s block iff each coordinate is in the block's range on its axis. -/
theorem mem_blk2_5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v38_0).slice (win2_5.rect t)).set ↔ _
  rw [View.set_slice_whole, Rect.mem_set_unit]
  exact Iff.rfl

/-- Every row is in the block of the point its number divided by 2000 names. -/
theorem covered2_5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have ht : (i 0).val / 2000 < cfg2.N := by rw [show cfg2.N = 25 from N_2]; omega
  obtain ⟨-, -, -, -, -, -, -, -, -, -, e0, e1, -⟩ := idx_facts2 ⟨(i 0).val / 2000, ht⟩
  refine ⟨⟨(i 0).val / 2000, ht⟩, flush2_5 _, ?_⟩
  rw [mem_blk2_5]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, ht⟩ (1 : Fin 2) * 128 ≤ (i 1).val ∧ (i 1).val < win2_5.index ⟨(i 0).val / 2000, ht⟩ (1 : Fin 2) * 128 + 128
    rw [e1]; omega

/-! ## The next scaled projection's array -/

/-- The next scaled projection's array, entry by entry. -/
def rows2_6 (c : Dev nD) : S50000x128.Idx → EReal := fun x =>
  Cert.Spec.mm (tWc2 V c) (x2Of V c) (x 0) (x 1) * tDinv2 V c (x 0)

/-- What point `t` writes back to the projection's array is block `t` of `rows2_6`. -/
theorem flushed2_6_eq (c : Dev nD) (t : Fin cfg2.N) :
    (dat2 (F := Ideal) V c).flushed 6 t = ((cfg2.win 6).blk t).view.read (Elt Ideal) (rows2_6 V c) := by
  show (cfg2.win 6).cut (grid2.coords t) ((dat2 (F := Ideal) V c).after 6 t) = _
  rw [after2_6]
  unfold out2_6
  rw [View.canon_unit_zero zeroOff2]
  simp only [View.ld_unit_zero (S := S2000x128) zeroOff2, View.ld_unit_zero (S := S2000x1) zeroOff2,
    View.ld_unit_zero (S := S1x128) zeroOff2, View.ld_unit_zero (S := S128x128) zeroOff2]
  obtain ⟨-, -, -, -, -, -, -, -, -, -, -, -, e0, e1⟩ := idx_facts2 t
  funext y
  obtain ⟨p, q, rfl⟩ : ∃ (p : Fin 2000) (q : Fin 128), y = ix2 p q := ⟨y 0, y 1, eq_ix2 y⟩
  have hemb : ((cfg2.win 6).blk t).view.emb (ix2 p q) = (ix2 (row2 t p) q : S50000x128.Idx) := funext fun a => Fin.ext (by
    match a with
    | ⟨0, _⟩ => show win2_6.index t (0 : Fin 2) * 2000 + 1 * p.val = t.val * 2000 + p.val; rw [e0]; omega
    | ⟨1, _⟩ => show win2_6.index t (1 : Fin 2) * 128 + 1 * q.val = q.val; rw [e1]; omega)
  show k2_pay2 (F := Ideal) (iblk2 V c 2 t) (iblk2 V c 0 t) (iblk2 V c 1 t) (iblk2 V c 3 t) (iblk2 V c 4 t) (iblk2 V c 2 t) (ix2 p q)
    = rows2_6 V c (((cfg2.win 6).blk t).view.emb (ix2 p q))
  rw [hemb, pay2_2_apply (iblk2 V c 2 t) (iblk2 V c 0 t) (iblk2 V c 1 t) (iblk2 V c 3 t) (iblk2 V c 4 t) (iblk2 V c 2 t) p q,
    blk2_2_apply V c t p]
  refine congrArg (· * tDinv2 V c (row2 t p)) (Finset.sum_congr rfl fun k _ => ?_)
  rw [blk2_0_apply V c t p k, blk2_1_apply V c t p k, blk2_3_apply V c t k, blk2_4_apply V c t k q]
  rfl

theorem mem_blk2_6 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v38_1).slice (win2_6.rect t)).set ↔ _
  rw [View.set_slice_whole, Rect.mem_set_unit]
  exact Iff.rfl

theorem covered2_6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have ht : (i 0).val / 2000 < cfg2.N := by rw [show cfg2.N = 25 from N_2]; omega
  obtain ⟨-, -, -, -, -, -, -, -, -, -, -, -, e0, e1⟩ := idx_facts2 ⟨(i 0).val / 2000, ht⟩
  refine ⟨⟨(i 0).val / 2000, ht⟩, flush2_6 _, ?_⟩
  rw [mem_blk2_6]
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val ∧ (i 1).val < win2_6.index ⟨(i 0).val / 2000, ht⟩ (1 : Fin 2) * 128 + 128
    rw [e1]; omega

/-! ## The two arrays when the region ends -/

theorem final2_5 (c : Dev nD) (i : Fin 50000) (j : Fin 128) :
    (dat2 (F := Ideal) V c).arrAt 5 cfg2.N (ix2 i j) = x2Of V c i j := by
  rw [(dat2 (F := Ideal) V c).arrAt_eq_of_cover 5 (rows2_5 V c) (fun t _ => flushed2_5_eq V c t) covered2_5]
  rfl

theorem final2_6 (c : Dev nD) (i : Fin 50000) (j : Fin 128) :
    (dat2 (F := Ideal) V c).arrAt 6 cfg2.N (ix2 i j)
      = Cert.Spec.mm (fun k o => V c main_arg11 (ix2 k o)) (x2Of V c) i j * tDinv2 V c i := by
  rw [(dat2 (F := Ideal) V c).arrAt_eq_of_cover 6 (rows2_6 V c) (fun t _ => flushed2_6_eq V c t) covered2_6]
  rfl

end Cert.KernelIdeal.Hand

end
-- ==== Proof.KI.Chain2.lean ====
/-
  The first degree-normalised graph convolution of the kernel program, read as values over the extended reals.

  On the host the first scaled projection's rows are aggregated over the edges into every node (rows gathered at the
  edges' wrapped source words, added into a table of zeros at the destination words) and the layer's bias vector is
  re-laid as one row; the kernel region then finishes the layer row by row — the inverse square-root degree times the sum
  of the aggregated and the node's own scaled row, plus the bias, rectified — and projects the result through the next
  weights, scaled by the degree column.  Read at an entry, the region's two outputs are the specification's convolution
  layer in the kernel's arrangement and its scaled projection; the edge words, the degree column and the perceptron's
  array pass through unchanged.
-/
import proofs.«146766_j74998718923374_2_alg».proof.Proof.KI.ChainLib
import proofs.«146766_j74998718923374_2_alg».proof.Proof.KI.Chain1
import proofs.«146766_j74998718923374_2_alg».proof.Proof.KI.Args
import proofs.«146766_j74998718923374_2_alg».proof.Proof.KI.Value2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

/-! ## Arrays that reach a boundary unchanged -/

/-- The first layer's bias vector and the second layer's weights still hold their launch contents where they are read. -/
theorem W4_main_arg10 : W4 (F := Ideal) m c (Proc.devRef .tc main_arg10) = m ((c : Thread nD τ).loc main_arg10) :=
  (W4_keep m c main_arg10 (by decide)).trans <| (W3_keep m c main_arg10 (by decide)).trans <| (W2_keep m c main_arg10 (by decide)).trans <| (W1_keep m c main_arg10 (by decide)).trans <| rfl
theorem W5_main_arg11 : W5 (F := Ideal) m c (Proc.devRef .tc main_arg11) = m ((c : Thread nD τ).loc main_arg11) :=
  (W5_keep m c main_arg11 (by decide)).trans <| (W4_keep m c main_arg11 (by decide)).trans <| (W3_keep m c main_arg11 (by decide)).trans <| (W2_keep m c main_arg11 (by decide)).trans <| (W1_keep m c main_arg11 (by decide)).trans <| rfl

/-- The edge words and the degree column at the later boundaries. -/
theorem W6_v1 (e : Fin 600000) : W6 (F := Ideal) m c (Proc.devRef .tc main_v1) (ix1 e) = aSrc m c e :=
  (congrFun ((W6_keep m c main_v1 (by decide)).trans <| (W5_keep m c main_v1 (by decide))) (ix1 e)).trans (W4_v1 m c e)
theorem W6_v3 (e : Fin 600000) : W6 (F := Ideal) m c (Proc.devRef .tc main_v3) (ix1 e) = aDst m c e :=
  (congrFun ((W6_keep m c main_v3 (by decide)).trans <| (W5_keep m c main_v3 (by decide))) (ix1 e)).trans (W4_v3 m c e)
theorem W5_v23 (i : Fin 50000) : W5 (F := Ideal) m c (Proc.devRef .tc main_v23) (ix2 i 0) = Cert.Spec.dinv (aDst m c) oneW i :=
  (congrFun ((W5_keep m c main_v23 (by decide))) (ix2 i 0)).trans (W4_v23 m c i)
theorem W6_v23 (i : Fin 50000) : W6 (F := Ideal) m c (Proc.devRef .tc main_v23) (ix2 i 0) = Cert.Spec.dinv (aDst m c) oneW i :=
  (congrFun ((W6_keep m c main_v23 (by decide)).trans <| (W5_keep m c main_v23 (by decide))) (ix2 i 0)).trans (W4_v23 m c i)
/-- The perceptron's array is not written after region 1. -/
theorem W6_v26_0 (i : Fin 50000) (j : Fin 128) : W6 (F := Ideal) m c (Proc.devRef .tc main_v26_0) (ix2 i j) = kX1 m c i j :=
  (congrFun ((W6_keep m c main_v26_0 (by decide)).trans <| (W5_keep m c main_v26_0 (by decide))) (ix2 i j)).trans (W4_v26_0 m c i j)

/-! ## The first convolution: the host stretch before region 2 -/

/-- The first scaled projection aggregated over the edges into each node. -/
theorem W5_v36 (i : Fin 50000) (k : Fin 128) :
    W5 (F := Ideal) m c (Proc.devRef .tc main_v36) (ix2 i k)
      = Cert.Spec.segRows (aDst m c) (fun e j => Cert.Spec.scaled (aDst m c) oneW (aWc1 m c) (kX1 m c) (Cert.Spec.srcRow (aSrc m c) e) j) i k := by
  have h : (W5 (F := Ideal) m c (Proc.devRef .tc main_v36) : S50000x128.Idx → EReal)
      = aggTerm (W4 m c (Proc.devRef .tc main_v26_1)) (W4 m c (Proc.devRef .tc main_v1)) (W4 m c (Proc.devRef .tc main_v3)) := by
    show StableHlo.after hostOps2 _ (Proc.devRef .tc main_v36) = _
    after_results_simp <;> rfl
  exact (congrFun h (ix2 i k)).trans (aggTerm_eq _ _ _ _ _ _ (W4_v1 m c) (W4_v3 m c) (W4_v26_1 m c) i k)

/-- The first layer's bias row. -/
theorem W5_v37 (o : Fin 128) : W5 (F := Ideal) m c (Proc.devRef .tc main_v37) (ix2 0 o) = abc1 m c o := by
  have h : (W5 (F := Ideal) m c (Proc.devRef .tc main_v37) : S1x128.Idx → EReal)
      = shapeCast S1x128 (W4 m c (Proc.devRef .tc main_arg10)) shapeCasts_S128_S1x128 := by
    show StableHlo.after hostOps2 _ (Proc.devRef .tc main_v37) = _
    after_results_simp <;> rfl
  exact (congrFun h (ix2 0 o)).trans ((asRow_apply _ _ o).trans (congrFun (W4_main_arg10 m c) (ix1 o)))

/-! ## The first convolution: region 2 -/

/-- The layer the region computes from its entry contents is the specification's first convolution layer. -/
theorem x2Of_V5 : x2Of (V5 (F := Ideal) m) c = kX2 m c := by
  have eD : tDinv2 (V5 (F := Ideal) m) c = Cert.Spec.dinv (aDst m c) oneW := funext fun r => W5_v23 m c r
  have eA : tAggRaw1 (V5 (F := Ideal) m) c = Cert.Spec.segRows (aDst m c)
      (fun e j => Cert.Spec.scaled (aDst m c) oneW (aWc1 m c) (kX1 m c) (Cert.Spec.srcRow (aSrc m c) e) j) :=
    funext fun r => funext fun k => W5_v36 m c r k
  have eX : tXws1 (V5 (F := Ideal) m) c = Cert.Spec.scaled (aDst m c) oneW (aWc1 m c) (kX1 m c) :=
    funext fun r => funext fun k => (congrFun (W5_keep m c main_v26_1 (by decide)) (ix2 r k)).trans (W4_v26_1 m c r k)
  have eB : tBc1 (V5 (F := Ideal) m) c = abc1 m c := funext fun k => W5_v37 m c k
  unfold x2Of
  rw [eD, eA, eX, eB]
  rfl

/-- The first convolution layer's array when region 2 ends. -/
theorem W6_v38_0 (i : Fin 50000) (j : Fin 128) : W6 (F := Ideal) m c (Proc.devRef .tc main_v38_0) (ix2 i j) = kX2 m c i j :=
  (congrFun (W6_arr m c 5) (ix2 i j)).trans ((final2_5 (V5 (F := Ideal) m) c i j).trans (congrFun (congrFun (x2Of_V5 m c) i) j))

/-- The second scaled projection's array when region 2 ends. -/
theorem W6_v38_1 (i : Fin 50000) (j : Fin 128) :
    W6 (F := Ideal) m c (Proc.devRef .tc main_v38_1) (ix2 i j) = Cert.Spec.scaled (aDst m c) oneW (aWc2 m c) (kX2 m c) i j := by
  refine (congrFun (W6_arr m c 6) (ix2 i j)).trans ((final2_6 (V5 (F := Ideal) m) c i j).trans ?_)
  have eW : (fun (k o : Fin 128) => V5 (F := Ideal) m c main_arg11 (ix2 k o)) = aWc2 m c :=
    funext fun k => funext fun o => congrFun (W5_main_arg11 m c) (ix2 k o)
  have eD : tDinv2 (V5 (F := Ideal) m) c = Cert.Spec.dinv (aDst m c) oneW := funext fun r => W5_v23 m c r
  rw [eW, x2Of_V5, eD]
  rfl

end Cert.KernelIdeal.Hand

end
-- ==== Proof.KI.Value3.lean ====
/-
  Region 3: what the output array holds when the region ends, at the exact reals, as a whole-array function of the
  contents the region is entered from.

  The body's one store writes, at each entry of a 2000-row block, the row's inverse square-root degree times the sum of
  the aggregated and the scaled-projection entries, plus the bias row's entry, rectified.  Block `t` of every row window
  and of the degree column sits at rows 2000·t … 2000·t + 1999, the bias row is one block, and the 25 blocks written
  back tile the 50000 rows; so the array ends at the layer's rows, entry by entry.
-/
import proofs.«146766_j74998718923374_2_alg».proof.Proof.KI.RegDefs
import proofs.«146766_j74998718923374_2_alg».proof.Proof.Spec
import proofs.«146766_j74998718923374_2_alg».proof.Proof.LibPlainMatmul
import proofs.«146766_j74998718923374_2_alg».proof.Proof.LibColumn
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

/-- The region's operand arrays as tables: the aggregated rows, the scaled projection, the inverse square-root degree
    column, the bias row. -/
def tAggRaw2 (c : Dev nD) : Cert.Spec.Mat 50000 128 := fun r k => V c main_v48 (ix2 r k)
def tXws2 (c : Dev nD) : Cert.Spec.Mat 50000 128 := fun r k => V c main_v38_1 (ix2 r k)
def tDinv3 (c : Dev nD) : Cert.Spec.Vect 50000 := fun r => V c main_v23 (ix2 r 0)
def tBc2 (c : Dev nD) : Cert.Spec.Vect 128 := fun k => V c main_v49 (ix2 0 k)

/-- The second convolution layer's rows, of the entry contents. -/
def x3Of (c : Dev nD) : Cert.Spec.Mat 50000 128 := fun r k =>
  max (tDinv3 V c r * (tAggRaw2 V c r k + tXws2 V c r k) + tBc2 V c k) 0

theorem zeros2_r3 : (![0, 0] : Fin 2 → Nat) = fun _ => 0 := funext fun a => by fin_cases a <;> rfl

/-! ## The body's payload at an entry -/

/-- The layer's payload at an entry: the degree column's entry of the row times the sum of the aggregated and the
    scaled-projection entries, plus the bias row's entry, rectified (the casts to the same shape are the identity; the
    column and the row are spread over the block; the zero word is zero). -/
theorem pay3_apply (v0 : Vec Ideal S2000x1 .f32) (v2 v4 : Vec Ideal S2000x128 .f32) (v9 : Vec Ideal S1x128 .f32) (p : Fin 2000) (q : Fin 128) :
    (k3_pay1 v0 v2 v4 v9 (ix2 p q) : EReal)
      = max ((v0 (ix2 p 0) : EReal) * ((v2 (ix2 p q) : EReal) + (v4 (ix2 p q) : EReal)) + (v9 (ix2 0 q) : EReal)) 0 := by
  unfold k3_pay1
  rw [maximumf_apply, broadcast_apply, addf_apply, mulf_apply, Cert.LibColumn.broadcastTo_a1_ab_apply, addf_apply,
    broadcastTo_1b_ab_apply]
  simp only [shapeCast_self]
  show max _ (Ideal.ofBits .f32 0x00000000#32) = _
  rw [Ideal.ofBits_zero_f32]

/-- The payload at a block entry is the layer at an array entry, once the blocks' entries the payload reads are the
    arrays' entries at that entry's row and column. -/
theorem pay3_eq_layer (v0 : Vec Ideal S2000x1 .f32) (v2 v4 : Vec Ideal S2000x128 .f32) (v9 : Vec Ideal S1x128 .f32)
    (A0 A1 : S50000x128.Idx → EReal) (A2 : S50000x1.Idx → EReal) (A3 : S1x128.Idx → EReal)
    (p : Fin 2000) (q : Fin 128) (r : Fin 50000) (o : Fin 128)
    (h0 : (v2 (ix2 p q) : EReal) = A0 (ix2 r o)) (h1 : (v4 (ix2 p q) : EReal) = A1 (ix2 r o))
    (h2 : (v0 (ix2 p 0) : EReal) = A2 (ix2 r 0)) (h3 : (v9 (ix2 0 q) : EReal) = A3 (ix2 0 o)) :
    (k3_pay1 v0 v2 v4 v9 (ix2 p q) : EReal) = max (A2 (ix2 r 0) * (A0 (ix2 r o) + A1 (ix2 r o)) + A3 (ix2 0 o)) 0 := by
  rw [pay3_apply, h0, h1, h2, h3]

/-! ## From blocks to the array -/

/-- The layer's array as one function of the region's entry contents. -/
def layer3 (c : Dev nD) : S50000x128.Idx → EReal := fun i => x3Of V c (i 0) (i 1)

/-- The printed index maps, decided over the grid: the row windows and the degree column are at block `t` of the
    rows, the bias row at its one block. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of `layer3`. -/
theorem flushed3_eq (c : Dev nD) (t : Fin cfg3.N) :
    (dat3 V c).flushed 4 t = ((cfg3.win 4).blk t).view.read (Elt Ideal) (layer3 V c) := by
  show (cfg3.win 4).cut (grid3.coords t) ((dat3 V c).after 4 t) = _
  rw [after3_4]
  unfold out3_4
  rw [View.canon_unit_zero zeros2_r3]
  simp only [View.ld_unit_zero (S := S2000x128) zeros2_r3, View.ld_unit_zero (S := S2000x1) zeros2_r3, View.ld_unit_zero (S := S1x128) zeros2_r3]
  obtain ⟨e0, e1, e2, e3, e4, e5, e6, e7, e8, e9⟩ := idx_facts3 t
  unfold layer3 x3Of tDinv3 tAggRaw2 tXws2 tBc2
  refine funext fun (y : S2000x128.Idx) => ?_
  obtain ⟨p, q, rfl⟩ : ∃ (p : Fin 2000) (q : Fin 128), y = ix2 p q := ⟨y 0, y 1, eq_ix2 (n0 := 2000) (n1 := 128) y⟩
  refine pay3_eq_layer _ _ _ _ (V c main_v48) (V c main_v38_1) (V c main_v23) (V c main_v49) p q
    (((cfg3.win 4).blk t).view.emb (ix2 p q) 0) (((cfg3.win 4).blk t).view.emb (ix2 p q) 1) ?_ ?_ ?_ ?_
  · show V c main_v48 (((cfg3.win 0).blk t).view.emb (ix2 p q)) = V c main_v48 _
    congr 1; funext a; apply Fin.ext
    match a with
    | ⟨0, _⟩ => show win3_0.index t (0 : Fin 2) * 2000 + 1 * p.val = win3_4.index t (0 : Fin 2) * 2000 + 1 * p.val; omega
    | ⟨1, _⟩ => show win3_0.index t (1 : Fin 2) * 128 + 1 * q.val = win3_4.index t (1 : Fin 2) * 128 + 1 * q.val; omega
  · show V c main_v38_1 (((cfg3.win 1).blk t).view.emb (ix2 p q)) = V c main_v38_1 _
    congr 1; funext a; apply Fin.ext
    match a with
    | ⟨0, _⟩ => show win3_1.index t (0 : Fin 2) * 2000 + 1 * p.val = win3_4.index t (0 : Fin 2) * 2000 + 1 * p.val; omega
    | ⟨1, _⟩ => show win3_1.index t (1 : Fin 2) * 128 + 1 * q.val = win3_4.index t (1 : Fin 2) * 128 + 1 * q.val; omega
  · show V c main_v23 (((cfg3.win 2).blk t).view.emb (ix2 p 0)) = V c main_v23 _
    congr 1; funext a; apply Fin.ext
    match a with
    | ⟨0, _⟩ => show win3_2.index t (0 : Fin 2) * 2000 + 1 * p.val = win3_4.index t (0 : Fin 2) * 2000 + 1 * p.val; omega
    | ⟨1, _⟩ => show win3_2.index t (1 : Fin 2) * 1 + 1 * 0 = 0; omega
  · show V c main_v49 (((cfg3.win 3).blk t).view.emb (ix2 0 q)) = V c main_v49 _
    congr 1; funext a; apply Fin.ext
    match a with
    | ⟨0, _⟩ => show win3_3.index t (0 : Fin 2) * 1 + 1 * 0 = 0; omega
    | ⟨1, _⟩ => show win3_3.index t (1 : Fin 2) * 128 + 1 * q.val = win3_4.index t (1 : Fin 2) * 128 + 1 * q.val; omega

/-- An index of the array is in point `t`'s block iff each coordinate is in the block's range on its axis. -/
theorem mem_blk3 (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v50).slice (win3_4.rect t)).set ↔ _
  rw [View.set_slice_whole, Rect.mem_set_unit]
  exact Iff.rfl

/-- Every row of the array is in some point's block: row `r` in point `r / 2000`'s. -/
theorem cover3 (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, e8, e9⟩ := idx_facts3 t
  refine ⟨t, flush3_4 t, ?_⟩
  rw [mem_blk3]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- The layer's array when the region ends, entry by entry. -/
theorem final3_4 (c : Dev nD) (i : Fin 50000) (j : Fin 128) :
    (dat3 (F := Ideal) V c).arrAt 4 cfg3.N (ix2 i j) = x3Of V c i j :=
  congrFun ((dat3 V c).arrAt_eq_of_cover 4 (layer3 V c) (fun t _ => flushed3_eq V c t) (cover3)) (ix2 i j)

end Cert.KernelIdeal.Hand

end
-- ==== Proof.KI.Chain.lean ====
/-
  The second degree-normalised graph convolution of the kernel program, read as values over the extended reals, and
  the three layers' arrays at the boundary before the last host stretch.

  On the host the second scaled projection's rows are aggregated over the edges into every node and the layer's bias
  vector is re-laid as one row; the kernel region then finishes the layer row by row — the inverse square-root degree
  times the sum of the aggregated and the node's own scaled row, plus the bias, rectified.  Read at an entry, the
  region's output is the specification's second convolution layer in the kernel's arrangement.  No later item writes
  the perceptron's array or the first convolution layer's array, so all three layers' arrays hold the specification's
  layers where the pooling reads them.
-/
import proofs.«146766_j74998718923374_2_alg».proof.Proof.KI.ChainLib
import proofs.«146766_j74998718923374_2_alg».proof.Proof.KI.Chain2
import proofs.«146766_j74998718923374_2_alg».proof.Proof.KI.Args
import proofs.«146766_j74998718923374_2_alg».proof.Proof.KI.Value3

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ) (c : Dev nD)

theorem W6_main_arg12 : W6 (F := Ideal) m c (Proc.devRef .tc main_arg12) = m ((c : Thread nD τ).loc main_arg12) :=
  (W6_keep m c main_arg12 (by decide)).trans <| (W5_keep m c main_arg12 (by decide)).trans <| (W4_keep m c main_arg12 (by decide)).trans <| (W3_keep m c main_arg12 (by decide)).trans <| (W2_keep m c main_arg12 (by decide)).trans <| (W1_keep m c main_arg12 (by decide)).trans <| rfl
theorem W7_v23 (i : Fin 50000) : W7 (F := Ideal) m c (Proc.devRef .tc main_v23) (ix2 i 0) = Cert.Spec.dinv (aDst m c) oneW i :=
  (congrFun ((W7_keep m c main_v23 (by decide))) (ix2 i 0)).trans (W6_v23 m c i)

/-! ## The second convolution: the host stretch before region 3 -/

/-- The second scaled projection aggregated over the edges into each node. -/
theorem W7_v48 (i : Fin 50000) (k : Fin 128) :
    W7 (F := Ideal) m c (Proc.devRef .tc main_v48) (ix2 i k)
      = Cert.Spec.segRows (aDst m c) (fun e j => Cert.Spec.scaled (aDst m c) oneW (aWc2 m c) (kX2 m c) (Cert.Spec.srcRow (aSrc m c) e) j) i k := by
  have h : (W7 (F := Ideal) m c (Proc.devRef .tc main_v48) : S50000x128.Idx → EReal)
      = aggTerm (W6 m c (Proc.devRef .tc main_v38_1)) (W6 m c (Proc.devRef .tc main_v1)) (W6 m c (Proc.devRef .tc main_v3)) := by
    show StableHlo.after hostOps3 _ (Proc.devRef .tc main_v48) = _
    after_results_simp <;> rfl
  exact (congrFun h (ix2 i k)).trans (aggTerm_eq _ _ _ _ _ _ (W6_v1 m c) (W6_v3 m c) (W6_v38_1 m c) i k)

/-- The second layer's bias row. -/
theorem W7_v49 (o : Fin 128) : W7 (F := Ideal) m c (Proc.devRef .tc main_v49) (ix2 0 o) = abc2 m c o := by
  have h : (W7 (F := Ideal) m c (Proc.devRef .tc main_v49) : S1x128.Idx → EReal)
      = shapeCast S1x128 (W6 m c (Proc.devRef .tc main_arg12)) shapeCasts_S128_S1x128 := by
    show StableHlo.after hostOps3 _ (Proc.devRef .tc main_v49) = _
    after_results_simp <;> rfl
  exact (congrFun h (ix2 0 o)).trans ((asRow_apply _ _ o).trans (congrFun (W6_main_arg12 m c) (ix1 o)))

/-! ## The second convolution: region 3 -/

/-- The layer the region computes from its entry contents is the specification's second convolution layer. -/
theorem x3Of_V7 : x3Of (V7 (F := Ideal) m) c = kX3 m c := by
  have eD : tDinv3 (V7 (F := Ideal) m) c = Cert.Spec.dinv (aDst m c) oneW := funext fun r => W7_v23 m c r
  have eA : tAggRaw2 (V7 (F := Ideal) m) c = Cert.Spec.segRows (aDst m c)
      (fun e j => Cert.Spec.scaled (aDst m c) oneW (aWc2 m c) (kX2 m c) (Cert.Spec.srcRow (aSrc m c) e) j) :=
    funext fun r => funext fun k => W7_v48 m c r k
  have eX : tXws2 (V7 (F := Ideal) m) c = Cert.Spec.scaled (aDst m c) oneW (aWc2 m c) (kX2 m c) :=
    funext fun r => funext fun k => (congrFun (W7_keep m c main_v38_1 (by decide)) (ix2 r k)).trans (W6_v38_1 m c r k)
  have eB : tBc2 (V7 (F := Ideal) m) c = abc2 m c := funext fun k => W7_v49 m c k
  unfold x3Of
  rw [eD, eA, eX, eB]
  rfl

/-! ## The three layers' arrays at the boundary before the last host stretch -/

/-- The perceptron's array is not written after region 1. -/
theorem W8_x1 (i : Fin 50000) (j : Fin 128) : W8 (F := Ideal) m c (Proc.devRef .tc main_v26_0) (ix2 i j) = kX1 m c i j :=
  (congrFun ((W8_keep m c main_v26_0 (by decide)).trans <| (W7_keep m c main_v26_0 (by decide))) (ix2 i j)).trans (W6_v26_0 m c i j)

/-- The first convolution layer's array is not written after region 2. -/
theorem W8_x2 (i : Fin 50000) (j : Fin 128) : W8 (F := Ideal) m c (Proc.devRef .tc main_v38_0) (ix2 i j) = kX2 m c i j :=
  (congrFun ((W8_keep m c main_v38_0 (by decide)).trans <| (W7_keep m c main_v38_0 (by decide))) (ix2 i j)).trans (W6_v38_0 m c i j)

/-- The second convolution layer's array when region 3 ends. -/
theorem W8_x3 (i : Fin 50000) (j : Fin 128) : W8 (F := Ideal) m c (Proc.devRef .tc main_v50) (ix2 i j) = kX3 m c i j :=
  (congrFun (W8_arr m c 4) (ix2 i j)).trans ((final3_4 (V7 (F := Ideal) m) c i j).trans (congrFun (congrFun (x3Of_V7 m c) i) j))

end Cert.KernelIdeal.Hand

end
-- ==== Proof.KI.Value4.lean ====
/-
  Region 4: what the output array holds when the region ends, at the exact reals, as a whole-array function of the
  contents the region is entered from.

  The region is one point over whole arrays.  The body's one store writes, at each entry, the projection head: the
  pooled features through a dense layer, the rectifier, a second dense layer, and each row divided by the larger of
  its Euclidean norm and the floor word.  Every window's one block is its whole array, so the array ends at the head
  of the entry contents, entry by entry.
-/
import proofs.«146766_j74998718923374_2_alg».proof.Proof.KI.RegDefs
import proofs.«146766_j74998718923374_2_alg».proof.Proof.Spec
import proofs.«146766_j74998718923374_2_alg».proof.Proof.LibPlainMatmul
import proofs.«146766_j74998718923374_2_alg».proof.Proof.LibColumn
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

variable (V : (c : Dev nD) → (b : Ref sig .tc) → Buf (Elt Ideal) ((c : Thread nD τ).loc b))

theorem zeros2_r4 : (![0, 0] : Fin 2 → Nat) = fun _ => 0 := funext fun a => by fin_cases a <;> rfl

/-! ## The body's payload at an entry -/

/-- A dense layer of the body at an entry: the operands narrowed to bf16 (the identity at the exact reals), multiplied
    into the zero accumulator, and the bias row — cast to its own shape and spread over the rows — added. -/
theorem headDense1_apply (v0 : FVec Ideal S512x384 .f32) (v3 : FVec Ideal S384x128 .f32) (v6 : FVec Ideal S1x128 .f32)
    (hc0 : S512x384.ShapeCasts S512x384) (hb : (FTy.bf16).bits < (FTy.f32).bits) (hc : S1x128.ShapeCasts S1x128)
    (hbr : S1x128.Broadcasts S512x128) (p : Fin 512) (k : Fin 128) :
    (addf (matmul dot_S512x384_S384x128_S512x128_1_0_0_1_n_n none (truncf .bf16 (shapeCast S512x384 v0 hc0) hb) (truncf .bf16 v3 hb)
        (constant S512x128 .f32 0x00000000#32)) (broadcastTo S512x128 (shapeCast S1x128 v6 hc) hbr)) (ix2 p k)
      = Cert.Spec.dense (fun k o => v3 (ix2 k o)) (fun o => v6 (ix2 0 o)) (fun r k => v0 (ix2 r k)) p k := by
  rw [addf_apply, broadcastTo_1b_ab_apply, shapeCast_self, shapeCast_self,
    Cert.LibPlainMatmul.matmul_zero_ix2 dot_S512x384_S384x128_S512x128_1_0_0_1_n_n none rfl rfl
      (fun _ _ => rfl) (fun _ _ => rfl) (fun _ _ => rfl) (fun _ _ => rfl)]
  rfl

/-- The second dense layer of the body at an entry, in the same spelling, over any hidden rows `H`. -/
theorem headDense2_apply (H : FVec Ideal S512x128 .f32) (v13 : FVec Ideal S128x128 .f32) (v16 : FVec Ideal S1x128 .f32)
    (hb : (FTy.bf16).bits < (FTy.f32).bits) (hc : S1x128.ShapeCasts S1x128)
    (hbr : S1x128.Broadcasts S512x128) (p : Fin 512) (q : Fin 128) :
    (addf (matmul dot_S512x128_S128x128_S512x128_1_0_0_1_n_n none (truncf .bf16 H hb) (truncf .bf16 v13 hb)
        (constant S512x128 .f32 0x00000000#32)) (broadcastTo S512x128 (shapeCast S1x128 v16 hc) hbr)) (ix2 p q)
      = Cert.Spec.dense (fun k o => v13 (ix2 k o)) (fun o => v16 (ix2 0 o)) (fun r k => H (ix2 r k)) p q := by
  rw [addf_apply, broadcastTo_1b_ab_apply, shapeCast_self,
    Cert.LibPlainMatmul.matmul_zero_ix2 dot_S512x128_S128x128_S512x128_1_0_0_1_n_n none rfl rfl
      (fun _ _ => rfl) (fun _ _ => rfl) (fun _ _ => rfl) (fun _ _ => rfl)]
  rfl

/-- The rectifier against the zero splat, at an entry. -/
theorem headRelu_apply (X : FVec Ideal S512x128 .f32) (p : Fin 512) (k : Fin 128) :
    maximumf X (broadcast S512x128 (Scalar.ofBits (F := Ideal) .f32 0x00000000#32)) (ix2 p k) = max (X (ix2 p k)) 0 := by
  rw [maximumf_apply, broadcast_apply]
  show max _ (Ideal.ofBits .f32 0x00000000#32) = _
  rw [Ideal.ofBits_zero_f32]

/-- The sum along a row from the zero word, at a row. -/
theorem headRowsum_apply (X : FVec Ideal S512x128 .f32) (h : S512x128.Reduces [1] S512) (hφ : FKind.Formats .f32)
    (hacc : (0x00000000#32 : BitVec 32) = 0x00000000#32) (p : Fin 512) :
    multiReduction .add [1] S512 X 0x00000000#32 h hφ hacc (ix1 p) = ∑ k : Fin 128, X (ix2 p k) := by
  refine (Ideal.multiReduction_add_single X 0x00000000#32 h hφ hacc (ix1 p)).trans ?_
  refine Finset.sum_congr rfl fun k _ => congrArg X (funext fun a => Fin.ext ?_)
  match a with
  | ⟨0, _⟩ => rfl
  | ⟨1, _⟩ => rfl

/-- The head's payload at an entry: the two dense layers (the first rectified), each row divided by the larger of its
    Euclidean norm and the floor word. -/
theorem pay4_apply (v0 : Vec Ideal S512x384 .f32) (v3 : Vec Ideal S384x128 .f32) (v6 : Vec Ideal S1x128 .f32)
    (v13 : Vec Ideal S128x128 .f32) (v16 : Vec Ideal S1x128 .f32) (p : Fin 512) (q : Fin 128) :
    (k4_pay1 v0 v3 v6 v13 v16 (ix2 p q) : EReal)
      = Cert.Spec.head (fun k o => v3 (ix2 k o)) (fun o => v6 (ix2 0 o)) (fun k o => v13 (ix2 k o)) (fun o => v16 (ix2 0 o))
          (Ideal.ofBits .f32 0x2B8CBCCC#32) (fun g k => v0 (ix2 g k)) p q := by
  unfold k4_pay1
  rw [divf_apply, Cert.LibColumn.broadcastTo_a1_ab_apply, maximumf_apply, broadcast_apply]
  show Ideal.div _ (max (Ideal.sqrt (shapeCast S512x1 _ _ (ix2 p (0 : Fin 1)))) (Ideal.ofBits .f32 0x2B8CBCCC#32)) = _
  rw [Cert.LibColumn.shapeCast_a_a1_apply, headRowsum_apply]
  simp only [mulf_apply, headDense2_apply, headRelu_apply, headDense1_apply]
  rfl

/-- The payload over whole arrays: when each loaded block is its array, the payload's entry is the head's. -/
theorem pay4_eq_head (v0 : Vec Ideal S512x384 .f32) (v3 : Vec Ideal S384x128 .f32) (v6 : Vec Ideal S1x128 .f32)
    (v13 : Vec Ideal S128x128 .f32) (v16 : Vec Ideal S1x128 .f32)
    (A0 : S512x384.Idx → EReal) (A1 : S384x128.Idx → EReal) (A2 : S1x128.Idx → EReal) (A3 : S128x128.Idx → EReal) (A4 : S1x128.Idx → EReal)
    (h0 : v0 = A0) (h1 : v3 = A1) (h2 : v6 = A2) (h3 : v13 = A3) (h4 : v16 = A4) (p : Fin 512) (q : Fin 128) :
    (k4_pay1 v0 v3 v6 v13 v16 (ix2 p q) : EReal)
      = Cert.Spec.head (fun k o => A1 (ix2 k o)) (fun o => A2 (ix2 0 o)) (fun k o => A3 (ix2 k o)) (fun o => A4 (ix2 0 o))
          (Ideal.ofBits .f32 0x2B8CBCCC#32) (fun g k => A0 (ix2 g k)) p q := by
  subst h0 h1 h2 h3 h4
  exact pay4_apply _ _ _ _ _ p q

/-! ## From the one block to the array -/

/-- The normalised rows as one function of the region's entry contents. -/
def head4 (c : Dev nD) : S512x128.Idx → EReal := fun i =>
  Cert.Spec.head (fun k o => (V c main_arg13 : S384x128.Idx → EReal) (ix2 k o)) (fun o => (V c main_v70 : S1x128.Idx → EReal) (ix2 0 o))
    (fun k o => (V c main_arg15 : S128x128.Idx → EReal) (ix2 k o)) (fun o => (V c main_v71 : S1x128.Idx → EReal) (ix2 0 o))
    (Ideal.ofBits .f32 0x2B8CBCCC#32) (fun g k => (V c main_v69 : S512x384.Idx → EReal) (ix2 g k)) (i 0) (i 1)

/-- The printed index maps, decided over the grid's one point: every window is at its one block. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

set_option maxHeartbeats 1000000 in
/-- What the point writes back is its block — the whole — of `head4`. -/
theorem flushed4_eq (c : Dev nD) (t : Fin cfg4.N) :
    (dat4 V c).flushed 5 t = ((cfg4.win 5).blk t).view.read (Elt Ideal) (head4 V c) := by
  show (cfg4.win 5).cut (grid4.coords t) ((dat4 V c).after 5 t) = _
  rw [after4_5]
  unfold out4_5
  rw [View.canon_unit_zero zeros2_r4]
  simp only [View.ld_unit_zero (S := S512x384) zeros2_r4, View.ld_unit_zero (S := S384x128) zeros2_r4, View.ld_unit_zero (S := S1x128) zeros2_r4,
    View.ld_unit_zero (S := S128x128) zeros2_r4]
  obtain ⟨e0, e1, e2, e3, e4, e5, e6, e7, e8, e9, e10, e11⟩ := idx_facts4 t
  unfold head4
  refine funext fun (y : S512x128.Idx) => ?_
  obtain ⟨p, q, rfl⟩ : ∃ (p : Fin 512) (q : Fin 128), y = ix2 p q := ⟨y 0, y 1, eq_ix2 (n0 := 512) (n1 := 128) y⟩
  have hy : ((cfg4.win 5).blk t).view.emb (ix2 p q) = ix2 p q := by
    funext a; apply Fin.ext
    match a with
    | ⟨0, _⟩ => show win4_5.index t (0 : Fin 2) * 512 + 1 * p.val = p.val; omega
    | ⟨1, _⟩ => show win4_5.index t (1 : Fin 2) * 128 + 1 * q.val = q.val; omega
  show _ = Cert.Spec.head _ _ _ _ _ _ (((cfg4.win 5).blk t).view.emb (ix2 p q) 0) (((cfg4.win 5).blk t).view.emb (ix2 p q) 1)
  rw [hy]
  refine pay4_eq_head _ _ _ _ _ (V c main_v69) (V c main_arg13) (V c main_v70) (V c main_arg15) (V c main_v71) ?_ ?_ ?_ ?_ ?_ p q
  · refine funext fun (x : S512x384.Idx) => ?_
    show V c main_v69 (((cfg4.win 0).blk t).view.emb x) = V c main_v69 x
    congr 1; funext a; apply Fin.ext
    match a with
    | ⟨0, _⟩ => show win4_0.index t (0 : Fin 2) * 512 + 1 * (x 0).val = (x 0).val; omega
    | ⟨1, _⟩ => show win4_0.index t (1 : Fin 2) * 384 + 1 * (x 1).val = (x 1).val; omega
  · refine funext fun (x : S384x128.Idx) => ?_
    show V c main_arg13 (((cfg4.win 1).blk t).view.emb x) = V c main_arg13 x
    congr 1; funext a; apply Fin.ext
    match a with
    | ⟨0, _⟩ => show win4_1.index t (0 : Fin 2) * 384 + 1 * (x 0).val = (x 0).val; omega
    | ⟨1, _⟩ => show win4_1.index t (1 : Fin 2) * 128 + 1 * (x 1).val = (x 1).val; omega
  · refine funext fun (x : S1x128.Idx) => ?_
    show V c main_v70 (((cfg4.win 2).blk t).view.emb x) = V c main_v70 x
    congr 1; funext a; apply Fin.ext
    match a with
    | ⟨0, _⟩ => show win4_2.index t (0 : Fin 2) * 1 + 1 * (x 0).val = (x 0).val; omega
    | ⟨1, _⟩ => show win4_2.index t (1 : Fin 2) * 128 + 1 * (x 1).val = (x 1).val; omega
  · refine funext fun (x : S128x128.Idx) => ?_
    show V c main_arg15 (((cfg4.win 3).blk t).view.emb x) = V c main_arg15 x
    congr 1; funext a; apply Fin.ext
    match a with
    | ⟨0, _⟩ => show win4_3.index t (0 : Fin 2) * 128 + 1 * (x 0).val = (x 0).val; omega
    | ⟨1, _⟩ => show win4_3.index t (1 : Fin 2) * 128 + 1 * (x 1).val = (x 1).val; omega
  · refine funext fun (x : S1x128.Idx) => ?_
    show V c main_v71 (((cfg4.win 4).blk t).view.emb x) = V c main_v71 x
    congr 1; funext a; apply Fin.ext
    match a with
    | ⟨0, _⟩ => show win4_4.index t (0 : Fin 2) * 1 + 1 * (x 0).val = (x 0).val; omega
    | ⟨1, _⟩ => show win4_4.index t (1 : Fin 2) * 128 + 1 * (x 1).val = (x 1).val; omega

/-- An index of the array is in the point's block iff each coordinate is in the block's range on its axis. -/
theorem mem_blk4 (t : Fin cfg4.N) (i : S512x128.Idx) :
    i ∈ ((cfg4.win 5).blk t).view.set ↔ ∀ a : Fin 2, win4_5.index t a * S512x128.size a ≤ (i a).val ∧ (i a).val < win4_5.index t a * S512x128.size a + S512x128.size a := by
  show i ∈ ((View.whole main_v72).slice (win4_5.rect t)).set ↔ _
  rw [View.set_slice_whole, Rect.mem_set_unit]
  exact Iff.rfl

/-- Every index of the array is in the one point's block, which is the whole array. -/
theorem cover4 (i : S512x128.Idx) : ∃ t : Fin cfg4.N, (cfg4.win 5).flush t = true ∧ i ∈ ((cfg4.win 5).blk t).view.set := by
  have hi0 : (i 0).val < 512 := (i 0).isLt
  have hi1 : (i 1).val < 128 := (i 1).isLt
  obtain ⟨-, -, -, -, -, -, -, -, -, -, e10, e11⟩ := idx_facts4 t4_0
  refine ⟨t4_0, flush4_5 t4_0, ?_⟩
  rw [mem_blk4]
  intro a
  match a with
  | ⟨0, _⟩ => show win4_5.index t4_0 (0 : Fin 2) * 512 ≤ (i 0).val ∧ (i 0).val < win4_5.index t4_0 (0 : Fin 2) * 512 + 512; omega
  | ⟨1, _⟩ => show win4_5.index t4_0 (1 : Fin 2) * 128 ≤ (i 1).val ∧ (i 1).val < win4_5.index t4_0 (1 : Fin 2) * 128 + 128; omega

/-- The normalised rows when the region ends, entry by entry. -/
theorem final4_5 (c : Dev nD) (r : Fin 512) (o : Fin 128) :
    (dat4 (F := Ideal) V c).arrAt 5 cfg4.N (ix2 r o)
      = Cert.Spec.head (fun k o => V c main_arg13 (ix2 k o)) (fun o => V c main_v70 (ix2 0 o)) (fun k o => V c main_arg15 (ix2 k o))
          (fun o => V c main_v71 (ix2 0 o)) (Ideal.ofBits .f32 0x2B8CBCCC#32) (fun g k => V c main_v69 (ix2 g k)) r o :=
  congrFun ((dat4 V c).arrAt_eq_of_cover 5 (head4 V c) (fun t _ => flushed4_eq V c t) (cover4)) (ix2 r o)

end Cert.KernelIdeal.Hand

end
-- ==== Proof.LibConcatCols.lean ====
/-
  Matrices of one height laid side by side (a concatenation along the columns of rank-2 shapes), read at an entry.

  Entry (a, k) of the joined matrix is an entry of the piece whose column range holds k, in row a, at the column
  counted from that piece's first. Stated for three pieces and for two, general in the extents and the element type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- Three pieces: a column inside the first piece. -/
theorem join3_fst {A n1 n2 n3 n : ℕ} (x1 : (⟨2, ![A, n1]⟩ : Shape).Idx → α) (x2 : (⟨2, ![A, n2]⟩ : Shape).Idx → α)
    (x3 : (⟨2, ![A, n3]⟩ : Shape).Idx → α)
    (h : Shape.Concatenates [⟨2, ![A, n1]⟩, ⟨2, ![A, n2]⟩, ⟨2, ![A, n3]⟩] ⟨2, ![A, n]⟩ (1 : Fin 2))
    (a : Fin A) (k : Fin n) (k1 : Fin n1) (hk : k.val = k1.val) :
    concatenate ⟨2, ![A, n]⟩ 1 [⟨⟨2, ![A, n1]⟩, x1⟩, ⟨⟨2, ![A, n2]⟩, x2⟩, ⟨⟨2, ![A, n3]⟩, x3⟩] h (ix2 a k) = x1 (ix2 a k1) := by
  refine concatenate_apply_piece (t := ⟨2, ![A, n]⟩) (1 : Fin 2) ([⟨⟨2, ![A, n1]⟩, x1⟩, ⟨⟨2, ![A, n2]⟩, x2⟩, ⟨⟨2, ![A, n3]⟩, x3⟩] : List ((s : Shape) × (s.Idx → α))) h (ix2 a k) 0 (by simp) ⟨2, ![A, n1]⟩ x1 rfl rfl 0 rfl (ix2 a k1) ?_ ?_
  · intro b hb
    match b with
    | ⟨0, _⟩ => rfl
    | ⟨1, _⟩ => exact absurd rfl hb
  · show 0 + k1.val = k.val
    omega

/-- Three pieces: a column inside the second piece. -/
theorem join3_snd {A n1 n2 n3 n : ℕ} (x1 : (⟨2, ![A, n1]⟩ : Shape).Idx → α) (x2 : (⟨2, ![A, n2]⟩ : Shape).Idx → α)
    (x3 : (⟨2, ![A, n3]⟩ : Shape).Idx → α)
    (h : Shape.Concatenates [⟨2, ![A, n1]⟩, ⟨2, ![A, n2]⟩, ⟨2, ![A, n3]⟩] ⟨2, ![A, n]⟩ (1 : Fin 2))
    (a : Fin A) (k : Fin n) (k2 : Fin n2) (hk : k.val = n1 + k2.val) :
    concatenate ⟨2, ![A, n]⟩ 1 [⟨⟨2, ![A, n1]⟩, x1⟩, ⟨⟨2, ![A, n2]⟩, x2⟩, ⟨⟨2, ![A, n3]⟩, x3⟩] h (ix2 a k) = x2 (ix2 a k2) := by
  refine concatenate_apply_piece (t := ⟨2, ![A, n]⟩) (1 : Fin 2) ([⟨⟨2, ![A, n1]⟩, x1⟩, ⟨⟨2, ![A, n2]⟩, x2⟩, ⟨⟨2, ![A, n3]⟩, x3⟩] : List ((s : Shape) × (s.Idx → α))) h (ix2 a k) 1 (by simp) ⟨2, ![A, n2]⟩ x2 rfl rfl n1 ?_ (ix2 a k2) ?_ ?_
  · show (if h : (2 : ℕ) = 2 then n1 else 0) + 0 = n1
    rw [dif_pos rfl, Nat.add_zero]
  · intro b hb
    match b with
    | ⟨0, _⟩ => rfl
    | ⟨1, _⟩ => exact absurd rfl hb
  · show n1 + k2.val = k.val
    omega

/-- Three pieces: a column inside the third piece. -/
theorem join3_thd {A n1 n2 n3 n : ℕ} (x1 : (⟨2, ![A, n1]⟩ : Shape).Idx → α) (x2 : (⟨2, ![A, n2]⟩ : Shape).Idx → α)
    (x3 : (⟨2, ![A, n3]⟩ : Shape).Idx → α)
    (h : Shape.Concatenates [⟨2, ![A, n1]⟩, ⟨2, ![A, n2]⟩, ⟨2, ![A, n3]⟩] ⟨2, ![A, n]⟩ (1 : Fin 2))
    (a : Fin A) (k : Fin n) (k3 : Fin n3) (hk : k.val = n1 + n2 + k3.val) :
    concatenate ⟨2, ![A, n]⟩ 1 [⟨⟨2, ![A, n1]⟩, x1⟩, ⟨⟨2, ![A, n2]⟩, x2⟩, ⟨⟨2, ![A, n3]⟩, x3⟩] h (ix2 a k) = x3 (ix2 a k3) := by
  refine concatenate_apply_piece (t := ⟨2, ![A, n]⟩) (1 : Fin 2) ([⟨⟨2, ![A, n1]⟩, x1⟩, ⟨⟨2, ![A, n2]⟩, x2⟩, ⟨⟨2, ![A, n3]⟩, x3⟩] : List ((s : Shape) × (s.Idx → α))) h (ix2 a k) 2 (by simp) ⟨2, ![A, n3]⟩ x3 rfl rfl (n1 + n2) ?_ (ix2 a k3) ?_ ?_
  · show (if h : (2 : ℕ) = 2 then n1 else 0) + ((if h : (2 : ℕ) = 2 then n2 else 0) + 0) = n1 + n2
    rw [dif_pos rfl, dif_pos rfl, Nat.add_zero]
  · intro b hb
    match b with
    | ⟨0, _⟩ => rfl
    | ⟨1, _⟩ => exact absurd rfl hb
  · show n1 + n2 + k3.val = k.val
    omega

/-- Two pieces: a column inside the first piece. -/
theorem join2_fst {A n1 n2 n : ℕ} (x1 : (⟨2, ![A, n1]⟩ : Shape).Idx → α) (x2 : (⟨2, ![A, n2]⟩ : Shape).Idx → α)
    (h : Shape.Concatenates [⟨2, ![A, n1]⟩, ⟨2, ![A, n2]⟩] ⟨2, ![A, n]⟩ (1 : Fin 2))
    (a : Fin A) (k : Fin n) (k1 : Fin n1) (hk : k.val = k1.val) :
    concatenate ⟨2, ![A, n]⟩ 1 [⟨⟨2, ![A, n1]⟩, x1⟩, ⟨⟨2, ![A, n2]⟩, x2⟩] h (ix2 a k) = x1 (ix2 a k1) := by
  refine concatenate_apply_piece (t := ⟨2, ![A, n]⟩) (1 : Fin 2) ([⟨⟨2, ![A, n1]⟩, x1⟩, ⟨⟨2, ![A, n2]⟩, x2⟩] : List ((s : Shape) × (s.Idx → α))) h (ix2 a k) 0 (by simp) ⟨2, ![A, n1]⟩ x1 rfl rfl 0 rfl (ix2 a k1) ?_ ?_
  · intro b hb
    match b with
    | ⟨0, _⟩ => rfl
    | ⟨1, _⟩ => exact absurd rfl hb
  · show 0 + k1.val = k.val
    omega

/-- Two pieces: a column inside the second piece. -/
theorem join2_snd {A n1 n2 n : ℕ} (x1 : (⟨2, ![A, n1]⟩ : Shape).Idx → α) (x2 : (⟨2, ![A, n2]⟩ : Shape).Idx → α)
    (h : Shape.Concatenates [⟨2, ![A, n1]⟩, ⟨2, ![A, n2]⟩] ⟨2, ![A, n]⟩ (1 : Fin 2))
    (a : Fin A) (k : Fin n) (k2 : Fin n2) (hk : k.val = n1 + k2.val) :
    concatenate ⟨2, ![A, n]⟩ 1 [⟨⟨2, ![A, n1]⟩, x1⟩, ⟨⟨2, ![A, n2]⟩, x2⟩] h (ix2 a k) = x2 (ix2 a k2) := by
  refine concatenate_apply_piece (t := ⟨2, ![A, n]⟩) (1 : Fin 2) ([⟨⟨2, ![A, n1]⟩, x1⟩, ⟨⟨2, ![A, n2]⟩, x2⟩] : List ((s : Shape) × (s.Idx → α))) h (ix2 a k) 1 (by simp) ⟨2, ![A, n2]⟩ x2 rfl rfl n1 ?_ (ix2 a k2) ?_ ?_
  · show (if h : (2 : ℕ) = 2 then n1 else 0) + 0 = n1
    rw [dif_pos rfl, Nat.add_zero]
  · intro b hb
    match b with
    | ⟨0, _⟩ => rfl
    | ⟨1, _⟩ => exact absurd rfl hb
  · show n1 + k2.val = k.val
    omega

end Cert.LibConcatCols

end
-- ==== Proof.KI.Pool.lean ====
/-
  The last stretch of host operations and the projection head: the kernel program's result.

  The three layers' node features are summed graph by graph (an accumulating scatter of the rows at the column of
  graph words into a zero table), the per-graph node counts likewise (ones scattered into a zero vector) and clamped
  below by one; the three pooled blocks are laid side by side and divided by the counts, and the projection head with
  its row-wise normalisation is applied.  Read at an entry, the divided features are the specification's pooled
  features, and the head's output is the specification's result for the kernel's arrangement.
-/
import proofs.«146766_j74998718923374_2_alg».proof.Proof.KI.Args
import proofs.«146766_j74998718923374_2_alg».proof.Proof.KI.Keep
import proofs.«146766_j74998718923374_2_alg».proof.Proof.KI.Value4
import proofs.«146766_j74998718923374_2_alg».proof.Proof.LibScatterSum
import proofs.«146766_j74998718923374_2_alg».proof.Proof.LibBroadcastIn
import proofs.«146766_j74998718923374_2_alg».proof.Proof.LibConcatCols
import Idealize.ShloMosaic.Lib.StableHlo.Run
import Idealize.ShloMosaic.Lib.Pipeline.Frame
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

/-! ## An operation of three operands, read with each operand at its own reference -/

section Three

variable {Val : EltTy → Type} {x a b y : Ref sig .tc}

/-- The result of an operation over a literal family of three references, with each operand's contents at its own
    reference (so that the operands' own contents can be read further). -/
theorem nary3_result
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

end Three

open Idealize.ShloMosaic.StableHlo in
/-- Reads a buffer's contents after a literal list of host operations: each operation's result at its own buffer is its
    function of its operands' contents, at any other buffer what was there. -/
macro "read_stretch" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (m : (ℓ : Loc nD τ sig) → Buf (Elt Ideal) ℓ) (c : Dev nD)

/-! ## The stretch's buffers as terms over the contents it starts from -/

/-- The zero table and the column of graph words the rows are scattered at. -/
abbrev poolZeros : FVec Ideal S512x128 .f32 := broadcastInDim S512x128 ![] bcast_S_S512x128 (constant (F := Ideal) S_ .f32 0x00000000#32)
abbrev poolWords : IVec S50000x1 32 := broadcastInDim S50000x1 ![0] bcast_S50000_S50000x1_0 (W8 (F := Ideal) m c (Proc.devRef .tc main_arg2))

/-- The three layers' rows, each scattered into the zero table at the graph words. -/
theorem W9_v54 : W9 (F := Ideal) m c (Proc.devRef .tc main_v54)
    = Host.scatterAdd (F := Ideal) (φ := .f32) scatter_S512x128_S50000x1_S50000x128_1_0_0_1 poolZeros (poolWords m c) (W8 (F := Ideal) m c (Proc.devRef .tc main_v26_0)) := by
  show StableHlo.after hostOps4 (W8 m c) _ = _
  after_results_simp

theorem W9_v57 : W9 (F := Ideal) m c (Proc.devRef .tc main_v57)
    = Host.scatterAdd (F := Ideal) (φ := .f32) scatter_S512x128_S50000x1_S50000x128_1_0_0_1 poolZeros (poolWords m c) (W8 (F := Ideal) m c (Proc.devRef .tc main_v38_0)) := by
  show StableHlo.after hostOps4 (W8 m c) _ = _
  after_results_simp

theorem W9_v60 : W9 (F := Ideal) m c (Proc.devRef .tc main_v60)
    = Host.scatterAdd (F := Ideal) (φ := .f32) scatter_S512x128_S50000x1_S50000x128_1_0_0_1 poolZeros (poolWords m c) (W8 (F := Ideal) m c (Proc.devRef .tc main_v50)) := by
  show StableHlo.after hostOps4 (W8 m c) _ = _
  after_results_simp

/-- The clamped counts as a column. -/
theorem W9_v66 : W9 (F := Ideal) m c (Proc.devRef .tc main_v66)
    = broadcastInDim S512x1 ![0] bcast_S512_S512x1_0
        (maximumf (Host.scatterAdd (F := Ideal) (φ := .f32) scatter_S512_S50000x1_S50000_n_0_0_1
            (broadcastInDim S512 ![] bcast_S_S512 (constant (F := Ideal) S_ .f32 0x00000000#32)) (poolWords m c)
            (broadcastInDim S50000 ![] bcast_S_S50000 (constant (F := Ideal) S_ .f32 0x3F800000#32)))
          (broadcastInDim S512 ![] bcast_S_S512 (constant (F := Ideal) S_ .f32 0x3F800000#32))) := by
  show StableHlo.after hostOps4 (W8 m c) _ = _
  after_results_simp

/-- The head's two bias rows: the bias vectors re-laid as one row. -/
theorem W9_v70 : W9 (F := Ideal) m c (Proc.devRef .tc main_v70)
    = shapeCast S1x128 (W8 (F := Ideal) m c (Proc.devRef .tc main_arg14)) shapeCasts_S128_S1x128 := by
  show StableHlo.after hostOps4 (W8 m c) _ = _
  after_results_simp
  rfl

theorem W9_v71 : W9 (F := Ideal) m c (Proc.devRef .tc main_v71)
    = shapeCast S1x128 (W8 (F := Ideal) m c (Proc.devRef .tc main_arg16)) shapeCasts_S128_S1x128 := by
  show StableHlo.after hostOps4 (W8 m c) _ = _
  after_results_simp
  rfl

/-! ## The last five operations, over the contents just before the concatenation -/

/-- The buffers' contents just before the concatenation. -/
def poolMid : Valuation τ sig (Elt Ideal) := StableHlo.after ((hostOps4 : List (HloOp τ sig (Elt Ideal))).take 22) (W8 m c)

theorem W9_eq_tail : W9 (F := Ideal) m c = StableHlo.after ((hostOps4 : List (HloOp τ sig (Elt Ideal))).drop 22) (poolMid m c) := by
  show StableHlo.after hostOps4 (W8 m c) = _
  conv_lhs => rw [← List.take_append_drop 22 (hostOps4 : List (HloOp τ sig (Elt Ideal)))]
  rw [StableHlo.after_append]
  rfl

/-- Nothing after the cut writes a pooled block or the count column. -/
theorem W9_v54_mid : W9 (F := Ideal) m c (Proc.devRef .tc main_v54) = poolMid m c (Proc.devRef .tc main_v54) := by
  rw [W9_eq_tail]; show StableHlo.after [_, _, _, _, _] (poolMid m c) _ = _; read_stretch
theorem W9_v57_mid : W9 (F := Ideal) m c (Proc.devRef .tc main_v57) = poolMid m c (Proc.devRef .tc main_v57) := by
  rw [W9_eq_tail]; show StableHlo.after [_, _, _, _, _] (poolMid m c) _ = _; read_stretch
theorem W9_v60_mid : W9 (F := Ideal) m c (Proc.devRef .tc main_v60) = poolMid m c (Proc.devRef .tc main_v60) := by
  rw [W9_eq_tail]; show StableHlo.after [_, _, _, _, _] (poolMid m c) _ = _; read_stretch
theorem W9_v66_mid : W9 (F := Ideal) m c (Proc.devRef .tc main_v66) = poolMid m c (Proc.devRef .tc main_v66) := by
  rw [W9_eq_tail]; show StableHlo.after [_, _, _, _, _] (poolMid m c) _ = _; read_stretch

/-- The divided features: the three pooled blocks side by side, over the counts spread along the columns. -/
theorem W9_v69 : W9 (F := Ideal) m c (Proc.devRef .tc main_v69)
    = Host.divf (F := Ideal) (φ := .f32)
        (concatenate S512x384 1 [⟨S512x128, W9 (F := Ideal) m c (Proc.devRef .tc main_v54)⟩,
            ⟨S512x128, W9 (F := Ideal) m c (Proc.devRef .tc main_v57)⟩, ⟨S512x128, W9 (F := Ideal) m c (Proc.devRef .tc main_v60)⟩]
          concatenates_S512x128_S512x128_S512x128_S512x384_d1)
        (broadcastInDim S512x384 ![0, 1] bcast_S512x1_S512x384_0_1 (W9 (F := Ideal) m c (Proc.devRef .tc main_v66))) := by
  rw [W9_v54_mid, W9_v57_mid, W9_v60_mid, W9_v66_mid, W9_eq_tail]
  show StableHlo.after [_, _, _, _, _] (poolMid m c) _ = _
  read_stretch
  rfl

/-! ## The pooled blocks and the counts at an entry -/

/-- The zero table holds zero everywhere. -/
theorem poolZeros_apply (g : Fin 512) (k : Fin 128) : poolZeros (ix2 g k) = (0 : EReal) := by
  unfold poolZeros
  rw [Cert.LibBroadcastIn.scalar_apply]
  exact Ideal.ofBits_zero_f32

/-- The column of graph words holds, in row `n`, node `n`'s graph word. -/
theorem poolWords_apply (n : Fin 50000) : poolWords m c (ix2 n 0) = aBat m c n := by
  unfold poolWords
  rw [Cert.LibBroadcastIn.col_apply, W8_main_arg2]
  rfl

/-- A layer's rows scattered into the zero table at the graph words: each graph's entry is the sum of its nodes' entries. -/
theorem poolRows_w9_apply (X : FVec Ideal S50000x128 .f32) (g : Fin 512) (k : Fin 128) :
    Host.scatterAdd (F := Ideal) (φ := .f32) scatter_S512x128_S50000x1_S50000x128_1_0_0_1 poolZeros (poolWords m c) X (ix2 g k)
      = Cert.Spec.poolRows (aBat m c) (fun n j => X (ix2 n j)) g k := by
  unfold Host.scatterAdd
  rw [Ideal.hostScatterAdd_def]
  refine (Cert.LibScatterSum.rowScatterAdd_apply (N := 512) (D := 128) (R := 50000) scatter_S512x128_S50000x1_S50000x128_1_0_0_1.wf
    poolZeros (poolWords m c) X g k).trans ?_
  rw [poolZeros_apply, zero_add]
  unfold Cert.Spec.poolRows
  refine Finset.sum_congr rfl fun n _ => ?_
  rw [poolWords_apply]

/-- The clamped counts at a graph: the number of its nodes, at least one. -/
theorem poolCount_w9_apply (g : Fin 512) :
    maximumf (Host.scatterAdd (F := Ideal) (φ := .f32) scatter_S512_S50000x1_S50000_n_0_0_1
        (broadcastInDim S512 ![] bcast_S_S512 (constant (F := Ideal) S_ .f32 0x00000000#32)) (poolWords m c)
        (broadcastInDim S50000 ![] bcast_S_S50000 (constant (F := Ideal) S_ .f32 0x3F800000#32)))
      (broadcastInDim S512 ![] bcast_S_S512 (constant (F := Ideal) S_ .f32 0x3F800000#32)) (ix1 g)
      = Cert.Spec.cnt (aBat m c) oneW g := by
  have hz : (constant (F := Ideal) S_ .f32 0x00000000#32 ix0 : EReal) = 0 := Ideal.ofBits_zero_f32
  have ho : (constant (F := Ideal) S_ .f32 0x3F800000#32 ix0 : EReal) = oneW := rfl
  rw [maximumf_apply]
  unfold Host.scatterAdd
  rw [Ideal.hostScatterAdd_def, Cert.LibBroadcastIn.scalar_apply bcast_S_S512 _ (ix1 g), ho]
  refine (congrArg (fun s => max s oneW)
    (Cert.LibScatterSum.entryScatterAdd_apply (N := 512) (R := 50000) scatter_S512_S50000x1_S50000_n_0_0_1.wf
      (broadcastInDim S512 ![] bcast_S_S512 (constant (F := Ideal) S_ .f32 0x00000000#32)) (poolWords m c)
      (broadcastInDim S50000 ![] bcast_S_S50000 (constant (F := Ideal) S_ .f32 0x3F800000#32)) g)).trans ?_
  rw [Cert.LibBroadcastIn.scalar_apply bcast_S_S512 _ (ix1 g), hz, zero_add]
  unfold Cert.Spec.cnt
  refine congrArg (fun s => max s oneW) (Finset.sum_congr rfl fun n _ => ?_)
  rw [poolWords_apply, Cert.LibBroadcastIn.scalar_apply bcast_S_S50000 _ (ix1 n), ho]

/-! ## The divided features and the bias rows that the head is entered with -/

/-- The host's division at an entry is the division of the entries. -/
theorem hostDivf_apply_pool (x y : FVec Ideal S512x384 .f32) (i : S512x384.Idx) :
    Host.divf (F := Ideal) (φ := .f32) x y i = Ideal.div (x i) (y i) := rfl

section Layers

variable (hx1 : ∀ i j, W8 (F := Ideal) m c (Proc.devRef .tc main_v26_0) (ix2 i j) = kX1 m c i j)
  (hx2 : ∀ i j, W8 (F := Ideal) m c (Proc.devRef .tc main_v38_0) (ix2 i j) = kX2 m c i j)
  (hx3 : ∀ i j, W8 (F := Ideal) m c (Proc.devRef .tc main_v50) (ix2 i j) = kX3 m c i j)

include hx1 in
theorem W9_pool1 (g : Fin 512) (k : Fin 128) :
    W9 (F := Ideal) m c (Proc.devRef .tc main_v54) (ix2 g k) = Cert.Spec.poolRows (aBat m c) (kX1 m c) g k := by
  rw [W9_v54, poolRows_w9_apply]
  exact congrArg (fun X => Cert.Spec.poolRows (aBat m c) X g k) (funext fun n => funext fun j => hx1 n j)

include hx2 in
theorem W9_pool2 (g : Fin 512) (k : Fin 128) :
    W9 (F := Ideal) m c (Proc.devRef .tc main_v57) (ix2 g k) = Cert.Spec.poolRows (aBat m c) (kX2 m c) g k := by
  rw [W9_v57, poolRows_w9_apply]
  exact congrArg (fun X => Cert.Spec.poolRows (aBat m c) X g k) (funext fun n => funext fun j => hx2 n j)

include hx3 in
theorem W9_pool3 (g : Fin 512) (k : Fin 128) :
    W9 (F := Ideal) m c (Proc.devRef .tc main_v60) (ix2 g k) = Cert.Spec.poolRows (aBat m c) (kX3 m c) g k := by
  rw [W9_v60, poolRows_w9_apply]
  exact congrArg (fun X => Cert.Spec.poolRows (aBat m c) X g k) (funext fun n => funext fun j => hx3 n j)

include hx1 hx2 hx3 in
/-- The features the head is entered with: the three pooled blocks side by side, divided by the clamped counts. -/
theorem W9_feat (g : Fin 512) (k : Fin 384) :
    W9 (F := Ideal) m c (Proc.devRef .tc main_v69) (ix2 g k)
      = Ideal.div (Cert.Spec.cat3 (Cert.Spec.poolRows (aBat m c) (kX1 m c)) (Cert.Spec.poolRows (aBat m c) (kX2 m c))
          (Cert.Spec.poolRows (aBat m c) (kX3 m c)) g k) (Cert.Spec.cnt (aBat m c) oneW g) := by
  rw [W9_v69, hostDivf_apply_pool, Cert.LibBroadcastIn.rows_apply, W9_v66, Cert.LibBroadcastIn.col_apply, poolCount_w9_apply]
  refine congrArg (fun s => Ideal.div s _) ?_
  unfold Cert.Spec.cat3
  by_cases h1 : k.val < 128
  · rw [dif_pos h1, Cert.LibConcatCols.join3_fst _ _ _ _ g k ⟨k.val, h1⟩ rfl]
    exact W9_pool1 m c hx1 g _
  · rw [dif_neg h1]
    by_cases h2 : k.val < 256
    · rw [dif_pos h2, Cert.LibConcatCols.join3_snd _ _ _ _ g k ⟨k.val - 128, by omega⟩ (by show k.val = 128 + (k.val - 128); omega)]
      exact W9_pool2 m c hx2 g _
    · rw [dif_neg h2, Cert.LibConcatCols.join3_thd _ _ _ _ g k ⟨k.val - 256, by have := k.isLt; omega⟩
        (by show k.val = 128 + 128 + (k.val - 256); omega)]
      exact W9_pool3 m c hx3 g _

end Layers

/-- The head's first bias row is the first bias vector. -/
theorem W9_b70 (o : Fin 128) : W9 (F := Ideal) m c (Proc.devRef .tc main_v70) (ix2 0 o) = abp1 m c o := by
  rw [W9_v70, shapeCast_a_1a_apply, W8_main_arg14]
  rfl

/-- The head's second bias row is the second bias vector. -/
theorem W9_b71 (o : Fin 128) : W9 (F := Ideal) m c (Proc.devRef .tc main_v71) (ix2 0 o) = abp2 m c o := by
  rw [W9_v71, shapeCast_a_1a_apply, W8_main_arg16]
  rfl

/-! ## The result -/

section Result

variable (hx1 : ∀ i j, W8 (F := Ideal) m c (Proc.devRef .tc main_v26_0) (ix2 i j) = kX1 m c i j)
  (hx2 : ∀ i j, W8 (F := Ideal) m c (Proc.devRef .tc main_v38_0) (ix2 i j) = kX2 m c i j)
  (hx3 : ∀ i j, W8 (F := Ideal) m c (Proc.devRef .tc main_v50) (ix2 i j) = kX3 m c i j)

include hx1 hx2 hx3 in
/-- The result array at the return is the specification's result in the kernel's arrangement. -/
theorem W10_result (r : Fin 512) (o : Fin 128) :
    W10 (F := Ideal) m c (Proc.devRef .tc main_v72) (ix2 r o)
      = Cert.Spec.kernelResult (aX m c) (aSrc m c) (aDst m c) (aBat m c) (aWin m c) (abin m c) (aWg1 m c) (abg1 m c)
          (aWg2 m c) (abg2 m c) (aWc1 m c) (abc1 m c) (aWc2 m c) (abc2 m c) (aWp1 m c) (abp1 m c) (aWp2 m c) (abp2 m c)
          oneW epsW r o := by
  have harr : W10 (F := Ideal) m c (Proc.devRef .tc main_v72) = (dat4 (F := Ideal) (V9 m) c).arrAt 5 cfg4.N := W10_arr m c 5
  rw [harr, final4_5 (V9 m) c r o]
  have e13 : (fun k o => V9 (F := Ideal) m c main_arg13 (ix2 k o)) = aWp1 m c := funext fun k => funext fun o => by
    show W9 (F := Ideal) m c (Proc.devRef .tc main_arg13) (ix2 k o) = _
    rw [W9_keep m c main_arg13 (by decide), W8_main_arg13]; rfl
  have e15 : (fun k o => V9 (F := Ideal) m c main_arg15 (ix2 k o)) = aWp2 m c := funext fun k => funext fun o => by
    show W9 (F := Ideal) m c (Proc.devRef .tc main_arg15) (ix2 k o) = _
    rw [W9_keep m c main_arg15 (by decide), W8_main_arg15]; rfl
  have e70 : (fun o => V9 (F := Ideal) m c main_v70 (ix2 0 o)) = abp1 m c := funext fun o => W9_b70 m c o
  have e71 : (fun o => V9 (F := Ideal) m c main_v71 (ix2 0 o)) = abp2 m c := funext fun o => W9_b71 m c o
  have e69 : (fun g k => V9 (F := Ideal) m c main_v69 (ix2 g k))
      = fun g k => Ideal.div (Cert.Spec.cat3 (Cert.Spec.poolRows (aBat m c) (kX1 m c)) (Cert.Spec.poolRows (aBat m c) (kX2 m c))
          (Cert.Spec.poolRows (aBat m c) (kX3 m c)) g k) (Cert.Spec.cnt (aBat m c) oneW g) :=
    funext fun g => funext fun k => W9_feat m c hx1 hx2 hx3 g k
  rw [e13, e15, e70, e71, e69]
  rfl

end Result

end Cert.KernelIdeal.Hand

end
-- ==== Proof.LibBiasRow.lean ====
/-
  A bias row added to every row of a matrix, read at an entry.

  A kernel body adds a bias by casting the length-N vector to a 1×N matrix and broadcasting it over the M rows; the
  host adds it by two broadcasts in dimension, first to 1×N and then to M×N. Either way entry (p, c) of the result
  is entry c of the vector. Both lemmas are general in the extents and the element type.
-/
import Idealize.ShloMosaic.Lib.ValueLayout
import proofs.«146766_j74998718923374_2_alg».proof.Proof.LibBroadcastIn

noncomputable section

namespace Cert.LibBiasRow

open Idealize.ShloMosaic Idealize.ShloMosaic.ValueIdx

variable {α : Type}

/-- The kernel's spelling: a vector cast to one row and broadcast over the rows reads the vector at the column. -/
theorem cast_broadcast_apply {M N : ℕ} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ b hc) hb (ix2 p c) = b (ix1 c) :=
  (broadcastTo_1b_ab_apply _ hb p c).trans (shapeCast_a_1a_apply b hc 0 c)

/-- The host's spelling: a vector made one row and that row tiled over the rows reads the vector at the column. -/
theorem row_tile_apply {M N : ℕ} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (p : Fin M) (c : Fin N) :
    broadcastInDim ⟨2, ![M, N]⟩ ![0, 1] h2 (broadcastInDim ⟨2, ![1, N]⟩ ![1] h1 b) (ix2 p c) = b (ix1 c) :=
  (Cert.LibBroadcastIn.tile_apply h2 _ p c).trans (Cert.LibBroadcastIn.row1_apply h1 b 0 c)

end Cert.LibBiasRow

end
-- ==== Proof.LibPlainDot.lean ====
/-
  The host's plain matrix product, read at an entry.

  For a `dot_general` whose dimension numbers contract the left operand's columns against the right operand's
  rows, with no batch axis — `[M, K] × [K, N] → [M, N]` — the product on the host is, at the extended reals, the
  textbook sum: entry `(p, c)` is the sum over `k` of `lhs (p, k) · rhs (k, c)`. As for a kernel's product into a
  zero accumulator, the dimension numbers enter only through four coordinate facts about the dot's operand indices
  and the fact that exactly one axis, of extent `K`, is contracted; the lemma is general in the extents, the element
  types and the contraction precision.
-/
import Idealize.ShloMosaic.PureOps.Ideal.Laws
import Idealize.ShloMosaic.Lib.ValueIdx

noncomputable section

namespace Cert.LibPlainDot

open Idealize.ShloMosaic Idealize.ShloMosaic.ValueIdx
open scoped BigOperators

/-- Entry `(p, c)` of the host's `lhs · rhs` is `Σ k, lhs (p, k) · rhs (k, c)`: the dot's sum over its one-axis
    contraction index, re-indexed along the bijection of that index with `Fin K`, each operand index then identified
    by its two coordinates. -/
theorem dotGeneral_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    Host.dotGeneral D prec lhs rhs (ix2 p c) = ∑ k : Fin K, lhs (ix2 p k) * rhs (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.RefValue.Basic.lean ====
/-
  The reference's index words, index columns and constant arrays, read at an index.

  The edge array has two rows, the source words and the destination words; the program slices each row off, reshapes
  it to a vector, wraps negative words by adding the node count, and makes each vector a one-column matrix before it
  is used as an index column. Each of these values, read at an edge, is a word of the edge array or its wrap; the
  constant arrays read, everywhere, their literal.
-/
import proofs.«146766_j74998718923374_2_alg».proof.Proof.Gen.ReferenceIdeal.Read
import proofs.«146766_j74998718923374_2_alg».proof.Proof.Spec
import proofs.«146766_j74998718923374_2_alg».proof.Proof.LibIndexRows
import proofs.«146766_j74998718923374_2_alg».proof.Proof.LibScatterSum
import proofs.«146766_j74998718923374_2_alg».proof.Proof.LibBroadcastIn
import proofs.«146766_j74998718923374_2_alg».proof.Proof.LibBiasRow
import proofs.«146766_j74998718923374_2_alg».proof.Proof.LibConcatCols
import proofs.«146766_j74998718923374_2_alg».proof.Proof.LibPlainDot

noncomputable section

namespace Cert.Proof.RefValue

open Cert.ReferenceIdeal Cert.ReferenceIdeal.Gen Cert.ReferenceIdeal.Read Idealize.ShloMosaic Idealize.ShloMosaic.ValueIdx
open scoped BigOperators

/-! ## Reading helpers -/

/-- A matrix argument read by its two coordinates. -/
abbrev mat {a b : ℕ} (x : (⟨2, ![a, b]⟩ : Shape).Idx → EReal) : Cert.Spec.Mat a b := fun i k => x (ix2 i k)
/-- A vector argument read by its one coordinate. -/
abbrev vec {a : ℕ} (x : (⟨1, ![a]⟩ : Shape).Idx → EReal) : Cert.Spec.Vect a := fun k => x (ix1 k)
/-- The program's literal 1.0 and its literal ε, kept as words. -/
abbrev oneW : EReal := Ideal.ofBits .f32 0x3F800000#32
abbrev epsW : EReal := Ideal.ofBits .f32 0x2B8CBCCC#32

variable (a1 : (⟨S2x600000, .i32⟩ : BufTy).Contents (Elt Ideal)) (a2 : (⟨S50000, .i32⟩ : BufTy).Contents (Elt Ideal))

/-- The source word, the destination word of an edge (rows 0 and 1 of the edge array) and the graph word of a node. -/
abbrev srcW : Fin 600000 → BitVec 32 := fun e => a1 (ix2 0 e)
abbrev dstW : Fin 600000 → BitVec 32 := fun e => a1 (ix2 1 e)
abbrev batW : Fin 50000 → BitVec 32 := fun n => a2 (ix1 n)

/-! ## The two rows of the edge array (a slice, then a reshape) -/

theorem v1_at (e : Fin 600000) : val_main_v1 (F := Ideal) a1 (ix1 e) = a1 (ix2 0 e) := by
  rw [val_main_v1_apply, val_main_v0_apply]
  exact congrArg a1 (funext fun a => Fin.ext (by
    match a with
    | ⟨0, _⟩ => rfl
    | ⟨1, _⟩ => exact Nat.mod_eq_of_lt e.isLt))

theorem v3_at (e : Fin 600000) : val_main_v3 (F := Ideal) a1 (ix1 e) = a1 (ix2 1 e) := by
  rw [val_main_v3_apply, val_main_v2_apply]
  exact congrArg a1 (funext fun a => Fin.ext (by
    match a with
    | ⟨0, _⟩ => rfl
    | ⟨1, _⟩ => exact Nat.mod_eq_of_lt e.isLt))

/-! ## The wrapped words: 50000 added to a negative word (each use of the wrap is its own copy in the program) -/

theorem v12_at (e : Fin 600000) : val_main_v12 (F := Ideal) a1 (ix1 e) = Cert.Spec.wrapIx (a1 (ix2 0 e)) := by
  rw [val_main_v12_apply, val_main_v9_apply, val_main_v11_apply, v1_at]
  rfl

theorem v40_at (e : Fin 600000) : val_main_v40 (F := Ideal) a1 (ix1 e) = Cert.Spec.wrapIx (a1 (ix2 0 e)) := by
  rw [val_main_v40_apply, val_main_v37_apply, val_main_v39_apply, v1_at]
  rfl

theorem v47_at (e : Fin 600000) : val_main_v47 (F := Ideal) a1 (ix1 e) = Cert.Spec.wrapIx (a1 (ix2 1 e)) := by
  rw [val_main_v47_apply, val_main_v44_apply, val_main_v46_apply, v3_at]
  rfl

theorem v55_at (e : Fin 600000) : val_main_v55 (F := Ideal) a1 (ix1 e) = Cert.Spec.wrapIx (a1 (ix2 0 e)) := by
  rw [val_main_v55_apply, val_main_v52_apply, val_main_v54_apply, v1_at]
  rfl

theorem v85_at (e : Fin 600000) : val_main_v85 (F := Ideal) a1 (ix1 e) = Cert.Spec.wrapIx (a1 (ix2 0 e)) := by
  rw [val_main_v85_apply, val_main_v82_apply, val_main_v84_apply, v1_at]
  rfl

theorem v92_at (e : Fin 600000) : val_main_v92 (F := Ideal) a1 (ix1 e) = Cert.Spec.wrapIx (a1 (ix2 1 e)) := by
  rw [val_main_v92_apply, val_main_v89_apply, val_main_v91_apply, v3_at]
  rfl

theorem v100_at (e : Fin 600000) : val_main_v100 (F := Ideal) a1 (ix1 e) = Cert.Spec.wrapIx (a1 (ix2 0 e)) := by
  rw [val_main_v100_apply, val_main_v97_apply, val_main_v99_apply, v1_at]
  rfl

/-! ## The index columns: a word vector made a one-column matrix -/

theorem v13_at (e : Fin 600000) : val_main_v13 (F := Ideal) a1 (ix2 e 0) = Cert.Spec.wrapIx (a1 (ix2 0 e)) := by
  unfold val_main_v13
  exact (Cert.LibBroadcastIn.col_apply _ _ e 0).trans (v12_at a1 e)

theorem v41_at (e : Fin 600000) : val_main_v41 (F := Ideal) a1 (ix2 e 0) = Cert.Spec.wrapIx (a1 (ix2 0 e)) := by
  unfold val_main_v41
  exact (Cert.LibBroadcastIn.col_apply _ _ e 0).trans (v40_at a1 e)

theorem v56_at (e : Fin 600000) : val_main_v56 (F := Ideal) a1 (ix2 e 0) = Cert.Spec.wrapIx (a1 (ix2 0 e)) := by
  unfold val_main_v56
  exact (Cert.LibBroadcastIn.col_apply _ _ e 0).trans (v55_at a1 e)

theorem v86_at (e : Fin 600000) : val_main_v86 (F := Ideal) a1 (ix2 e 0) = Cert.Spec.wrapIx (a1 (ix2 0 e)) := by
  unfold val_main_v86
  exact (Cert.LibBroadcastIn.col_apply _ _ e 0).trans (v85_at a1 e)

theorem v101_at (e : Fin 600000) : val_main_v101 (F := Ideal) a1 (ix2 e 0) = Cert.Spec.wrapIx (a1 (ix2 0 e)) := by
  unfold val_main_v101
  exact (Cert.LibBroadcastIn.col_apply _ _ e 0).trans (v100_at a1 e)

theorem v48_at (e : Fin 600000) : val_main_v48 (F := Ideal) a1 (ix2 e 0) = Cert.Spec.wrapIx (a1 (ix2 1 e)) := by
  unfold val_main_v48
  exact (Cert.LibBroadcastIn.col_apply _ _ e 0).trans (v47_at a1 e)

theorem v93_at (e : Fin 600000) : val_main_v93 (F := Ideal) a1 (ix2 e 0) = Cert.Spec.wrapIx (a1 (ix2 1 e)) := by
  unfold val_main_v93
  exact (Cert.LibBroadcastIn.col_apply _ _ e 0).trans (v92_at a1 e)

theorem v16_at (e : Fin 600000) : val_main_v16 (F := Ideal) a1 (ix2 e 0) = a1 (ix2 1 e) := by
  unfold val_main_v16
  exact (Cert.LibBroadcastIn.col_apply _ _ e 0).trans (v3_at a1 e)

theorem v31_at (e : Fin 600000) : val_main_v31 (F := Ideal) a1 (ix2 e 0) = a1 (ix2 1 e) := by
  unfold val_main_v31
  exact (Cert.LibBroadcastIn.col_apply _ _ e 0).trans (v3_at a1 e)

theorem v62_at (e : Fin 600000) : val_main_v62 (F := Ideal) a1 (ix2 e 0) = a1 (ix2 1 e) := by
  unfold val_main_v62
  exact (Cert.LibBroadcastIn.col_apply _ _ e 0).trans (v3_at a1 e)

theorem v76_at (e : Fin 600000) : val_main_v76 (F := Ideal) a1 (ix2 e 0) = a1 (ix2 1 e) := by
  unfold val_main_v76
  exact (Cert.LibBroadcastIn.col_apply _ _ e 0).trans (v3_at a1 e)

theorem v107_at (e : Fin 600000) : val_main_v107 (F := Ideal) a1 (ix2 e 0) = a1 (ix2 1 e) := by
  unfold val_main_v107
  exact (Cert.LibBroadcastIn.col_apply _ _ e 0).trans (v3_at a1 e)

theorem v120_at (n : Fin 50000) : val_main_v120 (F := Ideal) a2 (ix2 n 0) = a2 (ix1 n) := by
  unfold val_main_v120
  exact Cert.LibBroadcastIn.col_apply _ _ n 0

theorem v124_at (n : Fin 50000) : val_main_v124 (F := Ideal) a2 (ix2 n 0) = a2 (ix1 n) := by
  unfold val_main_v124
  exact Cert.LibBroadcastIn.col_apply _ _ n 0

/-! ## The constant arrays: zeros, ones, ε -/

theorem v15_zero (j : S50000x128.Idx) : val_main_v15 (F := Ideal) j = 0 := by
  unfold val_main_v15
  exact (Cert.LibBroadcastIn.scalar_apply _ _ j).trans Ideal.ofBits_zero_f32

theorem call0_v0_zero (j : S50000x128.Idx) : val_main_call0_v0 (F := Ideal) j = 0 := by
  unfold val_main_call0_v0
  exact (Cert.LibBroadcastIn.scalar_apply _ _ j).trans Ideal.ofBits_zero_f32

theorem v61_zero (j : S50000x128.Idx) : val_main_v61 (F := Ideal) j = 0 := by
  unfold val_main_v61
  exact (Cert.LibBroadcastIn.scalar_apply _ _ j).trans Ideal.ofBits_zero_f32

theorem call1_v0_zero (j : S50000x128.Idx) : val_main_call1_v0 (F := Ideal) j = 0 := by
  unfold val_main_call1_v0
  exact (Cert.LibBroadcastIn.scalar_apply _ _ j).trans Ideal.ofBits_zero_f32

theorem v106_zero (j : S50000x128.Idx) : val_main_v106 (F := Ideal) j = 0 := by
  unfold val_main_v106
  exact (Cert.LibBroadcastIn.scalar_apply _ _ j).trans Ideal.ofBits_zero_f32

theorem call2_v0_zero (j : S50000x128.Idx) : val_main_call2_v0 (F := Ideal) j = 0 := by
  unfold val_main_call2_v0
  exact (Cert.LibBroadcastIn.scalar_apply _ _ j).trans Ideal.ofBits_zero_f32

theorem v30_zero (j : S50000.Idx) : val_main_v30 (F := Ideal) j = 0 := by
  unfold val_main_v30
  exact (Cert.LibBroadcastIn.scalar_apply _ _ j).trans Ideal.ofBits_zero_f32

theorem v75_zero (j : S50000.Idx) : val_main_v75 (F := Ideal) j = 0 := by
  unfold val_main_v75
  exact (Cert.LibBroadcastIn.scalar_apply _ _ j).trans Ideal.ofBits_zero_f32

theorem v119_zero (j : S512x384.Idx) : val_main_v119 (F := Ideal) j = 0 := by
  unfold val_main_v119
  exact (Cert.LibBroadcastIn.scalar_apply _ _ j).trans Ideal.ofBits_zero_f32

theorem v123_zero (j : S512.Idx) : val_main_v123 (F := Ideal) j = 0 := by
  unfold val_main_v123
  exact (Cert.LibBroadcastIn.scalar_apply _ _ j).trans Ideal.ofBits_zero_f32

theorem call3_v0_zero (j : S512x128.Idx) : val_main_call3_v0 (F := Ideal) j = 0 := by
  unfold val_main_call3_v0
  exact (Cert.LibBroadcastIn.scalar_apply _ _ j).trans Ideal.ofBits_zero_f32

theorem v29_const (j : S600000.Idx) : val_main_v29 (F := Ideal) j = oneW := by
  unfold val_main_v29
  exact Cert.LibBroadcastIn.scalar_apply _ _ j

theorem v74_const (j : S600000.Idx) : val_main_v74 (F := Ideal) j = oneW := by
  unfold val_main_v74
  exact Cert.LibBroadcastIn.scalar_apply _ _ j

theorem v33_const (j : S50000.Idx) : val_main_v33 (F := Ideal) j = oneW := by
  unfold val_main_v33
  exact Cert.LibBroadcastIn.scalar_apply _ _ j

theorem v78_const (j : S50000.Idx) : val_main_v78 (F := Ideal) j = oneW := by
  unfold val_main_v78
  exact Cert.LibBroadcastIn.scalar_apply _ _ j

theorem v122_const (j : S50000.Idx) : val_main_v122 (F := Ideal) j = oneW := by
  unfold val_main_v122
  exact Cert.LibBroadcastIn.scalar_apply _ _ j

theorem v126_const (j : S512.Idx) : val_main_v126 (F := Ideal) j = oneW := by
  unfold val_main_v126
  exact Cert.LibBroadcastIn.scalar_apply _ _ j

theorem v141_const (j : S512x1.Idx) : val_main_v141 (F := Ideal) j = epsW := by
  unfold val_main_v141
  exact Cert.LibBroadcastIn.scalar_apply _ _ j

end Cert.Proof.RefValue

end
-- ==== Proof.RefValue.Scatter.lean ====
/-
  The host's accumulating scatter at a column of row indices, at the extended reals, read at one entry: the entry of
  the operand plus the sum, over the update rows, of the updates whose index word names the entry's row. Stated for a
  record given as equal to the row-scatter (or entry-scatter) record, so that a program's own record is passed with
  `rfl`.
-/
import proofs.«146766_j74998718923374_2_alg».proof.Proof.LibScatterSum
import Idealize.ShloMosaic.PureOps.Ideal.Laws

noncomputable section

namespace Cert.Proof.RefValue

open Idealize.ShloMosaic Idealize.ShloMosaic.ValueIdx
open scoped BigOperators

/-- Rows added into a matrix at a column of row indices: the program's record is the row-scatter record, and the
    host's accumulating scatter at the extended reals is the exact sum. -/
theorem rowScatter_at {N D R : ℕ} (d : ScatterDims ⟨2, ![N, D]⟩ ⟨2, ![R, 1]⟩ ⟨2, ![R, D]⟩)
    (wf : ScatterDims.WF ⟨2, ![N, D]⟩ ⟨2, ![R, 1]⟩ ⟨2, ![R, D]⟩ [1] [0] [0] 1)
    (hd : d = Cert.LibIndexRows.rowScatterDims N D R wf)
    (x : FVec Ideal ⟨2, ![N, D]⟩ .f32) (idx : IVec ⟨2, ![R, 1]⟩ 32) (upd : FVec Ideal ⟨2, ![R, D]⟩ .f32) (i : Fin N) (c : Fin D) :
    Host.scatterAdd (F := Ideal) (φ := .f32) d x idx upd (ix2 i c)
      = x (ix2 i c) + ∑ e : Fin R, if (idx (ix2 e 0)).toInt = (i.val : ℤ) then upd (ix2 e c) else 0 := by
  have h := Cert.LibScatterSum.rowScatterAdd_apply (N := N) (D := D) (R := R) wf x idx upd i c
  rw [← hd] at h
  simp only [Host.scatterAdd, Ideal.hostScatterAdd_def]
  exact h

/-- Entries added into a vector at a column of indices. -/
theorem entryScatter_at {N R : ℕ} (d : ScatterDims ⟨1, ![N]⟩ ⟨2, ![R, 1]⟩ ⟨1, ![R]⟩)
    (wf : ScatterDims.WF ⟨1, ![N]⟩ ⟨2, ![R, 1]⟩ ⟨1, ![R]⟩ [] [0] [0] 1)
    (hd : d = Cert.LibIndexRows.entryScatterDims N R wf)
    (x : FVec Ideal ⟨1, ![N]⟩ .f32) (idx : IVec ⟨2, ![R, 1]⟩ 32) (upd : FVec Ideal ⟨1, ![R]⟩ .f32) (i : Fin N) :
    Host.scatterAdd (F := Ideal) (φ := .f32) d x idx upd (ix1 i)
      = x (ix1 i) + ∑ e : Fin R, if (idx (ix2 e 0)).toInt = (i.val : ℤ) then upd (ix1 e) else 0 := by
  have h := Cert.LibScatterSum.entryScatterAdd_apply (N := N) (R := R) wf x idx upd i
  rw [← hd] at h
  simp only [Host.scatterAdd, Ideal.hostScatterAdd_def]
  exact h

end Cert.Proof.RefValue

end
-- ==== Proof.RefValue.Gin.lean ====
/-
  The reference's first layer, read at an index: the input projection, the sum aggregation over the edges into a
  node (a gather of whole rows at the wrapped source words, then an accumulating scatter at the destination words
  into zeros) and the two-layer perceptron with its rectifier.
-/
import proofs.«146766_j74998718923374_2_alg».proof.Proof.RefValue.Basic
import proofs.«146766_j74998718923374_2_alg».proof.Proof.RefValue.Scatter

noncomputable section

namespace Cert.Proof.RefValue

open Cert.ReferenceIdeal Cert.ReferenceIdeal.Gen Cert.ReferenceIdeal.Read Idealize.ShloMosaic Idealize.ShloMosaic.ValueIdx
open scoped BigOperators

variable (a0 : (⟨S50000x128, .f32⟩ : BufTy).Contents (Elt Ideal)) (a1 : (⟨S2x600000, .i32⟩ : BufTy).Contents (Elt Ideal)) (a3 : (⟨S128x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal))

/-! ## The input projection h = x·W_in + b_in -/

/-- The projected node features, as the specification writes them. -/
abbrev sH : Cert.Spec.Mat 50000 128 := Cert.Spec.dense (mat a3) (vec a4) (mat a0)

theorem v4_dot (i : Fin 50000) (j : Fin 128) :
    val_main_v4 (F := Ideal) a0 a3 (ix2 i j) = ∑ k : Fin 128, a0 (ix2 i k) * a3 (ix2 k j) := by
  rw [val_main_v4_apply]
  refine Finset.sum_congr rfl fun k _ => ?_
  have el : lidx_main_v4 (ix2 i j) k = ix2 i k := funext fun a => by match a with | ⟨0, _⟩ => rfl | ⟨1, _⟩ => rfl
  have er : ridx_main_v4 (ix2 i j) k = ix2 k j := funext fun a => by match a with | ⟨0, _⟩ => rfl | ⟨1, _⟩ => rfl
  rw [el, er]

theorem v6_bias (i : Fin 50000) (j : Fin 128) : val_main_v6 (F := Ideal) a4 (ix2 i j) = a4 (ix1 j) := by
  unfold val_main_v6 val_main_v5
  exact Cert.LibBiasRow.row_tile_apply a4 _ _ i j

theorem v7_at (i : Fin 50000) (j : Fin 128) : val_main_v7 (F := Ideal) a0 a3 a4 (ix2 i j) = sH a0 a3 a4 i j := by
  rw [val_main_v7_apply, v4_dot, v6_bias]
  rfl

/-! ## Sum aggregation: the rows of h fetched at the source words, added into the rows the destination words name -/

theorem v14_at (e : Fin 600000) (j : Fin 128) :
    val_main_v14 (F := Ideal) a0 a1 a3 a4 (ix2 e j) = sH a0 a3 a4 (Cert.Spec.srcRow (srcW a1) e) j := by
  unfold val_main_v14
  refine (Cert.LibIndexRows.gather_rows_apply (N := 50000) (D := 128) (R := 600000) (by norm_num)
    gather_S50000x128_S600000x1_S600000x128_1_0_n_n_0_1_1128.wf _ _ e j).trans ?_
  simp only [v13_at]
  exact v7_at a0 a3 a4 _ j

theorem v17_at (i : Fin 50000) (c : Fin 128) :
    val_main_v17 (F := Ideal) a0 a1 a3 a4 (ix2 i c)
      = Cert.Spec.segRows (dstW a1) (fun e j => sH a0 a3 a4 (Cert.Spec.srcRow (srcW a1) e) j) i c := by
  unfold val_main_v17
  rw [rowScatter_at scatter_S50000x128_S600000x1_S600000x128_1_0_0_1 _ rfl, v15_zero, zero_add]
  refine Finset.sum_congr rfl fun e _ => ?_
  rw [v16_at, v14_at]

/-- The features a node's perceptron sees: its own plus those of the sources of the edges into it. -/
abbrev sAgg : Cert.Spec.Mat 50000 128 := fun i k =>
  sH a0 a3 a4 i k + Cert.Spec.segRows (dstW a1) (fun e j => sH a0 a3 a4 (Cert.Spec.srcRow (srcW a1) e) j) i k

theorem v18_at (i : Fin 50000) (k : Fin 128) : val_main_v18 (F := Ideal) a0 a1 a3 a4 (ix2 i k) = sAgg a0 a1 a3 a4 i k := by
  rw [val_main_v18_apply, v7_at, v17_at]
  rfl

/-! ## The two-layer perceptron with its rectifier -/

theorem v19_dot (i : Fin 50000) (j : Fin 128) :
    val_main_v19 (F := Ideal) a0 a1 a3 a4 a5 (ix2 i j) = ∑ k : Fin 128, val_main_v18 (F := Ideal) a0 a1 a3 a4 (ix2 i k) * a5 (ix2 k j) := by
  rw [val_main_v19_apply]
  refine Finset.sum_congr rfl fun k _ => ?_
  have el : lidx_main_v19 (ix2 i j) k = ix2 i k := funext fun a => by match a with | ⟨0, _⟩ => rfl | ⟨1, _⟩ => rfl
  have er : ridx_main_v19 (ix2 i j) k = ix2 k j := funext fun a => by match a with | ⟨0, _⟩ => rfl | ⟨1, _⟩ => rfl
  rw [el, er]

theorem v21_bias (i : Fin 50000) (j : Fin 128) : val_main_v21 (F := Ideal) a6 (ix2 i j) = a6 (ix1 j) := by
  unfold val_main_v21 val_main_v20
  exact Cert.LibBiasRow.row_tile_apply a6 _ _ i j

theorem v23_at (i : Fin 50000) (j : Fin 128) :
    val_main_v23 (F := Ideal) a0 a1 a3 a4 a5 a6 (ix2 i j)
      = Cert.Spec.relu (Cert.Spec.dense (mat a5) (vec a6) (sAgg a0 a1 a3 a4)) i j := by
  rw [val_main_v23_apply, val_main_v22_apply, v19_dot, v21_bias, call0_v0_zero]
  simp only [v18_at]
  rfl

theorem v24_dot (i : Fin 50000) (j : Fin 128) :
    val_main_v24 (F := Ideal) a0 a1 a3 a4 a5 a6 a7 (ix2 i j) = ∑ k : Fin 128, val_main_v23 (F := Ideal) a0 a1 a3 a4 a5 a6 (ix2 i k) * a7 (ix2 k j) := by
  rw [val_main_v24_apply]
  refine Finset.sum_congr rfl fun k _ => ?_
  have el : lidx_main_v24 (ix2 i j) k = ix2 i k := funext fun a => by match a with | ⟨0, _⟩ => rfl | ⟨1, _⟩ => rfl
  have er : ridx_main_v24 (ix2 i j) k = ix2 k j := funext fun a => by match a with | ⟨0, _⟩ => rfl | ⟨1, _⟩ => rfl
  rw [el, er]

theorem v26_bias (i : Fin 50000) (j : Fin 128) : val_main_v26 (F := Ideal) a8 (ix2 i j) = a8 (ix1 j) := by
  unfold val_main_v26 val_main_v25
  exact Cert.LibBiasRow.row_tile_apply a8 _ _ i j

/-- The first layer's node features, as the specification writes them. -/
abbrev sX1 : Cert.Spec.Mat 50000 128 :=
  Cert.Spec.x1 (mat a0) (srcW a1) (dstW a1) (mat a3) (vec a4) (mat a5) (vec a6) (mat a7) (vec a8)

theorem v27_at (i : Fin 50000) (j : Fin 128) : val_main_v27 (F := Ideal) a0 a1 a3 a4 a5 a6 a7 a8 (ix2 i j) = sX1 a0 a1 a3 a4 a5 a6 a7 a8 i j := by
  rw [val_main_v27_apply, v24_dot, v26_bias]
  simp only [v23_at]
  rfl

end Cert.Proof.RefValue

end
-- ==== Proof.RefValue.Deg.lean ====
/-
  The degree normalisation of the reference, read at an index: the count of edges into a node (ones added into
  zeros at the destination words) plus one, its inverse square root, the two per-edge factors fetched at the wrapped
  source and destination words with their product spread over the feature columns, and the node's own squared
  factor spread over the feature columns. The program computes all of it once per convolution layer; the two copies
  are read the same way.
-/
import proofs.«146766_j74998718923374_2_alg».proof.Proof.RefValue.Basic
import proofs.«146766_j74998718923374_2_alg».proof.Proof.RefValue.Scatter

noncomputable section

namespace Cert.Proof.RefValue

open Cert.ReferenceIdeal Cert.ReferenceIdeal.Gen Cert.ReferenceIdeal.Read Idealize.ShloMosaic Idealize.ShloMosaic.ValueIdx
open scoped BigOperators

variable (a1 : (⟨S2x600000, .i32⟩ : BufTy).Contents (Elt Ideal))

/-! ## The first layer's copy -/

theorem v32_at (i : Fin 50000) :
    val_main_v32 (F := Ideal) a1 (ix1 i) = ∑ e : Fin 600000, if (dstW a1 e).toInt = (i.val : ℤ) then oneW else 0 := by
  unfold val_main_v32
  rw [entryScatter_at scatter_S50000_S600000x1_S600000_n_0_0_1 _ rfl, v30_zero, zero_add]
  refine Finset.sum_congr rfl fun e _ => ?_
  rw [v31_at, v29_const]

theorem v35_at (i : Fin 50000) : val_main_v35 (F := Ideal) a1 (ix1 i) = Cert.Spec.dinv (dstW a1) oneW i := by
  rw [val_main_v35_apply, val_main_v34_apply, v32_at, v33_const, Ideal.hostUnary_rsqrt_def, Ideal.addf_def]
  rfl

theorem v42_at (e : Fin 600000) :
    val_main_v42 (F := Ideal) a1 (ix1 e) = Cert.Spec.dinv (dstW a1) oneW (Cert.Spec.srcRow (srcW a1) e) := by
  unfold val_main_v42
  refine (Cert.LibIndexRows.gather_entries_apply (N := 50000) (R := 600000) (by norm_num)
    gather_S50000_S600000x1_S600000_n_0_n_n_0_1_1.wf _ _ e).trans ?_
  simp only [v41_at]
  exact v35_at a1 _

theorem v49_at (e : Fin 600000) :
    val_main_v49 (F := Ideal) a1 (ix1 e) = Cert.Spec.dinv (dstW a1) oneW (Cert.Spec.dstRow (dstW a1) e) := by
  unfold val_main_v49
  refine (Cert.LibIndexRows.gather_entries_apply (N := 50000) (R := 600000) (by norm_num)
    gather_S50000_S600000x1_S600000_n_0_n_n_0_1_1.wf _ _ e).trans ?_
  simp only [v48_at]
  exact v35_at a1 _

theorem v59_at (e : Fin 600000) (j : Fin 128) :
    val_main_v59 (F := Ideal) a1 (ix2 e j)
      = Cert.Spec.dinv (dstW a1) oneW (Cert.Spec.srcRow (srcW a1) e) * Cert.Spec.dinv (dstW a1) oneW (Cert.Spec.dstRow (dstW a1) e) := by
  unfold val_main_v59 val_main_v58
  refine ((Cert.LibBroadcastIn.rows_apply _ _ e j).trans (Cert.LibBroadcastIn.col_apply _ _ e 0)).trans ?_
  rw [val_main_v50_apply, v42_at, v49_at]
  rfl

theorem v66_at (i : Fin 50000) (j : Fin 128) :
    val_main_v66 (F := Ideal) a1 (ix2 i j) = Cert.Spec.dinv (dstW a1) oneW i * Cert.Spec.dinv (dstW a1) oneW i := by
  unfold val_main_v66 val_main_v65
  refine ((Cert.LibBroadcastIn.rows_apply _ _ i j).trans (Cert.LibBroadcastIn.col_apply _ _ i 0)).trans ?_
  rw [val_main_v64_apply, v35_at]
  rfl

/-! ## The second layer's copy -/

theorem v77_at (i : Fin 50000) :
    val_main_v77 (F := Ideal) a1 (ix1 i) = ∑ e : Fin 600000, if (dstW a1 e).toInt = (i.val : ℤ) then oneW else 0 := by
  unfold val_main_v77
  rw [entryScatter_at scatter_S50000_S600000x1_S600000_n_0_0_1 _ rfl, v75_zero, zero_add]
  refine Finset.sum_congr rfl fun e _ => ?_
  rw [v76_at, v74_const]

theorem v80_at (i : Fin 50000) : val_main_v80 (F := Ideal) a1 (ix1 i) = Cert.Spec.dinv (dstW a1) oneW i := by
  rw [val_main_v80_apply, val_main_v79_apply, v77_at, v78_const, Ideal.hostUnary_rsqrt_def, Ideal.addf_def]
  rfl

theorem v87_at (e : Fin 600000) :
    val_main_v87 (F := Ideal) a1 (ix1 e) = Cert.Spec.dinv (dstW a1) oneW (Cert.Spec.srcRow (srcW a1) e) := by
  unfold val_main_v87
  refine (Cert.LibIndexRows.gather_entries_apply (N := 50000) (R := 600000) (by norm_num)
    gather_S50000_S600000x1_S600000_n_0_n_n_0_1_1.wf _ _ e).trans ?_
  simp only [v86_at]
  exact v80_at a1 _

theorem v94_at (e : Fin 600000) :
    val_main_v94 (F := Ideal) a1 (ix1 e) = Cert.Spec.dinv (dstW a1) oneW (Cert.Spec.dstRow (dstW a1) e) := by
  unfold val_main_v94
  refine (Cert.LibIndexRows.gather_entries_apply (N := 50000) (R := 600000) (by norm_num)
    gather_S50000_S600000x1_S600000_n_0_n_n_0_1_1.wf _ _ e).trans ?_
  simp only [v93_at]
  exact v80_at a1 _

theorem v104_at (e : Fin 600000) (j : Fin 128) :
    val_main_v104 (F := Ideal) a1 (ix2 e j)
      = Cert.Spec.dinv (dstW a1) oneW (Cert.Spec.srcRow (srcW a1) e) * Cert.Spec.dinv (dstW a1) oneW (Cert.Spec.dstRow (dstW a1) e) := by
  unfold val_main_v104 val_main_v103
  refine ((Cert.LibBroadcastIn.rows_apply _ _ e j).trans (Cert.LibBroadcastIn.col_apply _ _ e 0)).trans ?_
  rw [val_main_v95_apply, v87_at, v94_at]
  rfl

theorem v111_at (i : Fin 50000) (j : Fin 128) :
    val_main_v111 (F := Ideal) a1 (ix2 i j) = Cert.Spec.dinv (dstW a1) oneW i * Cert.Spec.dinv (dstW a1) oneW i := by
  unfold val_main_v111 val_main_v110
  refine ((Cert.LibBroadcastIn.rows_apply _ _ i j).trans (Cert.LibBroadcastIn.col_apply _ _ i 0)).trans ?_
  rw [val_main_v109_apply, v80_at]
  rfl

end Cert.Proof.RefValue

end
-- ==== Proof.RefValue.Conv.lean ====
/-
  The reference's two degree-normalised convolution layers, read at an index. A layer projects its input by its
  weight matrix, fetches the projected rows at the wrapped source words, scales each fetched row by the product of
  the two per-edge factors, adds the scaled rows into zeros at the destination words, adds the node's own projected
  row scaled by its squared factor, adds the bias and rectifies. The two layers are the same text on different
  values.
-/
import proofs.«146766_j74998718923374_2_alg».proof.Proof.RefValue.Gin
import proofs.«146766_j74998718923374_2_alg».proof.Proof.RefValue.Deg

noncomputable section

namespace Cert.Proof.RefValue

open Cert.ReferenceIdeal Cert.ReferenceIdeal.Gen Cert.ReferenceIdeal.Read Idealize.ShloMosaic Idealize.ShloMosaic.ValueIdx
open scoped BigOperators

variable (a0 : (⟨S50000x128, .f32⟩ : BufTy).Contents (Elt Ideal)) (a1 : (⟨S2x600000, .i32⟩ : BufTy).Contents (Elt Ideal)) (a3 : (⟨S128x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal))

/-- The second and third layers' node features, as the specification writes them. -/
abbrev sX2 : Cert.Spec.Mat 50000 128 :=
  Cert.Spec.convR (srcW a1) (dstW a1) oneW (mat a9) (vec a10) (sX1 a0 a1 a3 a4 a5 a6 a7 a8)
abbrev sX3 : Cert.Spec.Mat 50000 128 :=
  Cert.Spec.convR (srcW a1) (dstW a1) oneW (mat a11) (vec a12) (sX2 a0 a1 a3 a4 a5 a6 a7 a8 a9 a10)

/-! ## The first convolution layer -/

theorem v28_dot (i : Fin 50000) (j : Fin 128) :
    val_main_v28 (F := Ideal) a0 a1 a3 a4 a5 a6 a7 a8 a9 (ix2 i j) = ∑ k : Fin 128, val_main_v27 (F := Ideal) a0 a1 a3 a4 a5 a6 a7 a8 (ix2 i k) * a9 (ix2 k j) := by
  rw [val_main_v28_apply]
  refine Finset.sum_congr rfl fun k _ => ?_
  have el : lidx_main_v28 (ix2 i j) k = ix2 i k := funext fun a => by match a with | ⟨0, _⟩ => rfl | ⟨1, _⟩ => rfl
  have er : ridx_main_v28 (ix2 i j) k = ix2 k j := funext fun a => by match a with | ⟨0, _⟩ => rfl | ⟨1, _⟩ => rfl
  rw [el, er]

theorem v28_at (i : Fin 50000) (j : Fin 128) : val_main_v28 (F := Ideal) a0 a1 a3 a4 a5 a6 a7 a8 a9 (ix2 i j) = Cert.Spec.mm (mat a9) (sX1 a0 a1 a3 a4 a5 a6 a7 a8) i j := by
  rw [v28_dot]
  simp only [v27_at]
  rfl

theorem v57_at (e : Fin 600000) (j : Fin 128) :
    val_main_v57 (F := Ideal) a0 a1 a3 a4 a5 a6 a7 a8 a9 (ix2 e j) = Cert.Spec.mm (mat a9) (sX1 a0 a1 a3 a4 a5 a6 a7 a8) (Cert.Spec.srcRow (srcW a1) e) j := by
  unfold val_main_v57
  refine (Cert.LibIndexRows.gather_rows_apply (N := 50000) (D := 128) (R := 600000) (by norm_num)
    gather_S50000x128_S600000x1_S600000x128_1_0_n_n_0_1_1128.wf _ _ e j).trans ?_
  simp only [v56_at]
  exact v28_at a0 a1 a3 a4 a5 a6 a7 a8 a9 _ j

theorem v63_at (i : Fin 50000) (c : Fin 128) :
    val_main_v63 (F := Ideal) a0 a1 a3 a4 a5 a6 a7 a8 a9 (ix2 i c)
      = Cert.Spec.segRows (dstW a1) (fun e j => Cert.Spec.mm (mat a9) (sX1 a0 a1 a3 a4 a5 a6 a7 a8) (Cert.Spec.srcRow (srcW a1) e) j
          * (Cert.Spec.dinv (dstW a1) oneW (Cert.Spec.srcRow (srcW a1) e) * Cert.Spec.dinv (dstW a1) oneW (Cert.Spec.dstRow (dstW a1) e))) i c := by
  unfold val_main_v63
  rw [rowScatter_at scatter_S50000x128_S600000x1_S600000x128_1_0_0_1 _ rfl, v61_zero, zero_add]
  refine Finset.sum_congr rfl fun e _ => ?_
  rw [v62_at, val_main_v60_apply, v57_at, v59_at]
  rfl

theorem v70_bias (i : Fin 50000) (j : Fin 128) : val_main_v70 (F := Ideal) a10 (ix2 i j) = a10 (ix1 j) := by
  unfold val_main_v70 val_main_v69
  exact Cert.LibBiasRow.row_tile_apply a10 _ _ i j

theorem v72_at (i : Fin 50000) (j : Fin 128) : val_main_v72 (F := Ideal) a0 a1 a3 a4 a5 a6 a7 a8 a9 a10 (ix2 i j) = sX2 a0 a1 a3 a4 a5 a6 a7 a8 a9 a10 i j := by
  rw [val_main_v72_apply, val_main_v71_apply, val_main_v68_apply, val_main_v67_apply, v63_at, v66_at,
    v28_at, v70_bias, call1_v0_zero]
  rfl

/-! ## The second convolution layer -/

theorem v73_dot (i : Fin 50000) (j : Fin 128) :
    val_main_v73 (F := Ideal) a0 a1 a3 a4 a5 a6 a7 a8 a9 a10 a11 (ix2 i j) = ∑ k : Fin 128, val_main_v72 (F := Ideal) a0 a1 a3 a4 a5 a6 a7 a8 a9 a10 (ix2 i k) * a11 (ix2 k j) := by
  rw [val_main_v73_apply]
  refine Finset.sum_congr rfl fun k _ => ?_
  have el : lidx_main_v73 (ix2 i j) k = ix2 i k := funext fun a => by match a with | ⟨0, _⟩ => rfl | ⟨1, _⟩ => rfl
  have er : ridx_main_v73 (ix2 i j) k = ix2 k j := funext fun a => by match a with | ⟨0, _⟩ => rfl | ⟨1, _⟩ => rfl
  rw [el, er]

theorem v73_at (i : Fin 50000) (j : Fin 128) : val_main_v73 (F := Ideal) a0 a1 a3 a4 a5 a6 a7 a8 a9 a10 a11 (ix2 i j) = Cert.Spec.mm (mat a11) (sX2 a0 a1 a3 a4 a5 a6 a7 a8 a9 a10) i j := by
  rw [v73_dot]
  simp only [v72_at]
  rfl

theorem v102_at (e : Fin 600000) (j : Fin 128) :
    val_main_v102 (F := Ideal) a0 a1 a3 a4 a5 a6 a7 a8 a9 a10 a11 (ix2 e j) = Cert.Spec.mm (mat a11) (sX2 a0 a1 a3 a4 a5 a6 a7 a8 a9 a10) (Cert.Spec.srcRow (srcW a1) e) j := by
  unfold val_main_v102
  refine (Cert.LibIndexRows.gather_rows_apply (N := 50000) (D := 128) (R := 600000) (by norm_num)
    gather_S50000x128_S600000x1_S600000x128_1_0_n_n_0_1_1128.wf _ _ e j).trans ?_
  simp only [v101_at]
  exact v73_at a0 a1 a3 a4 a5 a6 a7 a8 a9 a10 a11 _ j

theorem v108_at (i : Fin 50000) (c : Fin 128) :
    val_main_v108 (F := Ideal) a0 a1 a3 a4 a5 a6 a7 a8 a9 a10 a11 (ix2 i c)
      = Cert.Spec.segRows (dstW a1) (fun e j => Cert.Spec.mm (mat a11) (sX2 a0 a1 a3 a4 a5 a6 a7 a8 a9 a10) (Cert.Spec.srcRow (srcW a1) e) j
          * (Cert.Spec.dinv (dstW a1) oneW (Cert.Spec.srcRow (srcW a1) e) * Cert.Spec.dinv (dstW a1) oneW (Cert.Spec.dstRow (dstW a1) e))) i c := by
  unfold val_main_v108
  rw [rowScatter_at scatter_S50000x128_S600000x1_S600000x128_1_0_0_1 _ rfl, v106_zero, zero_add]
  refine Finset.sum_congr rfl fun e _ => ?_
  rw [v107_at, val_main_v105_apply, v102_at, v104_at]
  rfl

theorem v115_bias (i : Fin 50000) (j : Fin 128) : val_main_v115 (F := Ideal) a12 (ix2 i j) = a12 (ix1 j) := by
  unfold val_main_v115 val_main_v114
  exact Cert.LibBiasRow.row_tile_apply a12 _ _ i j

theorem v117_at (i : Fin 50000) (j : Fin 128) : val_main_v117 (F := Ideal) a0 a1 a3 a4 a5 a6 a7 a8 a9 a10 a11 a12 (ix2 i j) = sX3 a0 a1 a3 a4 a5 a6 a7 a8 a9 a10 a11 a12 i j := by
  rw [val_main_v117_apply, val_main_v116_apply, val_main_v113_apply, val_main_v112_apply, v108_at, v111_at,
    v73_at, v115_bias, call2_v0_zero]
  rfl

end Cert.Proof.RefValue

end
-- ==== Proof.RefValue.Pool.lean ====
/-
  The reference's pooling stage, read at an entry.

  The three layers' node features are laid side by side (384 columns), each node's row is added into the row of the
  graph it belongs to, the number of nodes of each graph is counted the same way (ones added at the graph words) and
  floored at one, and each pooled row is divided by its graph's floored count.  Read at entry (g, k) this is the
  specification's per-graph sum of the concatenated layers over the floored node count — for any three tables the
  layers are known to be.
-/
import proofs.«146766_j74998718923374_2_alg».proof.Proof.RefValue.Basic

noncomputable section

namespace Cert.Proof.RefValue

open Cert.ReferenceIdeal Cert.ReferenceIdeal.Gen Cert.ReferenceIdeal.Read Idealize.ShloMosaic Idealize.ShloMosaic.ValueIdx
open scoped BigOperators

variable (a0 : (⟨S50000x128, .f32⟩ : BufTy).Contents (Elt Ideal)) (a1 : (⟨S2x600000, .i32⟩ : BufTy).Contents (Elt Ideal))
  (a2 : (⟨S50000, .i32⟩ : BufTy).Contents (Elt Ideal)) (a3 : (⟨S128x128, .f32⟩ : BufTy).Contents (Elt Ideal))
  (a4 : (⟨S128, .f32⟩ : BufTy).Contents (Elt Ideal)) (a5 : (⟨S128x128, .f32⟩ : BufTy).Contents (Elt Ideal))
  (a6 : (⟨S128, .f32⟩ : BufTy).Contents (Elt Ideal)) (a7 : (⟨S128x128, .f32⟩ : BufTy).Contents (Elt Ideal))
  (a8 : (⟨S128, .f32⟩ : BufTy).Contents (Elt Ideal)) (a9 : (⟨S128x128, .f32⟩ : BufTy).Contents (Elt Ideal))
  (a10 : (⟨S128, .f32⟩ : BufTy).Contents (Elt Ideal)) (a11 : (⟨S128x128, .f32⟩ : BufTy).Contents (Elt Ideal))
  (a12 : (⟨S128, .f32⟩ : BufTy).Contents (Elt Ideal))

/-! ## The node count of a graph, floored at one -/

/-- The floored node count of graph `g`: ones added into the zeros at each node's graph word (the scatter is "add
    entry n of the updates into entry bat[n] of the vector"), then the maximum with one. -/
theorem v127_at (g : Fin 512) : val_main_v127 (F := Ideal) a2 (ix1 g) = Cert.Spec.cnt (batW a2) oneW g := by
  have wf : ScatterDims.WF ⟨1, ![512]⟩ ⟨2, ![50000, 1]⟩ ⟨1, ![50000]⟩ [] [0] [0] 1 := scatter_S512_S50000x1_S50000_n_0_0_1.wf
  have hd : scatter_S512_S50000x1_S50000_n_0_0_1 = Cert.LibIndexRows.entryScatterDims 512 50000 wf := rfl
  rw [val_main_v127_apply, v126_const]
  unfold val_main_v125 Host.scatterAdd
  rw [Ideal.hostScatterAdd_def, hd, Cert.LibScatterSum.entryScatterAdd_apply, v123_zero, zero_add]
  simp only [v124_at, v122_const]
  rfl

/-! ## The three layers side by side -/

variable (X1 X2 X3 : Cert.Spec.Mat 50000 128)
  (h1 : ∀ i j, val_main_v27 (F := Ideal) a0 a1 a3 a4 a5 a6 a7 a8 (ix2 i j) = X1 i j)
  (h2 : ∀ i j, val_main_v72 (F := Ideal) a0 a1 a3 a4 a5 a6 a7 a8 a9 a10 (ix2 i j) = X2 i j)
  (h3 : ∀ i j, val_main_v117 (F := Ideal) a0 a1 a3 a4 a5 a6 a7 a8 a9 a10 a11 a12 (ix2 i j) = X3 i j)

include h1 h2 h3 in
/-- The concatenation at an entry: the layer whose 128 columns hold column `k`, at the column counted from its first. -/
theorem v118_at (n : Fin 50000) (k : Fin 384) :
    val_main_v118 (F := Ideal) a0 a1 a3 a4 a5 a6 a7 a8 a9 a10 a11 a12 (ix2 n k) = Cert.Spec.cat3 X1 X2 X3 n k := by
  unfold val_main_v118 Cert.Spec.cat3
  have hk : k.val < 384 := k.isLt
  by_cases c1 : k.val < 128
  · rw [dif_pos c1]
    exact (Cert.LibConcatCols.join3_fst (A := 50000) (n1 := 128) (n2 := 128) (n3 := 128) (n := 384) _ _ _ _ n k ⟨k.val, c1⟩ rfl).trans (h1 n _)
  · rw [dif_neg c1]
    by_cases c2 : k.val < 256
    · rw [dif_pos c2]
      exact (Cert.LibConcatCols.join3_snd (A := 50000) (n1 := 128) (n2 := 128) (n3 := 128) (n := 384) _ _ _ _ n k
        ⟨k.val - 128, by omega⟩ (by show k.val = 128 + (k.val - 128); omega)).trans (h2 n _)
    · rw [dif_neg c2]
      exact (Cert.LibConcatCols.join3_thd (A := 50000) (n1 := 128) (n2 := 128) (n3 := 128) (n := 384) _ _ _ _ n k
        ⟨k.val - 256, by omega⟩ (by show k.val = 128 + 128 + (k.val - 256); omega)).trans (h3 n _)

/-! ## The per-graph sums, and the average -/

include h1 h2 h3 in
/-- The pooled features at an entry: the concatenated rows added into the zeros at each node's graph word (the
    scatter is "add row n of the updates into row bat[n] of the matrix"). -/
theorem v121_at (g : Fin 512) (k : Fin 384) :
    val_main_v121 (F := Ideal) a0 a1 a2 a3 a4 a5 a6 a7 a8 a9 a10 a11 a12 (ix2 g k) = Cert.Spec.poolRows (batW a2) (Cert.Spec.cat3 X1 X2 X3) g k := by
  have wf : ScatterDims.WF ⟨2, ![512, 384]⟩ ⟨2, ![50000, 1]⟩ ⟨2, ![50000, 384]⟩ [1] [0] [0] 1 :=
    scatter_S512x384_S50000x1_S50000x384_1_0_0_1.wf
  have hd : scatter_S512x384_S50000x1_S50000x384_1_0_0_1 = Cert.LibIndexRows.rowScatterDims 512 384 50000 wf := rfl
  unfold val_main_v121 Host.scatterAdd
  rw [Ideal.hostScatterAdd_def, hd, Cert.LibScatterSum.rowScatterAdd_apply, v119_zero, zero_add]
  simp only [v120_at, v118_at a0 a1 a3 a4 a5 a6 a7 a8 a9 a10 a11 a12 X1 X2 X3 h1 h2 h3]
  rfl

include h1 h2 h3 in
/-- The pooled features divided by the floored node count of their graph, at an entry. -/
theorem v130_at (g : Fin 512) (k : Fin 384) :
    val_main_v130 (F := Ideal) a0 a1 a2 a3 a4 a5 a6 a7 a8 a9 a10 a11 a12 (ix2 g k)
      = Ideal.div (Cert.Spec.poolRows (batW a2) (Cert.Spec.cat3 X1 X2 X3) g k) (Cert.Spec.cnt (batW a2) oneW g) := by
  rw [val_main_v130_apply, v121_at a0 a1 a2 a3 a4 a5 a6 a7 a8 a9 a10 a11 a12 X1 X2 X3 h1 h2 h3]
  unfold val_main_v129 val_main_v128
  rw [Cert.LibBroadcastIn.rows_apply, Cert.LibBroadcastIn.col_apply, v127_at]
  rfl

end Cert.Proof.RefValue

end
-- ==== Proof.RefValue.Head.lean ====
/-
  The reference's projection head, read at an entry.

  From the pooled, averaged features the program applies a dense layer (a product with the first head weights, the
  bias spread over the rows), the rectifier, a second dense layer, and then normalises each row: the row's squares are
  summed from zero, the square root taken, the floor word put under it by a maximum, and the row divided by the result.
  Read at entry (r, o) this is the specification's head of the pooled features, whatever table those are known to be.
-/
import proofs.«146766_j74998718923374_2_alg».proof.Proof.RefValue.Basic

noncomputable section

namespace Cert.Proof.RefValue

open Cert.ReferenceIdeal Cert.ReferenceIdeal.Gen Cert.ReferenceIdeal.Read Idealize.ShloMosaic Idealize.ShloMosaic.ValueIdx
open scoped BigOperators

variable (a0 : (⟨S50000x128, .f32⟩ : BufTy).Contents (Elt Ideal)) (a1 : (⟨S2x600000, .i32⟩ : BufTy).Contents (Elt Ideal))
  (a2 : (⟨S50000, .i32⟩ : BufTy).Contents (Elt Ideal)) (a3 : (⟨S128x128, .f32⟩ : BufTy).Contents (Elt Ideal))
  (a4 : (⟨S128, .f32⟩ : BufTy).Contents (Elt Ideal)) (a5 : (⟨S128x128, .f32⟩ : BufTy).Contents (Elt Ideal))
  (a6 : (⟨S128, .f32⟩ : BufTy).Contents (Elt Ideal)) (a7 : (⟨S128x128, .f32⟩ : BufTy).Contents (Elt Ideal))
  (a8 : (⟨S128, .f32⟩ : BufTy).Contents (Elt Ideal)) (a9 : (⟨S128x128, .f32⟩ : BufTy).Contents (Elt Ideal))
  (a10 : (⟨S128, .f32⟩ : BufTy).Contents (Elt Ideal)) (a11 : (⟨S128x128, .f32⟩ : BufTy).Contents (Elt Ideal))
  (a12 : (⟨S128, .f32⟩ : BufTy).Contents (Elt Ideal)) (a13 : (⟨S384x128, .f32⟩ : BufTy).Contents (Elt Ideal))
  (a14 : (⟨S128, .f32⟩ : BufTy).Contents (Elt Ideal)) (a15 : (⟨S128x128, .f32⟩ : BufTy).Contents (Elt Ideal))
  (a16 : (⟨S128, .f32⟩ : BufTy).Contents (Elt Ideal))

/-! ## The head's two dense layers -/

/-- The first dense layer of the head, rectified, at an entry: of the pooled, averaged features. -/
theorem v135_at (r : Fin 512) (k : Fin 128) :
    val_main_v135 (F := Ideal) a0 a1 a2 a3 a4 a5 a6 a7 a8 a9 a10 a11 a12 a13 a14 (ix2 r k)
      = Cert.Spec.relu (Cert.Spec.dense (mat a13) (vec a14) (mat (val_main_v130 (F := Ideal) a0 a1 a2 a3 a4 a5 a6 a7 a8 a9 a10 a11 a12))) r k := by
  rw [val_main_v135_apply, call3_v0_zero, val_main_v134_apply]
  unfold val_main_v131 val_main_v133 val_main_v132
  rw [Cert.LibPlainDot.dotGeneral_ix2 _ none rfl rfl lhs_main_v131_0 lhs_main_v131_1 rhs_main_v131_0 rhs_main_v131_1,
    Cert.LibBiasRow.row_tile_apply]
  rfl

/-- The second dense layer at an entry: the rows that are then normalised. -/
theorem v139_at (r : Fin 512) (o : Fin 128) :
    val_main_v139 (F := Ideal) a0 a1 a2 a3 a4 a5 a6 a7 a8 a9 a10 a11 a12 a13 a14 a15 a16 (ix2 r o)
      = Cert.Spec.dense (mat a15) (vec a16)
          (Cert.Spec.relu (Cert.Spec.dense (mat a13) (vec a14) (mat (val_main_v130 (F := Ideal) a0 a1 a2 a3 a4 a5 a6 a7 a8 a9 a10 a11 a12)))) r o := by
  rw [val_main_v139_apply]
  unfold val_main_v136 val_main_v138 val_main_v137
  rw [Cert.LibPlainDot.dotGeneral_ix2 _ none rfl rfl lhs_main_v136_0 lhs_main_v136_1 rhs_main_v136_0 rhs_main_v136_1,
    Cert.LibBiasRow.row_tile_apply]
  simp only [v135_at]
  rfl

/-! ## The row-wise normalisation -/

/-- The result at an entry, over the program's own pooled features: each row of the second dense layer divided by the
    larger of its Euclidean norm (the square root of the row's sum of squares, the sum started from the zero word) and
    the floor word. -/
theorem v144_at (r : Fin 512) (o : Fin 128) :
    val_main_v144 (F := Ideal) a0 a1 a2 a3 a4 a5 a6 a7 a8 a9 a10 a11 a12 a13 a14 a15 a16 (ix2 r o)
      = Cert.Spec.head (mat a13) (vec a14) (mat a15) (vec a16) epsW (mat (val_main_v130 (F := Ideal) a0 a1 a2 a3 a4 a5 a6 a7 a8 a9 a10 a11 a12)) r o := by
  have hidx : ∀ k : Fin 128, idx_main_call4_v1 (ix1 r) k = ix2 r k := fun k =>
    funext fun a => by match a with | ⟨0, _⟩ => rfl | ⟨1, _⟩ => rfl
  rw [val_main_v144_apply, v139_at]
  unfold val_main_v143
  rw [Cert.LibBroadcastIn.rows_apply, val_main_v142_apply, v141_const, val_main_v140_apply]
  unfold val_main_call4_v2
  rw [Cert.LibBroadcastIn.col_apply, val_main_call4_v1_apply, val_main_call4_cst_apply, Ideal.ofBits_def,
    Ideal.ofBits_zero_f32, zero_add]
  simp only [val_main_call4_v0_apply, hidx, v139_at, Ideal.hostDivf_def, Ideal.maximumf_def, Ideal.hostUnary_sqrt_def,
    Ideal.mulf_def]
  unfold Cert.Spec.head
  rfl

/-- The result at an entry, over any table `G` the pooled, averaged features are known to be. -/
theorem head_at (G : Cert.Spec.Mat 512 384)
    (hG : ∀ g k, val_main_v130 (F := Ideal) a0 a1 a2 a3 a4 a5 a6 a7 a8 a9 a10 a11 a12 (ix2 g k) = G g k) (r : Fin 512) (o : Fin 128) :
    val_main_v144 (F := Ideal) a0 a1 a2 a3 a4 a5 a6 a7 a8 a9 a10 a11 a12 a13 a14 a15 a16 (ix2 r o)
      = Cert.Spec.head (mat a13) (vec a14) (mat a15) (vec a16) epsW G r o := by
  have hP : mat (val_main_v130 (F := Ideal) a0 a1 a2 a3 a4 a5 a6 a7 a8 a9 a10 a11 a12) = G := funext fun g => funext fun k => hG g k
  rw [← hP]
  exact v144_at a0 a1 a2 a3 a4 a5 a6 a7 a8 a9 a10 a11 a12 a13 a14 a15 a16 r o

end Cert.Proof.RefValue

end
-- ==== Proof.RefValue.lean ====
/-
  The reference's result is the specification's reference form.

  The stages of the reference — the index words, the input projection, the sum aggregation with its perceptron, the
  degree normalisation, the two convolution layers, the pooled and averaged concatenation, and the projection head
  with its row-wise normalisation — compose to `Cert.Spec.referenceResult` of the argument arrays, entry by entry.
-/
import proofs.«146766_j74998718923374_2_alg».proof.Proof.RefValue.Conv
import proofs.«146766_j74998718923374_2_alg».proof.Proof.RefValue.Pool
import proofs.«146766_j74998718923374_2_alg».proof.Proof.RefValue.Head

noncomputable section

namespace Cert.Proof.RefValue

open Cert.ReferenceIdeal Cert.ReferenceIdeal.Gen Cert.ReferenceIdeal.Read Idealize.ShloMosaic Idealize.ShloMosaic.ValueIdx
open scoped BigOperators

variable (a0 : (⟨S50000x128, .f32⟩ : BufTy).Contents (Elt Ideal)) (a1 : (⟨S2x600000, .i32⟩ : BufTy).Contents (Elt Ideal)) (a2 : (⟨S50000, .i32⟩ : BufTy).Contents (Elt Ideal)) (a3 : (⟨S128x128, .f32⟩ : BufTy).Contents (Elt Ideal)) (a4 : (⟨S128, .f32⟩ : BufTy).Contents (Elt Ideal)) (a5 : (⟨S128x128, .f32⟩ : BufTy).Contents (Elt Ideal)) (a6 : (⟨S128, .f32⟩ : BufTy).Contents (Elt Ideal)) (a7 : (⟨S128x128, .f32⟩ : BufTy).Contents (Elt Ideal)) (a8 : (⟨S128, .f32⟩ : BufTy).Contents (Elt Ideal)) (a9 : (⟨S128x128, .f32⟩ : BufTy).Contents (Elt Ideal)) (a10 : (⟨S128, .f32⟩ : BufTy).Contents (Elt Ideal)) (a11 : (⟨S128x128, .f32⟩ : BufTy).Contents (Elt Ideal)) (a12 : (⟨S128, .f32⟩ : BufTy).Contents (Elt Ideal)) (a13 : (⟨S384x128, .f32⟩ : BufTy).Contents (Elt Ideal)) (a14 : (⟨S128, .f32⟩ : BufTy).Contents (Elt Ideal)) (a15 : (⟨S128x128, .f32⟩ : BufTy).Contents (Elt Ideal)) (a16 : (⟨S128, .f32⟩ : BufTy).Contents (Elt Ideal))

/-- The reference's last stage, read at an entry, is the specification's reference form of the argument arrays. -/
theorem result_eq (r : Fin 512) (o : Fin 128) :
    val_main_v144 (F := Ideal) a0 a1 a2 a3 a4 a5 a6 a7 a8 a9 a10 a11 a12 a13 a14 a15 a16 (ix2 r o)
      = Cert.Spec.referenceResult (fun i k => a0 (ix2 i k)) (fun e => a1 (ix2 0 e)) (fun e => a1 (ix2 1 e)) (fun n => a2 (ix1 n))
          (fun k o => a3 (ix2 k o)) (fun o => a4 (ix1 o)) (fun k o => a5 (ix2 k o)) (fun o => a6 (ix1 o))
          (fun k o => a7 (ix2 k o)) (fun o => a8 (ix1 o)) (fun k o => a9 (ix2 k o)) (fun o => a10 (ix1 o))
          (fun k o => a11 (ix2 k o)) (fun o => a12 (ix1 o)) (fun k o => a13 (ix2 k o)) (fun o => a14 (ix1 o))
          (fun k o => a15 (ix2 k o)) (fun o => a16 (ix1 o))
          (Ideal.ofBits .f32 0x3F800000#32) (Ideal.ofBits .f32 0x2B8CBCCC#32) r o := by
  have h := head_at a0 a1 a2 a3 a4 a5 a6 a7 a8 a9 a10 a11 a12 a13 a14 a15 a16
    (fun g k => Ideal.div (Cert.Spec.poolRows (batW a2) (Cert.Spec.cat3 (sX1 a0 a1 a3 a4 a5 a6 a7 a8) (sX2 a0 a1 a3 a4 a5 a6 a7 a8 a9 a10) (sX3 a0 a1 a3 a4 a5 a6 a7 a8 a9 a10 a11 a12)) g k)
      (Cert.Spec.cnt (batW a2) oneW g))
    (fun g k => v130_at a0 a1 a2 a3 a4 a5 a6 a7 a8 a9 a10 a11 a12 (sX1 a0 a1 a3 a4 a5 a6 a7 a8) (sX2 a0 a1 a3 a4 a5 a6 a7 a8 a9 a10) (sX3 a0 a1 a3 a4 a5 a6 a7 a8 a9 a10 a11 a12)
      (v27_at a0 a1 a3 a4 a5 a6 a7 a8) (v72_at a0 a1 a3 a4 a5 a6 a7 a8 a9 a10) (v117_at a0 a1 a3 a4 a5 a6 a7 a8 a9 a10 a11 a12) g k) r o
  exact h

end Cert.Proof.RefValue

end
-- ==== Proof.LibRealEntries.lean ====
/-
  Real numbers inside the extended reals, for kernels whose inputs are finite: three facts a proof needs once it knows
  that the entries it meets are real numbers.

  * a finite sum of real numbers, each read as an extended real, is the real sum read as an extended real
    (`coe_sum`);
  * the quotient the ideal instance gives two real numbers, the divisor positive, is their real quotient
    (`div_pos_coe`); in particular it is again a real number, and positive when the dividend is;
  * a real number minus itself is zero (`sub_self_of_real`) — on the extended reals `x - x` is zero only for real `x`
    (`⊤ - ⊤ = ⊥`), which is what makes a split such as `x = hi + (x - hi)` collapse.
-/
import Idealize.ShloMosaic.PureOps.Ideal

noncomputable section

namespace Cert.LibRealEntries

open Idealize.ShloMosaic

/-- A sum of reals, over any finite index set, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A real divided by a positive real, at the ideal values, is their real quotient. -/
theorem div_pos_coe {a b : ℝ} (hb : 0 < b) : Ideal.div (a : EReal) (b : EReal) = ((a / b : ℝ) : EReal) := by
  rw [Ideal.div_coe hb.ne', ← EReal.coe_mul]; congr 1; ring

/-- A real minus itself is zero on the extended reals. -/
theorem sub_self_of_real {x : EReal} (hx : ∃ r : ℝ, x = (r : EReal)) : x - x = 0 := by
  obtain ⟨r, rfl⟩ := hx
  rw [← EReal.coe_sub, sub_self, EReal.coe_zero]

end Cert.LibRealEntries

end
-- ==== Proof.Algebra.lean ====
/-
  The two arrangements of the network agree on the extended reals.

  Only one law is needed beyond commutativity and associativity: a factor that is a non-negative REAL number distributes
  over a sum of extended reals (and so over a finite sum).  The factor here is d_i = (1 + number of edges into i)^(-1/2):
  the count is a natural number, so 1 + count is a real number ≥ 1 and d_i is a positive real, whatever the features are
  (no finiteness of the inputs is used).  An edge that goes into node i has destination word i, a non-negative value
  below 50000, so the row its destination word fetches is row i itself: d[destination e] = d_i inside the sum over the
  edges into i.  With y = X·W:
    d_i·(Σ_{e into i} y[s e]·d[s e] + y_i·d_i) = Σ_{e into i} y[s e]·(d[s e]·d_i) + (d_i·d_i)·y_i.
  Pooling is a sum over nodes taken column by column, so it commutes with placing three blocks side by side.
-/
import proofs.«146766_j74998718923374_2_alg».proof.Proof.Spec
import proofs.«146766_j74998718923374_2_alg».proof.Proof.LibRealEntries
import proofs.«146766_j74998718923374_2_alg».proof.Proof.LibIndexRows

noncomputable section

namespace Cert.Algebra

open Idealize.ShloMosaic Cert.Spec
open scoped BigOperators

/-- A non-negative real factor distributes over a finite sum of extended reals. -/
theorem mul_sum {ι : Type*} (s : Finset ι) (a : EReal) (ha : 0 ≤ a) (ha' : a ≠ ⊤) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top ha ha', ih]

/-- A count of ones is a non-negative real. -/
theorem count_real {ι : Type*} [Fintype ι] (p : ι → Prop) [DecidablePred p] :
    ∃ r : ℝ, 0 ≤ r ∧ (∑ e : ι, if p e then ((1 : ℝ) : EReal) else 0) = (r : EReal) := by
  refine ⟨∑ e : ι, if p e then (1 : ℝ) else 0, Finset.sum_nonneg fun e _ => by split_ifs <;> norm_num, ?_⟩
  rw [← Cert.LibRealEntries.coe_sum]
  refine Finset.sum_congr rfl fun e _ => ?_
  split_ifs <;> simp

/-- The inverse square-root degree of a node is a non-negative real number. -/
theorem dinv_real (dst : Fin 600000 → BitVec 32) (i : Fin 50000) :
    ∃ r : ℝ, 0 ≤ r ∧ dinv dst ((1 : ℝ) : EReal) i = (r : EReal) := by
  obtain ⟨r, hr, hs⟩ := count_real (fun e : Fin 600000 => (dst e).toInt = (i.val : ℤ))
  have hpos : (0 : ℝ) < r + 1 := by linarith
  refine ⟨(Real.sqrt (r + 1))⁻¹, inv_nonneg.mpr (Real.sqrt_nonneg _), ?_⟩
  unfold dinv deg
  rw [hs, ← EReal.coe_add, Ideal.rsqrt_coe, if_neg (not_lt.mpr hpos.le), if_neg hpos.ne']

/-- An edge that goes into node i fetches row i at its destination word. -/
theorem dstRow_of_lands (dst : Fin 600000 → BitVec 32) (e : Fin 600000) (i : Fin 50000)
    (h : (dst e).toInt = (i.val : ℤ)) : dstRow dst e = i := by
  unfold dstRow wrapIx
  rw [Cert.LibIndexRows.wrap_of_nonneg _ _ (by rw [h]; exact Int.natCast_nonneg _)]
  unfold rowOf
  exact Fin.ext (Cert.LibIndexRows.clamp_of_toInt_eq h i.isLt)

/-- One convolution layer: the kernel's arrangement is the reference's. -/
theorem convK_eq_convR (src dst : Fin 600000 → BitVec 32) (W : Mat 128 128) (b : Vect 128) (X : Mat 50000 128) :
    convK src dst ((1 : ℝ) : EReal) W b X = convR src dst ((1 : ℝ) : EReal) W b X := by
  funext i j
  obtain ⟨r, hr, hd⟩ := dinv_real dst i
  have ha : (0 : EReal) ≤ dinv dst ((1 : ℝ) : EReal) i := by rw [hd]; exact_mod_cast hr
  have ha' : dinv dst ((1 : ℝ) : EReal) i ≠ ⊤ := by rw [hd]; exact EReal.coe_ne_top _
  unfold convK convR
  refine congrArg (fun t => max (t + b j) 0) ?_
  unfold segRows scaled
  rw [EReal.left_distrib_of_nonneg_of_ne_top ha ha', mul_sum _ _ ha ha']
  refine congrArg₂ (· + ·) ?_ ?_
  · refine Finset.sum_congr rfl fun e _ => ?_
    by_cases hl : (dst e).toInt = (i.val : ℤ)
    · rw [if_pos hl, if_pos hl]
      dsimp only
      rw [dstRow_of_lands dst e i hl, mul_comm (dinv dst _ i), mul_assoc]
    · rw [if_neg hl, if_neg hl, mul_zero]
  · rw [mul_comm (dinv dst _ i) (mm W X i j * dinv dst _ i), mul_assoc, mul_comm (mm W X i j)]

/-- Pooling the concatenation is concatenating the pooled blocks. -/
theorem pool_cat3 (bat : Fin 50000 → BitVec 32) (A B C : Mat 50000 128) :
    poolRows bat (cat3 A B C) = cat3 (poolRows bat A) (poolRows bat B) (poolRows bat C) := by
  funext g k
  unfold poolRows cat3
  by_cases h1 : k.val < 128
  · simp only [dif_pos h1]
  · by_cases h2 : k.val < 256
    · simp only [dif_neg h1, dif_pos h2]
    · simp only [dif_neg h1, dif_neg h2]

/-- The kernel's result is the reference's, for any features, weights and index words. -/
theorem kernelResult_eq (x : Mat 50000 128) (src dst : Fin 600000 → BitVec 32) (bat : Fin 50000 → BitVec 32)
    (Win : Mat 128 128) (bin : Vect 128) (Wg1 : Mat 128 128) (bg1 : Vect 128) (Wg2 : Mat 128 128) (bg2 : Vect 128)
    (Wc1 : Mat 128 128) (bc1 : Vect 128) (Wc2 : Mat 128 128) (bc2 : Vect 128)
    (Wp1 : Mat 384 128) (bp1 : Vect 128) (Wp2 : Mat 128 128) (bp2 : Vect 128) (eps : EReal) :
    kernelResult x src dst bat Win bin Wg1 bg1 Wg2 bg2 Wc1 bc1 Wc2 bc2 Wp1 bp1 Wp2 bp2 ((1 : ℝ) : EReal) eps
      = referenceResult x src dst bat Win bin Wg1 bg1 Wg2 bg2 Wc1 bc1 Wc2 bc2 Wp1 bp1 Wp2 bp2 ((1 : ℝ) : EReal) eps := by
  unfold kernelResult referenceResult
  simp only [convK_eq_convR, pool_cat3]

end Cert.Algebra

end
-- ==== Proof.Bridge.lean ====
/-
  The two idealized programs compute the same table.

  On every core the kernel program's result array ends holding the kernel-side closed form of its own arguments (the
  run through five regions and five host stretches, read boundary by boundary), the reference's result array the
  reference-side closed form of its arguments (its operations read one by one); the arguments agree, the two closed forms
  are equal for all inputs (the degree factor is a non-negative real, so it distributes over the edge sum; pooling
  commutes with placing blocks side by side), and the shared literal 1.0 denotes the real number one.
-/
import proofs.«146766_j74998718923374_2_alg».proof.Defs
import proofs.«146766_j74998718923374_2_alg».proof.Proof.KI.Run
import proofs.«146766_j74998718923374_2_alg».proof.Proof.KI.Keep
import proofs.«146766_j74998718923374_2_alg».proof.Proof.KI.Args
import proofs.«146766_j74998718923374_2_alg».proof.Proof.KI.Chain
import proofs.«146766_j74998718923374_2_alg».proof.Proof.KI.Pool
import proofs.«146766_j74998718923374_2_alg».proof.Proof.RefValue
import proofs.«146766_j74998718923374_2_alg».proof.Proof.Algebra
import proofs.«146766_j74998718923374_2_alg».proof.Proof.Gen.KernelIdeal
import proofs.«146766_j74998718923374_2_alg».proof.Proof.Gen.ReferenceIdeal
import proofs.«146766_j74998718923374_2_alg».proof.Proof.Gen.Pre_finite_inputs
import proofs.«146766_j74998718923374_2_alg».proof.Proof.Gen.ReferenceIdeal.Run
import proofs.«146766_j74998718923374_2_alg».proof.Proof.Gen.ReferenceIdeal.Read

set_option maxRecDepth 16384

noncomputable section

namespace Cert.Proof.Bridge

open Idealize.ShloMosaic Idealize.ShloMosaic.TcCoe Idealize.ShloMosaic.ValueIdx Idealize.SL.Sem
open Cert.KernelIdeal.Hand

/-- The literal 1.0 denotes the real number one. -/
theorem one_word : (Ideal.ofBits .f32 0x3F800000#32 : EReal) = ((1 : ℝ) : EReal) := by
  simp [Ideal.ofBits, Ideal.ieee, -EReal.coe_mul]; norm_num

/-- What the kernel program's result array holds on core `c`: the kernel-side closed form of that core's arguments. -/
def resultOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v72) :=
  fun y => Cert.Spec.kernelResult (aX m c) (aSrc m c) (aDst m c) (aBat m c) (aWin m c) (abin m c) (aWg1 m c) (abg1 m c) (aWg2 m c) (abg2 m c)
    (aWc1 m c) (abc1 m c) (aWc2 m c) (abc2 m c) (aWp1 m c) (abp1 m c) (aWp2 m c) (abp2 m c) oneW epsW (y 0) (y 1)

theorem algebraic : Cert.algebraic_KernelIdeal_ReferenceIdeal := by
  intro m ρ m' ρ' _ hagree
  refine ⟨fun c => resultOf m c, ?_, ?_⟩
  · refine (θ_run Cert.KernelIdeal.defs _ _).mono (fun r h c => ?_) (Cert.KernelIdeal.Hand.run_all (F := Ideal) m ρ)
    refine ⟨?_, (h c _ (mem_uc Cert.KernelIdeal.main_arg0 (by decide))).trans (W10_main_arg0 m c),
      (h c _ (mem_uc Cert.KernelIdeal.main_arg1 (by decide))).trans (W10_main_arg1 m c),
      (h c _ (mem_uc Cert.KernelIdeal.main_arg2 (by decide))).trans (W10_main_arg2 m c),
      (h c _ (mem_uc Cert.KernelIdeal.main_arg3 (by decide))).trans (W10_main_arg3 m c),
      (h c _ (mem_uc Cert.KernelIdeal.main_arg4 (by decide))).trans (W10_main_arg4 m c),
      (h c _ (mem_uc Cert.KernelIdeal.main_arg5 (by decide))).trans (W10_main_arg5 m c),
      (h c _ (mem_uc Cert.KernelIdeal.main_arg6 (by decide))).trans (W10_main_arg6 m c),
      (h c _ (mem_uc Cert.KernelIdeal.main_arg7 (by decide))).trans (W10_main_arg7 m c),
      (h c _ (mem_uc Cert.KernelIdeal.main_arg8 (by decide))).trans (W10_main_arg8 m c),
      (h c _ (mem_uc Cert.KernelIdeal.main_arg9 (by decide))).trans (W10_main_arg9 m c),
      (h c _ (mem_uc Cert.KernelIdeal.main_arg10 (by decide))).trans (W10_main_arg10 m c),
      (h c _ (mem_uc Cert.KernelIdeal.main_arg11 (by decide))).trans (W10_main_arg11 m c),
      (h c _ (mem_uc Cert.KernelIdeal.main_arg12 (by decide))).trans (W10_main_arg12 m c),
      (h c _ (mem_uc Cert.KernelIdeal.main_arg13 (by decide))).trans (W10_main_arg13 m c),
      (h c _ (mem_uc Cert.KernelIdeal.main_arg14 (by decide))).trans (W10_main_arg14 m c),
      (h c _ (mem_uc Cert.KernelIdeal.main_arg15 (by decide))).trans (W10_main_arg15 m c),
      (h c _ (mem_uc Cert.KernelIdeal.main_arg16 (by decide))).trans (W10_main_arg16 m c)⟩
    refine (h c _ (mem_uc Cert.KernelIdeal.main_v72 (by decide))).trans ?_
    funext y
    obtain ⟨p, q, rfl⟩ : ∃ (p : Fin 512) (q : Fin 128), y = ix2 p q := ⟨y 0, y 1, eq_ix2 y⟩
    exact W10_result m c (W8_x1 m c) (W8_x2 m c) (W8_x3 m c) p q
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v144_eq, h0, h1, h2, h3, h4, h5, h6, h7, h8, h9, h10, h11, h12, h13, h14, h15, h16]
    funext y
    obtain ⟨p, q, rfl⟩ : ∃ (p : Fin 512) (q : Fin 128), y = ix2 p q := ⟨y 0, y 1, eq_ix2 y⟩
    rw [Cert.Proof.RefValue.result_eq]
    show _ = Cert.Spec.kernelResult (aX m c) (aSrc m c) (aDst m c) (aBat m c) (aWin m c) (abin m c) (aWg1 m c) (abg1 m c) (aWg2 m c) (abg2 m c)
      (aWc1 m c) (abc1 m c) (aWc2 m c) (abc2 m c) (aWp1 m c) (abp1 m c) (aWp2 m c) (abp2 m c) oneW epsW p q
    rw [show oneW = ((1 : ℝ) : EReal) from one_word, one_word, Cert.Algebra.kernelResult_eq]
    rfl

end Cert.Proof.Bridge

end
-- ==== Proof.lean ====
/-
  The certificate's claim.  Three frames — the word-level kernel program, its idealization (the same text read at exact
  reals) and the reference each run to the end, fault nowhere and leave their arguments unchanged —; the idealization
  rewrites nothing, so it is the program's own text (the preservation conjunct is trivially true); and at the exact reals
  the kernel program and the reference, from agreeing arguments, end with equal result tables.
-/
import proofs.«146766_j74998718923374_2_alg».proof.Defs
import proofs.«146766_j74998718923374_2_alg».proof.Proof.Frames
import proofs.«146766_j74998718923374_2_alg».proof.Proof.RefFrame
import proofs.«146766_j74998718923374_2_alg».proof.Proof.Bridge
import proofs.«146766_j74998718923374_2_alg».proof.Proof.Gen.Kernel
import proofs.«146766_j74998718923374_2_alg».proof.Proof.Gen.KernelIdeal
import proofs.«146766_j74998718923374_2_alg».proof.Proof.Gen.ReferenceIdeal
import proofs.«146766_j74998718923374_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_p, Frames.frame_pi, RefFrame.frame_ri, trivial, Bridge.algebraic⟩

end Cert.Proof

end
